-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v241)) (v1 : (c : Dev Cert.KernelIdeal.nD) → Buf (Elt Ideal) ((c.tc : Thread Cert.KernelIdeal.nD Cert.KernelIdeal.τ).loc Cert.KernelIdeal.main_v249)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v241) = v0 c
          ∧ r.2.mem ((c.tc : Thread Cert.KernelIdeal.nD Cert.KernelIdeal.τ).loc Cert.KernelIdeal.main_v249) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v242) = v0 c
          ∧ r.2.mem ((c.tc : Thread Cert.ReferenceIdeal.nD Cert.ReferenceIdeal.τ).loc Cert.ReferenceIdeal.main_v250) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S8192 : Shape := ⟨1, ![8192]⟩
abbrev S256x256 : Shape := ⟨2, ![256, 256]⟩
abbrev S256 : Shape := ⟨1, ![256]⟩
abbrev S512x256 : Shape := ⟨2, ![512, 256]⟩
abbrev S2x256 : Shape := ⟨2, ![2, 256]⟩
abbrev S11x256 : Shape := ⟨2, ![11, 256]⟩
abbrev S11x128 : Shape := ⟨2, ![11, 128]⟩
abbrev S128x256 : Shape := ⟨2, ![128, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S2x256 : S_.BroadcastsInDim S2x256 (![] : Fin 0 → Fin S2x256.rank)
  reducesTo_S2x256_S_d0_1 : S2x256.ReducesTo [0, 1] S_
  bcast_S_S11x256 : S_.BroadcastsInDim S11x256 (![] : Fin 0 → Fin S11x256.rank)
  reducesTo_S11x256_S_d0_1 : S11x256.ReducesTo [0, 1] S_
  bcast_S_S11x128 : S_.BroadcastsInDim S11x128 (![] : Fin 0 → Fin S11x128.rank)
  reducesTo_S11x128_S_d0_1 : S11x128.ReducesTo [0, 1] S_
  bcast_S_S128x256 : S_.BroadcastsInDim S128x256 (![] : Fin 0 → Fin S128x256.rank)
  reducesTo_S128x256_S_d0_1 : S128x256.ReducesTo [0, 1] S_

variable [Facts]

def fn_part8 {F : FTy → Type} [FloatOps F] (main_v133 : IVec S_ 1) (main_v136 : IVec S256 1) : IVec S_ 1 :=
  let main_c_53 : IVec S_ 1 := constantI S_ 1 1#1
  let main_v137 : IVec S_ 1 := (fun x v => Host.reduce IntOp.andi x v reducesTo_S256_S_d0 h_S_) main_v136 main_c_53
  let main_v138 : IVec S_ 1 := andi main_v133 main_v137
  main_v138

def fn_part7 {F : FTy → Type} [FloatOps F] (main_arg26 : FVec F S256 .f32) (main_arg27 : FVec F S256x256 .f32) (main_arg28 : FVec F S256 .f32) (main_v118 : IVec S_ 1) (main_v119 : FVec F S128x256 .f32) : IVec S_ 1 :=
  let main_cst_46 : FVec F S_ .f32 := constant S_ .f32 0x7F800000#32
  let main_v120 : FVec F S128x256 .f32 := broadcastInDim S128x256 ![] bcast_S_S128x256 main_cst_46
  let main_v121 : IVec S128x256 1 := cmpf .olt main_v119 main_v120
  let main_c_47 : IVec S_ 1 := constantI S_ 1 1#1
  let main_v122 : IVec S_ 1 := (fun x v => Host.reduce IntOp.andi x v reducesTo_S128x256_S_d0_1 h_S_) main_v121 main_c_47
  let main_v123 : IVec S_ 1 := andi main_v118 main_v122
  let main_v124 : FVec F S256 .f32 := Host.absf main_arg26
  let main_cst_48 : FVec F S_ .f32 := constant S_ .f32 0x7F800000#32
  let main_v125 : FVec F S256 .f32 := broadcastInDim S256 ![] bcast_S_S256 main_cst_48
  let main_v126 : IVec S256 1 := cmpf .olt main_v124 main_v125
  let main_c_49 : IVec S_ 1 := constantI S_ 1 1#1
  let main_v127 : IVec S_ 1 := (fun x v => Host.reduce IntOp.andi x v reducesTo_S256_S_d0 h_S_) main_v126 main_c_49
  let main_v128 : IVec S_ 1 := andi main_v123 main_v127
  let main_v129 : FVec F S256x256 .f32 := Host.absf main_arg27
  let main_cst_50 : FVec F S_ .f32 := constant S_ .f32 0x7F800000#32
  let main_v130 : FVec F S256x256 .f32 := broadcastInDim S256x256 ![] bcast_S_S256x256 main_cst_50
  let main_v131 : IVec S256x256 1 := cmpf .olt main_v129 main_v130
  let main_c_51 : IVec S_ 1 := constantI S_ 1 1#1
  let main_v132 : IVec S_ 1 := (fun x v => Host.reduce IntOp.andi x v reducesTo_S256x256_S_d0_1 h_S_) main_v131 main_c_51
  let main_v133 : IVec S_ 1 := andi main_v128 main_v132
  let main_v134 : FVec F S256 .f32 := Host.absf main_arg28
  let main_cst_52 : FVec F S_ .f32 := constant S_ .f32 0x7F800000#32
  let main_v135 : FVec F S256 .f32 := broadcastInDim S256 ![] bcast_S_S256 main_cst_52
  let main_v136 : IVec S256 1 := cmpf .olt main_v134 main_v135
  fn_part8 (F := F) main_v133 main_v136

def fn_part6 {F : FTy → Type} [FloatOps F] (main_arg22 : FVec F S2x256 .f32) (main_arg23 : FVec F S11x256 .f32) (main_arg24 : FVec F S11x128 .f32) (main_arg25 : FVec F S128x256 .f32) (main_arg26 : FVec F S256 .f32) (main_arg27 : FVec F S256x256 .f32) (main_arg28 : FVec F S256 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S2x256 .f32 := Host.absf main_arg22
  let main_cst_40 : FVec F S_ .f32 := constant S_ .f32 0x7F800000#32
  let main_v105 : FVec F S2x256 .f32 := broadcastInDim S2x256 ![] bcast_S_S2x256 main_cst_40
  let main_v106 : IVec S2x256 1 := cmpf .olt main_v104 main_v105
  let main_c_41 : IVec S_ 1 := constantI S_ 1 1#1
  let main_v107 : IVec S_ 1 := (fun x v => Host.reduce IntOp.andi x v reducesTo_S2x256_S_d0_1 h_S_) main_v106 main_c_41
  let main_v108 : IVec S_ 1 := andi main_v103 main_v107
  let main_v109 : FVec F S11x256 .f32 := Host.absf main_arg23
  let main_cst_42 : FVec F S_ .f32 := constant S_ .f32 0x7F800000#32
  let main_v110 : FVec F S11x256 .f32 := broadcastInDim S11x256 ![] bcast_S_S11x256 main_cst_42
  let main_v111 : IVec S11x256 1 := cmpf .olt main_v109 main_v110
  let main_c_43 : IVec S_ 1 := constantI S_ 1 1#1
  let main_v112 : IVec S_ 1 := (fun x v => Host.reduce IntOp.andi x v reducesTo_S11x256_S_d0_1 h_S_) main_v111 main_c_43
  let main_v113 : IVec S_ 1 := andi main_v108 main_v112
  let main_v114 : FVec F S11x128 .f32 := Host.absf main_arg24
  let main_cst_44 : FVec F S_ .f32 := constant S_ .f32 0x7F800000#32
  let main_v115 : FVec F S11x128 .f32 := broadcastInDim S11x128 ![] bcast_S_S11x128 main_cst_44
  let main_v116 : IVec S11x128 1 := cmpf .olt main_v114 main_v115
  let main_c_45 : IVec S_ 1 := constantI S_ 1 1#1
  let main_v117 : IVec S_ 1 := (fun x v => Host.reduce IntOp.andi x v reducesTo_S11x128_S_d0_1 h_S_) main_v116 main_c_45
  let main_v118 : IVec S_ 1 := andi main_v113 main_v117
  let main_v119 : FVec F S128x256 .f32 := Host.absf main_arg25
  fn_part7 (F := F) main_arg26 main_arg27 main_arg28 main_v118 main_v119

def fn_part5 {F : FTy → Type} [FloatOps F] (main_arg19 : FVec F S256 .f32) (main_arg20 : FVec F S256 .f32) (main_arg21 : FVec F S256 .f32) (main_arg22 : FVec F S2x256 .f32) (main_arg23 : FVec F S11x256 .f32) (main_arg24 : FVec F S11x128 .f32) (main_arg25 : FVec F S128x256 .f32) (main_arg26 : FVec F S256 .f32) (main_arg27 : FVec F S256x256 .f32) (main_arg28 : FVec F S256 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256 .f32 := Host.absf main_arg19
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256 .f32 := Host.absf main_arg20
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256 .f32 := Host.absf main_arg21
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg22 main_arg23 main_arg24 main_arg25 main_arg26 main_arg27 main_arg28 main_v98 main_v101 main_c_39

def fn_part4 {F : FTy → Type} [FloatOps F] (main_arg15 : FVec F S256 .f32) (main_arg16 : FVec F S256 .f32) (main_arg17 : FVec F S256 .f32) (main_arg18 : FVec F S256 .f32) (main_arg19 : FVec F S256 .f32) (main_arg20 : FVec F S256 .f32) (main_arg21 : FVec F S256 .f32) (main_arg22 : FVec F S2x256 .f32) (main_arg23 : FVec F S11x256 .f32) (main_arg24 : FVec F S11x128 .f32) (main_arg25 : FVec F S128x256 .f32) (main_arg26 : FVec F S256 .f32) (main_arg27 : FVec F S256x256 .f32) (main_arg28 : FVec F S256 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg17
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_arg28 main_v83 main_v84 main_cst_32

def fn_part3 {F : FTy → Type} [FloatOps F] (main_arg12 : FVec F S512x256 .f32) (main_arg13 : FVec F S256 .f32) (main_arg14 : FVec F S256x256 .f32) (main_arg15 : FVec F S256 .f32) (main_arg16 : FVec F S256 .f32) (main_arg17 : FVec F S256 .f32) (main_arg18 : FVec F S256 .f32) (main_arg19 : FVec F S256 .f32) (main_arg20 : FVec F S256 .f32) (main_arg21 : FVec F S256 .f32) (main_arg22 : FVec F S2x256 .f32) (main_arg23 : FVec F S11x256 .f32) (main_arg24 : FVec F S11x128 .f32) (main_arg25 : FVec F S128x256 .f32) (main_arg26 : FVec F S256 .f32) (main_arg27 : FVec F S256x256 .f32) (main_arg28 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S512x256 .f32 := Host.absf main_arg12
  let main_cst_20 : FVec F S_ .f32 := constant S_ .f32 0x7F800000#32
  let main_v55 : FVec F S512x256 .f32 := broadcastInDim S512x256 ![] bcast_S_S512x256 main_cst_20
  let main_v56 : IVec S512x256 1 := cmpf .olt main_v54 main_v55
  let main_c_21 : IVec S_ 1 := constantI S_ 1 1#1
  let main_v57 : IVec S_ 1 := (fun x v => Host.reduce IntOp.andi x v reducesTo_S512x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg14
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg15 main_arg16 main_arg17 main_arg18 main_arg19 main_arg20 main_arg21 main_arg22 main_arg23 main_arg24 main_arg25 main_arg26 main_arg27 main_arg28 main_v63 main_v67

def fn_part2 {F : FTy → Type} [FloatOps F] (main_arg8 : FVec F S512x256 .f32) (main_arg9 : FVec F S256 .f32) (main_arg10 : FVec F S256x256 .f32) (main_arg11 : FVec F S256 .f32) (main_arg12 : FVec F S512x256 .f32) (main_arg13 : FVec F S256 .f32) (main_arg14 : FVec F S256x256 .f32) (main_arg15 : FVec F S256 .f32) (main_arg16 : FVec F S256 .f32) (main_arg17 : FVec F S256 .f32) (main_arg18 : FVec F S256 .f32) (main_arg19 : FVec F S256 .f32) (main_arg20 : FVec F S256 .f32) (main_arg21 : FVec F S256 .f32) (main_arg22 : FVec F S2x256 .f32) (main_arg23 : FVec F S11x256 .f32) (main_arg24 : FVec F S11x128 .f32) (main_arg25 : FVec F S128x256 .f32) (main_arg26 : FVec F S256 .f32) (main_arg27 : FVec F S256x256 .f32) (main_arg28 : FVec F S256 .f32) (main_v33 : IVec S_ 1) : IVec S_ 1 :=
  let main_v34 : FVec F S512x256 .f32 := Host.absf main_arg8
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg5 : FVec F S256 .f32) (main_arg6 : FVec F S256x256 .f32) (main_arg7 : FVec F S256 .f32) (main_arg8 : FVec F S512x256 .f32) (main_arg9 : FVec F S256 .f32) (main_arg10 : FVec F S256x256 .f32) (main_arg11 : FVec F S256 .f32) (main_arg12 : FVec F S512x256 .f32) (main_arg13 : FVec F S256 .f32) (main_arg14 : FVec F S256x256 .f32) (main_arg15 : FVec F S256 .f32) (main_arg16 : FVec F S256 .f32) (main_arg17 : FVec F S256 .f32) (main_arg18 : FVec F S256 .f32) (main_arg19 : FVec F S256 .f32) (main_arg20 : FVec F S256 .f32) (main_arg21 : FVec F S256 .f32) (main_arg22 : FVec F S2x256 .f32) (main_arg23 : FVec F S11x256 .f32) (main_arg24 : FVec F S11x128 .f32) (main_arg25 : FVec F S128x256 .f32) (main_arg26 : FVec F S256 .f32) (main_arg27 : FVec F S256x256 .f32) (main_arg28 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S8192x256 .f32) (main_arg1 : FVec F S8192x8192 .f32) (main_arg2 : IVec S8192 32) (main_arg3 : FVec F S8192 .f32) (main_arg4 : FVec F S256x256 .f32) (main_arg5 : FVec F S256 .f32) (main_arg6 : FVec F S256x256 .f32) (main_arg7 : FVec F S256 .f32) (main_arg8 : FVec F S512x256 .f32) (main_arg9 : FVec F S256 .f32) (main_arg10 : FVec F S256x256 .f32) (main_arg11 : FVec F S256 .f32) (main_arg12 : FVec F S512x256 .f32) (main_arg13 : FVec F S256 .f32) (main_arg14 : FVec F S256x256 .f32) (main_arg15 : FVec F S256 .f32) (main_arg16 : FVec F S256 .f32) (main_arg17 : FVec F S256 .f32) (main_arg18 : FVec F S256 .f32) (main_arg19 : FVec F S256 .f32) (main_arg20 : FVec F S256 .f32) (main_arg21 : FVec F S256 .f32) (main_arg22 : FVec F S2x256 .f32) (main_arg23 : FVec F S11x256 .f32) (main_arg24 : FVec F S11x128 .f32) (main_arg25 : FVec F S128x256 .f32) (main_arg26 : FVec F S256 .f32) (main_arg27 : FVec F S256x256 .f32) (main_arg28 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192 .f32 := Host.absf main_arg3
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S8192x256 : Shape := ⟨2, ![8192, 256]⟩
abbrev S8192x8192 : Shape := ⟨2, ![8192, 8192]⟩
abbrev S8192 : Shape := ⟨1, ![8192]⟩
abbrev S256x256 : Shape := ⟨2, ![256, 256]⟩
abbrev S256 : Shape := ⟨1, ![256]⟩
abbrev S512x256 : Shape := ⟨2, ![512, 256]⟩
abbrev S2x256 : Shape := ⟨2, ![2, 256]⟩
abbrev S11x256 : Shape := ⟨2, ![11, 256]⟩
abbrev S11x128 : Shape := ⟨2, ![11, 128]⟩
abbrev S128x256 : Shape := ⟨2, ![128, 256]⟩
abbrev S_ : Shape := ⟨0, ![]⟩
abbrev S8192x1 : Shape := ⟨2, ![8192, 1]⟩
abbrev S1x256 : Shape := ⟨2, ![1, 256]⟩
abbrev S1024x1024 : Shape := ⟨2, ![1024, 1024]⟩
abbrev S1024x256 : Shape := ⟨2, ![1024, 256]⟩
abbrev S1 : Shape := ⟨1, ![1]⟩
abbrev S1x1 : Shape := ⟨2, ![1, 1]⟩
abbrev S1x512 : Shape := ⟨2, ![1, 512]⟩
abbrev S8192x512 : Shape := ⟨2, ![8192, 512]⟩

abbrev nBuf : Space → Nat
  | .hbm => 329
  | .vmem => 6
  | .smem => 0
  | _ => 0

abbrev hbmTy0_0 (i : Nat) : BufTy := match i % 128 with
  | 0 => ⟨S8192x256, .f32⟩
  | 1 => ⟨S8192x8192, .f32⟩
  | 2 => ⟨S8192, .i32⟩
  | 3 => ⟨S8192, .f32⟩
  | 4 => ⟨S256x256, .f32⟩
  | 5 => ⟨S256, .f32⟩
  | 6 => ⟨S256x256, .f32⟩
  | 7 => ⟨S256, .f32⟩
  | 8 => ⟨S512x256, .f32⟩
  | 9 => ⟨S256, .f32⟩
  | 10 => ⟨S256x256, .f32⟩
  | 11 => ⟨S256, .f32⟩
  | 12 => ⟨S512x256, .f32⟩
  | 13 => ⟨S256, .f32⟩
  | 14 => ⟨S256x256, .f32⟩
  | 15 => ⟨S256, .f32⟩
  | 16 => ⟨S256, .f32⟩
  | 17 => ⟨S256, .f32⟩
  | 18 => ⟨S256, .f32⟩
  | 19 => ⟨S256, .f32⟩
  | 20 => ⟨S256, .f32⟩
  | 21 => ⟨S256, .f32⟩
  | 22 => ⟨S2x256, .f32⟩
  | 23 => ⟨S11x256, .f32⟩
  | 24 => ⟨S11x128, .f32⟩
  | 25 => ⟨S128x256, .f32⟩
  | 26 => ⟨S256, .f32⟩
  | 27 => ⟨S256x256, .f32⟩
  | 28 => ⟨S256, .f32⟩
  | 29 => ⟨S_, .f32⟩
  | 30 => ⟨S8192, .f32⟩
  | 31 => ⟨S8192x1, .f32⟩
  | 32 => ⟨S_, .f32⟩
  | 33 => ⟨S8192x1, .f32⟩
  | 34 => ⟨S8192x1, .f32⟩
  | 35 => ⟨S8192x256, .f32⟩
  | 36 => ⟨S8192x256, .f32⟩
  | 37 => ⟨S8192x256, .f32⟩
  | 38 => ⟨S_, .f32⟩
  | 39 => ⟨S8192, .f32⟩
  | 40 => ⟨S8192x1, .f32⟩
  | 41 => ⟨S_, .f32⟩
  | 42 => ⟨S8192x1, .f32⟩
  | 43 => ⟨S8192x1, .f32⟩
  | 44 => ⟨S8192x256, .f32⟩
  | 45 => ⟨S8192x256, .f32⟩
  | 46 => ⟨S_, .f32⟩
  | 47 => ⟨S8192x1, .f32⟩
  | 48 => ⟨S8192x1, .f32⟩
  | 49 => ⟨S8192x1, .f32⟩
  | 50 => ⟨S8192x256, .f32⟩
  | 51 => ⟨S8192x256, .f32⟩
  | 52 => ⟨S1x256, .f32⟩
  | 53 => ⟨S8192x256, .f32⟩
  | 54 => ⟨S8192x256, .f32⟩
  | 55 => ⟨S1x256, .f32⟩
  | 56 => ⟨S8192x256, .f32⟩
  | 57 => ⟨S8192x256, .f32⟩
  | 58 => ⟨S8192x256, .f32⟩
  | 59 => ⟨S1x256, .f32⟩
  | 60 => ⟨S8192x256, .f32⟩
  | 61 => ⟨S8192x256, .f32⟩
  | 62 => ⟨S_, .f32⟩
  | 63 => ⟨S8192x256, .f32⟩
  | 64 => ⟨S8192x256, .f32⟩
  | 65 => ⟨S8192x256, .f32⟩
  | 66 => ⟨S1x256, .f32⟩
  | 67 => ⟨S8192x256, .f32⟩
  | 68 => ⟨S8192x256, .f32⟩
  | 69 => ⟨S8192x256, .f32⟩
  | 70 => ⟨S_, .f32⟩
  | 71 => ⟨S256, .f32⟩
  | 72 => ⟨S1x256, .f32⟩
  | 73 => ⟨S_, .f32⟩
  | 74 => ⟨S1x256, .f32⟩
  | 75 => ⟨S1x256, .f32⟩
  | 76 => ⟨S8192x256, .f32⟩
  | 77 => ⟨S8192x1, .f32⟩
  | 78 => ⟨S8192x256, .f32⟩
  | 79 => ⟨S8192x256, .f32⟩
  | 80 => ⟨S1x256, .f32⟩
  | 81 => ⟨S1x256, .f32⟩
  | 82 => ⟨S_, .f32⟩
  | 83 => ⟨S1, .f32⟩
  | 84 => ⟨S1x1, .f32⟩
  | 85 => ⟨S_, .f32⟩
  | 86 => ⟨S1x1, .f32⟩
  | 87 => ⟨S1x1, .f32⟩
  | 88 => ⟨S1x256, .f32⟩
  | 89 => ⟨S1x256, .f32⟩
  | 90 => ⟨S1x256, .f32⟩
  | 91 => ⟨S_, .f32⟩
  | 92 => ⟨S1, .f32⟩
  | 93 => ⟨S1x1, .f32⟩
  | 94 => ⟨S_, .f32⟩
  | 95 => ⟨S1x1, .f32⟩
  | 96 => ⟨S1x1, .f32⟩
  | 97 => ⟨S1x256, .f32⟩
  | 98 => ⟨S1x256, .f32⟩
  | 99 => ⟨S_, .f32⟩
  | 100 => ⟨S1x1, .f32⟩
  | 101 => ⟨S1x1, .f32⟩
  | 102 => ⟨S1x1, .f32⟩
  | 103 => ⟨S1x256, .f32⟩
  | 104 => ⟨S1x256, .f32⟩
  | 105 => ⟨S1x256, .f32⟩
  | 106 => ⟨S1x256, .f32⟩
  | 107 => ⟨S1x256, .f32⟩
  | 108 => ⟨S1x256, .f32⟩
  | 109 => ⟨S1x512, .f32⟩
  | 110 => ⟨S1x256, .f32⟩
  | 111 => ⟨S1x256, .f32⟩
  | 112 => ⟨S1x256, .f32⟩
  | 113 => ⟨S_, .f32⟩
  | 114 => ⟨S1x256, .f32⟩
  | 115 => ⟨S1x256, .f32⟩
  | 116 => ⟨S1x256, .f32⟩
  | 117 => ⟨S1x256, .f32⟩
  | 118 => ⟨S1x256, .f32⟩
  | 119 => ⟨S1x256, .f32⟩
  | 120 => ⟨S_, .f32⟩
  | 121 => ⟨S8192, .f32⟩
  | 122 => ⟨S8192x1, .f32⟩
  | 123 => ⟨S_, .f32⟩
  | 124 => ⟨S8192x1, .f32⟩
  | 125 => ⟨S8192x1, .f32⟩
  | 126 => ⟨S8192x256, .f32⟩
  | 127 => ⟨S8192x256, .f32⟩
  | _ => ⟨S8192x256, .f32⟩

abbrev hbmTy0_1 (i : Nat) : BufTy := match i % 128 with
  | 0 => ⟨S8192x256, .f32⟩
  | 1 => ⟨S_, .f32⟩
  | 2 => ⟨S8192, .f32⟩
  | 3 => ⟨S8192x1, .f32⟩
  | 4 => ⟨S_, .f32⟩
  | 5 => ⟨S8192x1, .f32⟩
  | 6 => ⟨S8192x1, .f32⟩
  | 7 => ⟨S8192x256, .f32⟩
  | 8 => ⟨S8192x256, .f32⟩
  | 9 => ⟨S_, .f32⟩
  | 10 => ⟨S8192x1, .f32⟩
  | 11 => ⟨S8192x1, .f32⟩
  | 12 => ⟨S8192x1, .f32⟩
  | 13 => ⟨S8192x256, .f32⟩
  | 14 => ⟨S8192x256, .f32⟩
  | 15 => ⟨S1x256, .f32⟩
  | 16 => ⟨S8192x256, .f32⟩
  | 17 => ⟨S8192x256, .f32⟩
  | 18 => ⟨S1x256, .f32⟩
  | 19 => ⟨S8192x256, .f32⟩
  | 20 => ⟨S8192x256, .f32⟩
  | 21 => ⟨S8192x256, .f32⟩
  | 22 => ⟨S8192x512, .f32⟩
  | 23 => ⟨S8192x256, .f32⟩
  | 24 => ⟨S1x256, .f32⟩
  | 25 => ⟨S8192x256, .f32⟩
  | 26 => ⟨S8192x256, .f32⟩
  | 27 => ⟨S_, .f32⟩
  | 28 => ⟨S8192x256, .f32⟩
  | 29 => ⟨S8192x256, .f32⟩
  | 30 => ⟨S8192x256, .f32⟩
  | 31 => ⟨S1x256, .f32⟩
  | 32 => ⟨S8192x256, .f32⟩
  | 33 => ⟨S8192x256, .f32⟩
  | 34 => ⟨S8192x256, .f32⟩
  | 35 => ⟨S_, .f32⟩
  | 36 => ⟨S8192, .f32⟩
  | 37 => ⟨S8192x1, .f32⟩
  | 38 => ⟨S_, .f32⟩
  | 39 => ⟨S8192x1, .f32⟩
  | 40 => ⟨S8192x1, .f32⟩
  | 41 => ⟨S8192x256, .f32⟩
  | 42 => ⟨S8192x256, .f32⟩
  | 43 => ⟨S8192x256, .f32⟩
  | 44 => ⟨S_, .f32⟩
  | 45 => ⟨S8192, .f32⟩
  | 46 => ⟨S8192x1, .f32⟩
  | 47 => ⟨S_, .f32⟩
  | 48 => ⟨S8192x1, .f32⟩
  | 49 => ⟨S8192x1, .f32⟩
  | 50 => ⟨S8192x256, .f32⟩
  | 51 => ⟨S8192x256, .f32⟩
  | 52 => ⟨S_, .f32⟩
  | 53 => ⟨S8192x1, .f32⟩
  | 54 => ⟨S8192x1, .f32⟩
  | 55 => ⟨S8192x1, .f32⟩
  | 56 => ⟨S8192x256, .f32⟩
  | 57 => ⟨S8192x256, .f32⟩
  | 58 => ⟨S1x256, .f32⟩
  | 59 => ⟨S8192x256, .f32⟩
  | 60 => ⟨S8192x256, .f32⟩
  | 61 => ⟨S1x256, .f32⟩
  | 62 => ⟨S8192x256, .f32⟩
  | 63 => ⟨S8192x256, .f32⟩
  | 64 => ⟨S8192x256, .f32⟩
  | 65 => ⟨S8192x512, .f32⟩
  | 66 => ⟨S8192x256, .f32⟩
  | 67 => ⟨S1x256, .f32⟩
  | 68 => ⟨S8192x256, .f32⟩
  | 69 => ⟨S8192x256, .f32⟩
  | 70 => ⟨S_, .f32⟩
  | 71 => ⟨S8192x256, .f32⟩
  | 72 => ⟨S8192x256, .f32⟩
  | 73 => ⟨S8192x256, .f32⟩
  | 74 => ⟨S1x256, .f32⟩
  | 75 => ⟨S8192x256, .f32⟩
  | 76 => ⟨S8192x256, .f32⟩
  | 77 => ⟨S8192x256, .f32⟩
  | 78 => ⟨S8192x256, .f32⟩
  | 79 => ⟨S8192x256, .f32⟩
  | 80 => ⟨S8192x256, .f32⟩
  | 81 => ⟨S8192x256, .f32⟩
  | 82 => ⟨S1x256, .f32⟩
  | 83 => ⟨S_, .i32⟩
  | 84 => ⟨S8192, .i32⟩
  | 85 => ⟨S8192, .i1⟩
  | 86 => ⟨S_, .i32⟩
  | 87 => ⟨S8192, .i32⟩
  | 88 => ⟨S8192, .i32⟩
  | 89 => ⟨S8192, .i32⟩
  | 90 => ⟨S8192x1, .i32⟩
  | 91 => ⟨S8192x256, .f32⟩
  | 92 => ⟨S_, .f32⟩
  | 93 => ⟨S8192, .f32⟩
  | 94 => ⟨S8192x1, .f32⟩
  | 95 => ⟨S_, .f32⟩
  | 96 => ⟨S8192x1, .f32⟩
  | 97 => ⟨S8192x1, .f32⟩
  | 98 => ⟨S8192x256, .f32⟩
  | 99 => ⟨S8192x256, .f32⟩
  | 100 => ⟨S8192x256, .f32⟩
  | 101 => ⟨S_, .f32⟩
  | 102 => ⟨S8192, .f32⟩
  | 103 => ⟨S8192x1, .f32⟩
  | 104 => ⟨S_, .f32⟩
  | 105 => ⟨S8192x1, .f32⟩
  | 106 => ⟨S8192x1, .f32⟩
  | 107 => ⟨S8192x256, .f32⟩
  | 108 => ⟨S8192x256, .f32⟩
  | 109 => ⟨S_, .f32⟩
  | 110 => ⟨S8192x1, .f32⟩
  | 111 => ⟨S8192x1, .f32⟩
  | 112 => ⟨S8192x1, .f32⟩
  | 113 => ⟨S8192x256, .f32⟩
  | 114 => ⟨S8192x256, .f32⟩
  | 115 => ⟨S1x256, .f32⟩
  | 116 => ⟨S8192x256, .f32⟩
  | 117 => ⟨S8192x256, .f32⟩
  | 118 => ⟨S1x256, .f32⟩
  | 119 => ⟨S8192x256, .f32⟩
  | 120 => ⟨S8192x256, .f32⟩
  | 121 => ⟨S8192x256, .f32⟩
  | 122 => ⟨S8192x512, .f32⟩
  | 123 => ⟨S8192x256, .f32⟩
  | 124 => ⟨S1x256, .f32⟩
  | 125 => ⟨S8192x256, .f32⟩
  | 126 => ⟨S8192x256, .f32⟩
  | 127 => ⟨S_, .f32⟩
  | _ => ⟨S8192x256, .f32⟩

abbrev hbmTy0_2 (i : Nat) : BufTy := match i % 128 with
  | 0 => ⟨S8192x256, .f32⟩
  | 1 => ⟨S8192x256, .f32⟩
  | 2 => ⟨S8192x256, .f32⟩
  | 3 => ⟨S1x256, .f32⟩
  | 4 => ⟨S8192x256, .f32⟩
  | 5 => ⟨S8192x256, .f32⟩
  | 6 => ⟨S8192x256, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S8192x256, .f32⟩
  | 14 => ⟨S8192x256, .f32⟩
  | 15 => ⟨S8192x256, .f32⟩
  | 16 => ⟨S_, .f32⟩
  | 17 => ⟨S8192, .f32⟩
  | 18 => ⟨S8192x1, .f32⟩
  | 19 => ⟨S_, .f32⟩
  | 20 => ⟨S8192x1, .f32⟩
  | 21 => ⟨S8192x1, .f32⟩
  | 22 => ⟨S8192x256, .f32⟩
  | 23 => ⟨S8192x256, .f32⟩
  | 24 => ⟨S_, .f32⟩
  | 25 => ⟨S8192x1, .f32⟩
  | 26 => ⟨S8192x1, .f32⟩
  | 27 => ⟨S8192x1, .f32⟩
  | 28 => ⟨S8192x256, .f32⟩
  | 29 => ⟨S8192x256, .f32⟩
  | 30 => ⟨S1x256, .f32⟩
  | 31 => ⟨S8192x256, .f32⟩
  | 32 => ⟨S8192x256, .f32⟩
  | 33 => ⟨S1x256, .f32⟩
  | 34 => ⟨S8192x256, .f32⟩
  | 35 => ⟨S8192x256, .f32⟩
  | 36 => ⟨S8192x512, .f32⟩
  | 37 => ⟨S8192x256, .f32⟩
  | 38 => ⟨S1x256, .f32⟩
  | 39 => ⟨S8192x256, .f32⟩
  | 40 => ⟨S8192x256, .f32⟩
  | 41 => ⟨S_, .f32⟩
  | 42 => ⟨S8192x256, .f32⟩
  | 43 => ⟨S8192x256, .f32⟩
  | 44 => ⟨S8192x256, .f32⟩
  | 45 => ⟨S1x256, .f32⟩
  | 46 => ⟨S8192x256, .f32⟩
  | 47 => ⟨S8192x256, .f32⟩
  | 48 => ⟨S8192x256, .f32⟩
  | 49 => ⟨S11x256, .f32⟩
  | 50 => ⟨S1x256, .f32⟩
  | 51 => ⟨S11x256, .f32⟩
  | 52 => ⟨S11x256, .f32⟩
  | 53 => ⟨S_, .f32⟩
  | 54 => ⟨S11x256, .f32⟩
  | 55 => ⟨S11x256, .f32⟩
  | 56 => ⟨S11x256, .f32⟩
  | 57 => ⟨S1x256, .f32⟩
  | 58 => ⟨S11x256, .f32⟩
  | 59 => ⟨S11x256, .f32⟩
  | 60 => ⟨S1x256, .f32⟩
  | 61 => ⟨S8192x256, .f32⟩
  | 62 => ⟨S8192x256, .f32⟩
  | 63 => ⟨S_, .i32⟩
  | 64 => ⟨S8192, .i32⟩
  | 65 => ⟨S8192, .i1⟩
  | 66 => ⟨S_, .i32⟩
  | 67 => ⟨S8192, .i32⟩
  | 68 => ⟨S8192, .i32⟩
  | 69 => ⟨S8192, .i32⟩
  | 70 => ⟨S8192x1, .i32⟩
  | 71 => ⟨S8192x256, .f32⟩
  | 72 => ⟨S8192x256, .f32⟩
  | _ => ⟨S8192x256, .f32⟩

abbrev hbmTy (i : Nat) : BufTy := match i / 128 with
  | 0 => hbmTy0_0 i
  | 1 => hbmTy0_1 i
  | 2 => hbmTy0_2 i
  | _ => ⟨S8192x256, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S8192x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_cst : Ref sig .tc := ⟨.hbm, 29, rfl⟩
abbrev main_v0 : Ref sig .tc := ⟨.hbm, 30, rfl⟩
abbrev main_v1 : Ref sig .tc := ⟨.hbm, 31, rfl⟩
abbrev main_cst_0 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_cst_1 : Ref sig .tc := ⟨.hbm, 38, rfl⟩
abbrev main_v7 : Ref sig .tc := ⟨.hbm, 39, rfl⟩
abbrev main_v8 : Ref sig .tc := ⟨.hbm, 40, rfl⟩
abbrev main_cst_2 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_cst_3 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_call0_cst : Ref sig .tc := ⟨.hbm, 62, rfl⟩
abbrev main_call0_v0 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_cst_4 : Ref sig .tc := ⟨.hbm, 70, rfl⟩
abbrev main_v34 : Ref sig .tc := ⟨.hbm, 71, rfl⟩
abbrev main_v35 : Ref sig .tc := ⟨.hbm, 72, rfl⟩
abbrev main_cst_5 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_6 : Ref sig .tc := ⟨.hbm, 82, rfl⟩
abbrev main_v44 : Ref sig .tc := ⟨.hbm, 83, rfl⟩
abbrev main_v45 : Ref sig .tc := ⟨.hbm, 84, rfl⟩
abbrev main_cst_7 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_8 : Ref sig .tc := ⟨.hbm, 91, rfl⟩
abbrev main_v51 : Ref sig .tc := ⟨.hbm, 92, rfl⟩
abbrev main_v52 : Ref sig .tc := ⟨.hbm, 93, rfl⟩
abbrev main_cst_9 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_cst_10 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_call1_cst : Ref sig .tc := ⟨.hbm, 113, rfl⟩
abbrev main_call1_v0 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_cst_11 : Ref sig .tc := ⟨.hbm, 120, rfl⟩
abbrev main_v75 : Ref sig .tc := ⟨.hbm, 121, rfl⟩
abbrev main_v76 : Ref sig .tc := ⟨.hbm, 122, rfl⟩
abbrev main_cst_12 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_cst_13 : Ref sig .tc := ⟨.hbm, 129, rfl⟩
abbrev main_v82 : Ref sig .tc := ⟨.hbm, 130, rfl⟩
abbrev main_v83 : Ref sig .tc := ⟨.hbm, 131, rfl⟩
abbrev main_cst_14 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_15 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_call2_cst : Ref sig .tc := ⟨.hbm, 155, rfl⟩
abbrev main_call2_v0 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_cst_16 : Ref sig .tc := ⟨.hbm, 163, rfl⟩
abbrev main_v111 : Ref sig .tc := ⟨.hbm, 164, rfl⟩
abbrev main_v112 : Ref sig .tc := ⟨.hbm, 165, rfl⟩
abbrev main_cst_17 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_cst_18 : Ref sig .tc := ⟨.hbm, 172, rfl⟩
abbrev main_v118 : Ref sig .tc := ⟨.hbm, 173, rfl⟩
abbrev main_v119 : Ref sig .tc := ⟨.hbm, 174, rfl⟩
abbrev main_cst_19 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_cst_20 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_call3_cst : Ref sig .tc := ⟨.hbm, 198, rfl⟩
abbrev main_call3_v0 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_c : Ref sig .tc := ⟨.hbm, 211, rfl⟩
abbrev main_v152 : Ref sig .tc := ⟨.hbm, 212, rfl⟩
abbrev main_v153 : Ref sig .tc := ⟨.hbm, 213, rfl⟩
abbrev main_c_21 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_cst_22 : Ref sig .tc := ⟨.hbm, 220, rfl⟩
abbrev main_v159 : Ref sig .tc := ⟨.hbm, 221, rfl⟩
abbrev main_v160 : Ref sig .tc := ⟨.hbm, 222, rfl⟩
abbrev main_cst_23 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_cst_24 : Ref sig .tc := ⟨.hbm, 229, rfl⟩
abbrev main_v166 : Ref sig .tc := ⟨.hbm, 230, rfl⟩
abbrev main_v167 : Ref sig .tc := ⟨.hbm, 231, rfl⟩
abbrev main_cst_25 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_cst_26 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_v182 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_call4_cst : Ref sig .tc := ⟨.hbm, 255, rfl⟩
abbrev main_call4_v0 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_cst_27 : Ref sig .tc := ⟨.hbm, 263, rfl⟩
abbrev main_v195 : Ref sig .tc := ⟨.hbm, 264, rfl⟩
abbrev main_v196 : Ref sig .tc := ⟨.hbm, 265, rfl⟩
abbrev main_cst_28 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_cst_29 : Ref sig .tc := ⟨.hbm, 272, rfl⟩
abbrev main_v202 : Ref sig .tc := ⟨.hbm, 273, rfl⟩
abbrev main_v203 : Ref sig .tc := ⟨.hbm, 274, rfl⟩
abbrev main_cst_30 : Ref sig .tc := ⟨.hbm, 275, rfl⟩
abbrev main_v204 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_cst_31 : Ref sig .tc := ⟨.hbm, 280, rfl⟩
abbrev main_v208 : Ref sig .tc := ⟨.hbm, 281, rfl⟩
abbrev main_v209 : Ref sig .tc := ⟨.hbm, 282, rfl⟩
abbrev main_v210 : Ref sig .tc := ⟨.hbm, 283, rfl⟩
abbrev main_v211 : Ref sig .tc := ⟨.hbm, 284, rfl⟩
abbrev main_v212 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_v220 : Ref sig .tc := ⟨.hbm, 293, rfl⟩
abbrev main_v221 : Ref sig .tc := ⟨.hbm, 294, rfl⟩
abbrev main_v222 : Ref sig .tc := ⟨.hbm, 295, rfl⟩
abbrev main_v223 : Ref sig .tc := ⟨.hbm, 296, rfl⟩
abbrev main_call5_cst : Ref sig .tc := ⟨.hbm, 297, rfl⟩
abbrev main_call5_v0 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_v229 : Ref sig .tc := ⟨.hbm, 304, rfl⟩
abbrev main_v230 : Ref sig .tc := ⟨.hbm, 305, rfl⟩
abbrev main_v231 : Ref sig .tc := ⟨.hbm, 306, rfl⟩
abbrev main_v232 : Ref sig .tc := ⟨.hbm, 307, rfl⟩
abbrev main_v233 : Ref sig .tc := ⟨.hbm, 308, rfl⟩
abbrev main_call6_cst : Ref sig .tc := ⟨.hbm, 309, rfl⟩
abbrev main_call6_v0 : Ref sig .tc := ⟨.hbm, 310, rfl⟩
abbrev main_v234 : Ref sig .tc := ⟨.hbm, 311, rfl⟩
abbrev main_v235 : Ref sig .tc := ⟨.hbm, 312, rfl⟩
abbrev main_v236 : Ref sig .tc := ⟨.hbm, 313, rfl⟩
abbrev main_v237 : Ref sig .tc := ⟨.hbm, 314, rfl⟩
abbrev main_v238 : Ref sig .tc := ⟨.hbm, 315, rfl⟩
abbrev main_v239 : Ref sig .tc := ⟨.hbm, 316, rfl⟩
abbrev main_v240 : Ref sig .tc := ⟨.hbm, 317, rfl⟩
abbrev main_v241 : Ref sig .tc := ⟨.hbm, 318, rfl⟩
abbrev main_c_32 : Ref sig .tc := ⟨.hbm, 319, rfl⟩
abbrev main_v242 : Ref sig .tc := ⟨.hbm, 320, rfl⟩
abbrev main_v243 : Ref sig .tc := ⟨.hbm, 321, rfl⟩
abbrev main_c_33 : Ref sig .tc := ⟨.hbm, 322, rfl⟩
abbrev main_v244 : Ref sig .tc := ⟨.hbm, 323, rfl⟩
abbrev main_v245 : Ref sig .tc := ⟨.hbm, 324, rfl⟩
abbrev main_v246 : Ref sig .tc := ⟨.hbm, 325, rfl⟩
abbrev main_v247 : Ref sig .tc := ⟨.hbm, 326, rfl⟩
abbrev main_v248 : Ref sig .tc := ⟨.hbm, 327, rfl⟩
abbrev main_v249 : Ref sig .tc := ⟨.hbm, 328, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_7 : BitVec 32 := 0#32
  let v19 : BitVec 1 := Scalar.cmpi .ne v18 c0_i32_7
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  reducesTo_S8192x256_S256_d0 : S8192x256.ReducesTo [0] S256
  bcast_S_S1x256 : S_.BroadcastsInDim S1x256 (![] : Fin 0 → Fin S1x256.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  slices_S2x256_S1x256_0_0 : S2x256.Slices ![0, 0] S1x256
  slices_S2x256_S1x256_1_0 : S2x256.Slices ![1, 0] S1x256
  reducesTo_S1x256_S1_d1 : S1x256.ReducesTo [1] S1
  bcast_S1_S1x1_0 : S1.BroadcastsInDim S1x1 (![0] : Fin 1 → Fin S1x1.rank)
  bcast_S_S1x1 : S_.BroadcastsInDim S1x1 (![] : Fin 0 → Fin S1x1.rank)
  bcast_S1x1_S1x256_0_1 : S1x1.BroadcastsInDim S1x256 (![0, 1] : Fin 2 → Fin S1x256.rank)
  concatenates_S1x256_S1x256_S1x512_d1 : Shape.Concatenates [S1x256, S1x256] S1x512 1
  concatenates_S8192x256_S8192x256_S8192x512_d1 : Shape.Concatenates [S8192x256, S8192x256] S8192x512 1
  slices_S11x256_S1x256_1_0 : S11x256.Slices ![1, 0] S1x256
  bcast_S_S8192 : S_.BroadcastsInDim S8192 (![] : Fin 0 → Fin S8192.rank)
  bcast_S1x256_S11x256_0_1 : S1x256.BroadcastsInDim S11x256 (![0, 1] : Fin 2 → Fin S11x256.rank)
  bcast_S_S11x256 : S_.BroadcastsInDim S11x256 (![] : Fin 0 → Fin S11x256.rank)
  dot_S8192x256_S256x256_S8192x256_1_0_0_1_n_n_wf : DotDims.WF S8192x256 S256x256 S8192x256 [1] [0] [0] [1] [] []
  dot_S1024x1024_S1024x256_S1024x256_0_0_1_1_n_n_wf : DotDims.WF S1024x1024 S1024x256 S1024x256 [0] [0] [1] [1] [] []
  dot_S1x512_S512x256_S1x256_1_0_0_1_n_n_wf : DotDims.WF S1x512 S512x256 S1x256 [1] [0] [0] [1] [] []
  dot_S1x256_S256x256_S1x256_1_0_0_1_n_n_wf : DotDims.WF S1x256 S256x256 S1x256 [1] [0] [0] [1] [] []
  dot_S8192x512_S512x256_S8192x256_1_0_0_1_n_n_wf : DotDims.WF S8192x512 S512x256 S8192x256 [1] [0] [0] [1] [] []
  gather_S11x256_S8192x1_S8192x256_1_0_n_n_0_1_1256_wf : GatherDims.WF S11x256 S8192x1 S8192x256 [1] [0] [] [0] [] 1 ![1, 256]
  dot_S11x128_S128x256_S11x256_1_0_0_1_n_n_wf : DotDims.WF S11x128 S128x256 S11x256 [1] [0] [0] [1] [] []
  dot_S11x256_S256x256_S11x256_1_0_0_1_n_n_wf : DotDims.WF S11x256 S256x256 S11x256 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S1024x1024_S1024x256_S1024x256_0_0_1_1_n_n : DotDims S1024x1024 S1024x256 S1024x256 where
  lhsContracting := [0]
  rhsContracting := [0]
  lhsNonContracting := [1]
  rhsNonContracting := [1]
  lhsBatch := []
  rhsBatch := []
  wf := dot_S1024x1024_S1024x256_S1024x256_0_0_1_1_n_n_wf
def dot_S1x512_S512x256_S1x256_1_0_0_1_n_n : DotDims S1x512 S512x256 S1x256 where
  lhsContracting := [1]
  rhsContracting := [0]
  lhsNonContracting := [0]
  rhsNonContracting := [1]
  lhsBatch := []
  rhsBatch := []
  wf := dot_S1x512_S512x256_S1x256_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def gather_S11x256_S8192x1_S8192x256_1_0_n_n_0_1_1256 : GatherDims S11x256 S8192x1 S8192x256 where
  offsetDims := [1]
  collapsedSliceDims := [0]
  operandBatchingDims := []
  startIndicesBatchingDims := []
  startIndexMap := [0]
  indexVectorDim := 1
  sliceSizes := ![1, 256]
  wf := gather_S11x256_S8192x1_S8192x256_1_0_n_n_0_1_1256_wf
def dot_S11x128_S128x256_S11x256_1_0_0_1_n_n : DotDims S11x128 S128x256 S11x256 where
  lhsContracting := [1]
  rhsContracting := [0]
  lhsNonContracting := [0]
  rhsNonContracting := [1]
  lhsBatch := []
  rhsBatch := []
  wf := dot_S11x128_S128x256_S11x256_1_0_0_1_n_n_wf
def dot_S11x256_S256x256_S11x256_1_0_0_1_n_n : DotDims S11x256 S256x256 S11x256 where
  lhsContracting := [1]
  rhsContracting := [0]
  lhsNonContracting := [0]
  rhsNonContracting := [1]
  lhsBatch := []
  rhsBatch := []
  wf := dot_S11x256_S256x256_S11x256_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S8192 : Shape := ⟨1, ![8192]⟩
abbrev S256x256 : Shape := ⟨2, ![256, 256]⟩
abbrev S256 : Shape := ⟨1, ![256]⟩
abbrev S512x256 : Shape := ⟨2, ![512, 256]⟩
abbrev S2x256 : Shape := ⟨2, ![2, 256]⟩
abbrev S11x256 : Shape := ⟨2, ![11, 256]⟩
abbrev S11x128 : Shape := ⟨2, ![11, 128]⟩
abbrev S128x256 : Shape := ⟨2, ![128, 256]⟩
abbrev S_ : Shape := ⟨0, ![]⟩
abbrev S8192x1 : Shape := ⟨2, ![8192, 1]⟩
abbrev S1x256 : Shape := ⟨2, ![1, 256]⟩
abbrev S1 : Shape := ⟨1, ![1]⟩
abbrev S1x1 : Shape := ⟨2, ![1, 1]⟩
abbrev S1x512 : Shape := ⟨2, ![1, 512]⟩
abbrev S8192x512 : Shape := ⟨2, ![8192, 512]⟩

abbrev nBuf : Space → Nat
  | .hbm => 330
  | .vmem => 0
  | .smem => 0
  | _ => 0

abbrev hbmTy0_0 (i : Nat) : BufTy := match i % 128 with
  | 0 => ⟨S8192x256, .f32⟩
  | 1 => ⟨S8192x8192, .f32⟩
  | 2 => ⟨S8192, .i32⟩
  | 3 => ⟨S8192, .f32⟩
  | 4 => ⟨S256x256, .f32⟩
  | 5 => ⟨S256, .f32⟩
  | 6 => ⟨S256x256, .f32⟩
  | 7 => ⟨S256, .f32⟩
  | 8 => ⟨S512x256, .f32⟩
  | 9 => ⟨S256, .f32⟩
  | 10 => ⟨S256x256, .f32⟩
  | 11 => ⟨S256, .f32⟩
  | 12 => ⟨S512x256, .f32⟩
  | 13 => ⟨S256, .f32⟩
  | 14 => ⟨S256x256, .f32⟩
  | 15 => ⟨S256, .f32⟩
  | 16 => ⟨S256, .f32⟩
  | 17 => ⟨S256, .f32⟩
  | 18 => ⟨S256, .f32⟩
  | 19 => ⟨S256, .f32⟩
  | 20 => ⟨S256, .f32⟩
  | 21 => ⟨S256, .f32⟩
  | 22 => ⟨S2x256, .f32⟩
  | 23 => ⟨S11x256, .f32⟩
  | 24 => ⟨S11x128, .f32⟩
  | 25 => ⟨S128x256, .f32⟩
  | 26 => ⟨S256, .f32⟩
  | 27 => ⟨S256x256, .f32⟩
  | 28 => ⟨S256, .f32⟩
  | 29 => ⟨S_, .f32⟩
  | 30 => ⟨S8192, .f32⟩
  | 31 => ⟨S8192x1, .f32⟩
  | 32 => ⟨S_, .f32⟩
  | 33 => ⟨S8192x1, .f32⟩
  | 34 => ⟨S8192x1, .f32⟩
  | 35 => ⟨S8192x256, .f32⟩
  | 36 => ⟨S8192x256, .f32⟩
  | 37 => ⟨S8192x256, .f32⟩
  | 38 => ⟨S_, .f32⟩
  | 39 => ⟨S8192, .f32⟩
  | 40 => ⟨S8192x1, .f32⟩
  | 41 => ⟨S_, .f32⟩
  | 42 => ⟨S8192x1, .f32⟩
  | 43 => ⟨S8192x1, .f32⟩
  | 44 => ⟨S8192x256, .f32⟩
  | 45 => ⟨S8192x256, .f32⟩
  | 46 => ⟨S_, .f32⟩
  | 47 => ⟨S8192x1, .f32⟩
  | 48 => ⟨S8192x1, .f32⟩
  | 49 => ⟨S8192x1, .f32⟩
  | 50 => ⟨S8192x256, .f32⟩
  | 51 => ⟨S8192x256, .f32⟩
  | 52 => ⟨S1x256, .f32⟩
  | 53 => ⟨S8192x256, .f32⟩
  | 54 => ⟨S8192x256, .f32⟩
  | 55 => ⟨S1x256, .f32⟩
  | 56 => ⟨S8192x256, .f32⟩
  | 57 => ⟨S8192x256, .f32⟩
  | 58 => ⟨S8192x256, .f32⟩
  | 59 => ⟨S1x256, .f32⟩
  | 60 => ⟨S8192x256, .f32⟩
  | 61 => ⟨S8192x256, .f32⟩
  | 62 => ⟨S_, .f32⟩
  | 63 => ⟨S8192x256, .f32⟩
  | 64 => ⟨S8192x256, .f32⟩
  | 65 => ⟨S8192x256, .f32⟩
  | 66 => ⟨S1x256, .f32⟩
  | 67 => ⟨S8192x256, .f32⟩
  | 68 => ⟨S8192x256, .f32⟩
  | 69 => ⟨S8192x256, .f32⟩
  | 70 => ⟨S_, .f32⟩
  | 71 => ⟨S256, .f32⟩
  | 72 => ⟨S1x256, .f32⟩
  | 73 => ⟨S_, .f32⟩
  | 74 => ⟨S1x256, .f32⟩
  | 75 => ⟨S1x256, .f32⟩
  | 76 => ⟨S8192x8192, .f32⟩
  | 77 => ⟨S8192x256, .f32⟩
  | 78 => ⟨S8192x1, .f32⟩
  | 79 => ⟨S8192x256, .f32⟩
  | 80 => ⟨S8192x256, .f32⟩
  | 81 => ⟨S1x256, .f32⟩
  | 82 => ⟨S1x256, .f32⟩
  | 83 => ⟨S_, .f32⟩
  | 84 => ⟨S1, .f32⟩
  | 85 => ⟨S1x1, .f32⟩
  | 86 => ⟨S_, .f32⟩
  | 87 => ⟨S1x1, .f32⟩
  | 88 => ⟨S1x1, .f32⟩
  | 89 => ⟨S1x256, .f32⟩
  | 90 => ⟨S1x256, .f32⟩
  | 91 => ⟨S1x256, .f32⟩
  | 92 => ⟨S_, .f32⟩
  | 93 => ⟨S1, .f32⟩
  | 94 => ⟨S1x1, .f32⟩
  | 95 => ⟨S_, .f32⟩
  | 96 => ⟨S1x1, .f32⟩
  | 97 => ⟨S1x1, .f32⟩
  | 98 => ⟨S1x256, .f32⟩
  | 99 => ⟨S1x256, .f32⟩
  | 100 => ⟨S_, .f32⟩
  | 101 => ⟨S1x1, .f32⟩
  | 102 => ⟨S1x1, .f32⟩
  | 103 => ⟨S1x1, .f32⟩
  | 104 => ⟨S1x256, .f32⟩
  | 105 => ⟨S1x256, .f32⟩
  | 106 => ⟨S1x256, .f32⟩
  | 107 => ⟨S1x256, .f32⟩
  | 108 => ⟨S1x256, .f32⟩
  | 109 => ⟨S1x256, .f32⟩
  | 110 => ⟨S1x512, .f32⟩
  | 111 => ⟨S1x256, .f32⟩
  | 112 => ⟨S1x256, .f32⟩
  | 113 => ⟨S1x256, .f32⟩
  | 114 => ⟨S_, .f32⟩
  | 115 => ⟨S1x256, .f32⟩
  | 116 => ⟨S1x256, .f32⟩
  | 117 => ⟨S1x256, .f32⟩
  | 118 => ⟨S1x256, .f32⟩
  | 119 => ⟨S1x256, .f32⟩
  | 120 => ⟨S1x256, .f32⟩
  | 121 => ⟨S_, .f32⟩
  | 122 => ⟨S8192, .f32⟩
  | 123 => ⟨S8192x1, .f32⟩
  | 124 => ⟨S_, .f32⟩
  | 125 => ⟨S8192x1, .f32⟩
  | 126 => ⟨S8192x1, .f32⟩
  | 127 => ⟨S8192x256, .f32⟩
  | _ => ⟨S8192x256, .f32⟩

abbrev hbmTy0_1 (i : Nat) : BufTy := match i % 128 with
  | 0 => ⟨S8192x256, .f32⟩
  | 1 => ⟨S8192x256, .f32⟩
  | 2 => ⟨S_, .f32⟩
  | 3 => ⟨S8192, .f32⟩
  | 4 => ⟨S8192x1, .f32⟩
  | 5 => ⟨S_, .f32⟩
  | 6 => ⟨S8192x1, .f32⟩
  | 7 => ⟨S8192x1, .f32⟩
  | 8 => ⟨S8192x256, .f32⟩
  | 9 => ⟨S8192x256, .f32⟩
  | 10 => ⟨S_, .f32⟩
  | 11 => ⟨S8192x1, .f32⟩
  | 12 => ⟨S8192x1, .f32⟩
  | 13 => ⟨S8192x1, .f32⟩
  | 14 => ⟨S8192x256, .f32⟩
  | 15 => ⟨S8192x256, .f32⟩
  | 16 => ⟨S1x256, .f32⟩
  | 17 => ⟨S8192x256, .f32⟩
  | 18 => ⟨S8192x256, .f32⟩
  | 19 => ⟨S1x256, .f32⟩
  | 20 => ⟨S8192x256, .f32⟩
  | 21 => ⟨S8192x256, .f32⟩
  | 22 => ⟨S8192x256, .f32⟩
  | 23 => ⟨S8192x512, .f32⟩
  | 24 => ⟨S8192x256, .f32⟩
  | 25 => ⟨S1x256, .f32⟩
  | 26 => ⟨S8192x256, .f32⟩
  | 27 => ⟨S8192x256, .f32⟩
  | 28 => ⟨S_, .f32⟩
  | 29 => ⟨S8192x256, .f32⟩
  | 30 => ⟨S8192x256, .f32⟩
  | 31 => ⟨S8192x256, .f32⟩
  | 32 => ⟨S1x256, .f32⟩
  | 33 => ⟨S8192x256, .f32⟩
  | 34 => ⟨S8192x256, .f32⟩
  | 35 => ⟨S8192x256, .f32⟩
  | 36 => ⟨S_, .f32⟩
  | 37 => ⟨S8192, .f32⟩
  | 38 => ⟨S8192x1, .f32⟩
  | 39 => ⟨S_, .f32⟩
  | 40 => ⟨S8192x1, .f32⟩
  | 41 => ⟨S8192x1, .f32⟩
  | 42 => ⟨S8192x256, .f32⟩
  | 43 => ⟨S8192x256, .f32⟩
  | 44 => ⟨S8192x256, .f32⟩
  | 45 => ⟨S_, .f32⟩
  | 46 => ⟨S8192, .f32⟩
  | 47 => ⟨S8192x1, .f32⟩
  | 48 => ⟨S_, .f32⟩
  | 49 => ⟨S8192x1, .f32⟩
  | 50 => ⟨S8192x1, .f32⟩
  | 51 => ⟨S8192x256, .f32⟩
  | 52 => ⟨S8192x256, .f32⟩
  | 53 => ⟨S_, .f32⟩
  | 54 => ⟨S8192x1, .f32⟩
  | 55 => ⟨S8192x1, .f32⟩
  | 56 => ⟨S8192x1, .f32⟩
  | 57 => ⟨S8192x256, .f32⟩
  | 58 => ⟨S8192x256, .f32⟩
  | 59 => ⟨S1x256, .f32⟩
  | 60 => ⟨S8192x256, .f32⟩
  | 61 => ⟨S8192x256, .f32⟩
  | 62 => ⟨S1x256, .f32⟩
  | 63 => ⟨S8192x256, .f32⟩
  | 64 => ⟨S8192x256, .f32⟩
  | 65 => ⟨S8192x256, .f32⟩
  | 66 => ⟨S8192x512, .f32⟩
  | 67 => ⟨S8192x256, .f32⟩
  | 68 => ⟨S1x256, .f32⟩
  | 69 => ⟨S8192x256, .f32⟩
  | 70 => ⟨S8192x256, .f32⟩
  | 71 => ⟨S_, .f32⟩
  | 72 => ⟨S8192x256, .f32⟩
  | 73 => ⟨S8192x256, .f32⟩
  | 74 => ⟨S8192x256, .f32⟩
  | 75 => ⟨S1x256, .f32⟩
  | 76 => ⟨S8192x256, .f32⟩
  | 77 => ⟨S8192x256, .f32⟩
  | 78 => ⟨S8192x256, .f32⟩
  | 79 => ⟨S8192x256, .f32⟩
  | 80 => ⟨S8192x256, .f32⟩
  | 81 => ⟨S8192x256, .f32⟩
  | 82 => ⟨S8192x256, .f32⟩
  | 83 => ⟨S1x256, .f32⟩
  | 84 => ⟨S_, .i32⟩
  | 85 => ⟨S8192, .i32⟩
  | 86 => ⟨S8192, .i1⟩
  | 87 => ⟨S_, .i32⟩
  | 88 => ⟨S8192, .i32⟩
  | 89 => ⟨S8192, .i32⟩
  | 90 => ⟨S8192, .i32⟩
  | 91 => ⟨S8192x1, .i32⟩
  | 92 => ⟨S8192x256, .f32⟩
  | 93 => ⟨S_, .f32⟩
  | 94 => ⟨S8192, .f32⟩
  | 95 => ⟨S8192x1, .f32⟩
  | 96 => ⟨S_, .f32⟩
  | 97 => ⟨S8192x1, .f32⟩
  | 98 => ⟨S8192x1, .f32⟩
  | 99 => ⟨S8192x256, .f32⟩
  | 100 => ⟨S8192x256, .f32⟩
  | 101 => ⟨S8192x256, .f32⟩
  | 102 => ⟨S_, .f32⟩
  | 103 => ⟨S8192, .f32⟩
  | 104 => ⟨S8192x1, .f32⟩
  | 105 => ⟨S_, .f32⟩
  | 106 => ⟨S8192x1, .f32⟩
  | 107 => ⟨S8192x1, .f32⟩
  | 108 => ⟨S8192x256, .f32⟩
  | 109 => ⟨S8192x256, .f32⟩
  | 110 => ⟨S_, .f32⟩
  | 111 => ⟨S8192x1, .f32⟩
  | 112 => ⟨S8192x1, .f32⟩
  | 113 => ⟨S8192x1, .f32⟩
  | 114 => ⟨S8192x256, .f32⟩
  | 115 => ⟨S8192x256, .f32⟩
  | 116 => ⟨S1x256, .f32⟩
  | 117 => ⟨S8192x256, .f32⟩
  | 118 => ⟨S8192x256, .f32⟩
  | 119 => ⟨S1x256, .f32⟩
  | 120 => ⟨S8192x256, .f32⟩
  | 121 => ⟨S8192x256, .f32⟩
  | 122 => ⟨S8192x256, .f32⟩
  | 123 => ⟨S8192x512, .f32⟩
  | 124 => ⟨S8192x256, .f32⟩
  | 125 => ⟨S1x256, .f32⟩
  | 126 => ⟨S8192x256, .f32⟩
  | 127 => ⟨S8192x256, .f32⟩
  | _ => ⟨S8192x256, .f32⟩

abbrev hbmTy0_2 (i : Nat) : BufTy := match i % 128 with
  | 0 => ⟨S_, .f32⟩
  | 1 => ⟨S8192x256, .f32⟩
  | 2 => ⟨S8192x256, .f32⟩
  | 3 => ⟨S8192x256, .f32⟩
  | 4 => ⟨S1x256, .f32⟩
  | 5 => ⟨S8192x256, .f32⟩
  | 6 => ⟨S8192x256, .f32⟩
  | 7 => ⟨S8192x256, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S8192x256, .f32⟩
  | 15 => ⟨S8192x256, .f32⟩
  | 16 => ⟨S8192x256, .f32⟩
  | 17 => ⟨S_, .f32⟩
  | 18 => ⟨S8192, .f32⟩
  | 19 => ⟨S8192x1, .f32⟩
  | 20 => ⟨S_, .f32⟩
  | 21 => ⟨S8192x1, .f32⟩
  | 22 => ⟨S8192x1, .f32⟩
  | 23 => ⟨S8192x256, .f32⟩
  | 24 => ⟨S8192x256, .f32⟩
  | 25 => ⟨S_, .f32⟩
  | 26 => ⟨S8192x1, .f32⟩
  | 27 => ⟨S8192x1, .f32⟩
  | 28 => ⟨S8192x1, .f32⟩
  | 29 => ⟨S8192x256, .f32⟩
  | 30 => ⟨S8192x256, .f32⟩
  | 31 => ⟨S1x256, .f32⟩
  | 32 => ⟨S8192x256, .f32⟩
  | 33 => ⟨S8192x256, .f32⟩
  | 34 => ⟨S1x256, .f32⟩
  | 35 => ⟨S8192x256, .f32⟩
  | 36 => ⟨S8192x256, .f32⟩
  | 37 => ⟨S8192x512, .f32⟩
  | 38 => ⟨S8192x256, .f32⟩
  | 39 => ⟨S1x256, .f32⟩
  | 40 => ⟨S8192x256, .f32⟩
  | 41 => ⟨S8192x256, .f32⟩
  | 42 => ⟨S_, .f32⟩
  | 43 => ⟨S8192x256, .f32⟩
  | 44 => ⟨S8192x256, .f32⟩
  | 45 => ⟨S8192x256, .f32⟩
  | 46 => ⟨S1x256, .f32⟩
  | 47 => ⟨S8192x256, .f32⟩
  | 48 => ⟨S8192x256, .f32⟩
  | 49 => ⟨S8192x256, .f32⟩
  | 50 => ⟨S11x256, .f32⟩
  | 51 => ⟨S1x256, .f32⟩
  | 52 => ⟨S11x256, .f32⟩
  | 53 => ⟨S11x256, .f32⟩
  | 54 => ⟨S_, .f32⟩
  | 55 => ⟨S11x256, .f32⟩
  | 56 => ⟨S11x256, .f32⟩
  | 57 => ⟨S11x256, .f32⟩
  | 58 => ⟨S1x256, .f32⟩
  | 59 => ⟨S11x256, .f32⟩
  | 60 => ⟨S11x256, .f32⟩
  | 61 => ⟨S1x256, .f32⟩
  | 62 => ⟨S8192x256, .f32⟩
  | 63 => ⟨S8192x256, .f32⟩
  | 64 => ⟨S_, .i32⟩
  | 65 => ⟨S8192, .i32⟩
  | 66 => ⟨S8192, .i1⟩
  | 67 => ⟨S_, .i32⟩
  | 68 => ⟨S8192, .i32⟩
  | 69 => ⟨S8192, .i32⟩
  | 70 => ⟨S8192, .i32⟩
  | 71 => ⟨S8192x1, .i32⟩
  | 72 => ⟨S8192x256, .f32⟩
  | 73 => ⟨S8192x256, .f32⟩
  | _ => ⟨S8192x256, .f32⟩

abbrev hbmTy (i : Nat) : BufTy := match i / 128 with
  | 0 => hbmTy0_0 i
  | 1 => hbmTy0_1 i
  | 2 => hbmTy0_2 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_cst : Ref sig .tc := ⟨.hbm, 29, rfl⟩
abbrev main_v0 : Ref sig .tc := ⟨.hbm, 30, rfl⟩
abbrev main_v1 : Ref sig .tc := ⟨.hbm, 31, rfl⟩
abbrev main_cst_0 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_cst_1 : Ref sig .tc := ⟨.hbm, 38, rfl⟩
abbrev main_v7 : Ref sig .tc := ⟨.hbm, 39, rfl⟩
abbrev main_v8 : Ref sig .tc := ⟨.hbm, 40, rfl⟩
abbrev main_cst_2 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_cst_3 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_call0_cst : Ref sig .tc := ⟨.hbm, 62, rfl⟩
abbrev main_call0_v0 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_cst_4 : Ref sig .tc := ⟨.hbm, 70, rfl⟩
abbrev main_v34 : Ref sig .tc := ⟨.hbm, 71, rfl⟩
abbrev main_v35 : Ref sig .tc := ⟨.hbm, 72, rfl⟩
abbrev main_cst_5 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_6 : Ref sig .tc := ⟨.hbm, 83, rfl⟩
abbrev main_v45 : Ref sig .tc := ⟨.hbm, 84, rfl⟩
abbrev main_v46 : Ref sig .tc := ⟨.hbm, 85, rfl⟩
abbrev main_cst_7 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_cst_8 : Ref sig .tc := ⟨.hbm, 92, rfl⟩
abbrev main_v52 : Ref sig .tc := ⟨.hbm, 93, rfl⟩
abbrev main_v53 : Ref sig .tc := ⟨.hbm, 94, rfl⟩
abbrev main_cst_9 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_cst_10 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_call1_cst : Ref sig .tc := ⟨.hbm, 114, rfl⟩
abbrev main_call1_v0 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_11 : Ref sig .tc := ⟨.hbm, 121, rfl⟩
abbrev main_v76 : Ref sig .tc := ⟨.hbm, 122, rfl⟩
abbrev main_v77 : Ref sig .tc := ⟨.hbm, 123, rfl⟩
abbrev main_cst_12 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_13 : Ref sig .tc := ⟨.hbm, 130, rfl⟩
abbrev main_v83 : Ref sig .tc := ⟨.hbm, 131, rfl⟩
abbrev main_v84 : Ref sig .tc := ⟨.hbm, 132, rfl⟩
abbrev main_cst_14 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_15 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_call2_cst : Ref sig .tc := ⟨.hbm, 156, rfl⟩
abbrev main_call2_v0 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_cst_16 : Ref sig .tc := ⟨.hbm, 164, rfl⟩
abbrev main_v112 : Ref sig .tc := ⟨.hbm, 165, rfl⟩
abbrev main_v113 : Ref sig .tc := ⟨.hbm, 166, rfl⟩
abbrev main_cst_17 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_cst_18 : Ref sig .tc := ⟨.hbm, 173, rfl⟩
abbrev main_v119 : Ref sig .tc := ⟨.hbm, 174, rfl⟩
abbrev main_v120 : Ref sig .tc := ⟨.hbm, 175, rfl⟩
abbrev main_cst_19 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_cst_20 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_call3_cst : Ref sig .tc := ⟨.hbm, 199, rfl⟩
abbrev main_call3_v0 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_c : Ref sig .tc := ⟨.hbm, 212, rfl⟩
abbrev main_v153 : Ref sig .tc := ⟨.hbm, 213, rfl⟩
abbrev main_v154 : Ref sig .tc := ⟨.hbm, 214, rfl⟩
abbrev main_c_21 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_cst_22 : Ref sig .tc := ⟨.hbm, 221, rfl⟩
abbrev main_v160 : Ref sig .tc := ⟨.hbm, 222, rfl⟩
abbrev main_v161 : Ref sig .tc := ⟨.hbm, 223, rfl⟩
abbrev main_cst_23 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_cst_24 : Ref sig .tc := ⟨.hbm, 230, rfl⟩
abbrev main_v167 : Ref sig .tc := ⟨.hbm, 231, rfl⟩
abbrev main_v168 : Ref sig .tc := ⟨.hbm, 232, rfl⟩
abbrev main_cst_25 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_cst_26 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_v182 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_call4_cst : Ref sig .tc := ⟨.hbm, 256, rfl⟩
abbrev main_call4_v0 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_cst_27 : Ref sig .tc := ⟨.hbm, 264, rfl⟩
abbrev main_v196 : Ref sig .tc := ⟨.hbm, 265, rfl⟩
abbrev main_v197 : Ref sig .tc := ⟨.hbm, 266, rfl⟩
abbrev main_cst_28 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_cst_29 : Ref sig .tc := ⟨.hbm, 273, rfl⟩
abbrev main_v203 : Ref sig .tc := ⟨.hbm, 274, rfl⟩
abbrev main_v204 : Ref sig .tc := ⟨.hbm, 275, rfl⟩
abbrev main_cst_30 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_v208 : Ref sig .tc := ⟨.hbm, 280, rfl⟩
abbrev main_cst_31 : Ref sig .tc := ⟨.hbm, 281, rfl⟩
abbrev main_v209 : Ref sig .tc := ⟨.hbm, 282, rfl⟩
abbrev main_v210 : Ref sig .tc := ⟨.hbm, 283, rfl⟩
abbrev main_v211 : Ref sig .tc := ⟨.hbm, 284, rfl⟩
abbrev main_v212 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_v220 : Ref sig .tc := ⟨.hbm, 293, rfl⟩
abbrev main_v221 : Ref sig .tc := ⟨.hbm, 294, rfl⟩
abbrev main_v222 : Ref sig .tc := ⟨.hbm, 295, rfl⟩
abbrev main_v223 : Ref sig .tc := ⟨.hbm, 296, rfl⟩
abbrev main_v224 : Ref sig .tc := ⟨.hbm, 297, rfl⟩
abbrev main_call5_cst : Ref sig .tc := ⟨.hbm, 298, rfl⟩
abbrev main_call5_v0 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_v229 : Ref sig .tc := ⟨.hbm, 304, rfl⟩
abbrev main_v230 : Ref sig .tc := ⟨.hbm, 305, rfl⟩
abbrev main_v231 : Ref sig .tc := ⟨.hbm, 306, rfl⟩
abbrev main_v232 : Ref sig .tc := ⟨.hbm, 307, rfl⟩
abbrev main_v233 : Ref sig .tc := ⟨.hbm, 308, rfl⟩
abbrev main_v234 : Ref sig .tc := ⟨.hbm, 309, rfl⟩
abbrev main_call6_cst : Ref sig .tc := ⟨.hbm, 310, rfl⟩
abbrev main_call6_v0 : Ref sig .tc := ⟨.hbm, 311, rfl⟩
abbrev main_v235 : Ref sig .tc := ⟨.hbm, 312, rfl⟩
abbrev main_v236 : Ref sig .tc := ⟨.hbm, 313, rfl⟩
abbrev main_v237 : Ref sig .tc := ⟨.hbm, 314, rfl⟩
abbrev main_v238 : Ref sig .tc := ⟨.hbm, 315, rfl⟩
abbrev main_v239 : Ref sig .tc := ⟨.hbm, 316, rfl⟩
abbrev main_v240 : Ref sig .tc := ⟨.hbm, 317, rfl⟩
abbrev main_v241 : Ref sig .tc := ⟨.hbm, 318, rfl⟩
abbrev main_v242 : Ref sig .tc := ⟨.hbm, 319, rfl⟩
abbrev main_c_32 : Ref sig .tc := ⟨.hbm, 320, rfl⟩
abbrev main_v243 : Ref sig .tc := ⟨.hbm, 321, rfl⟩
abbrev main_v244 : Ref sig .tc := ⟨.hbm, 322, rfl⟩
abbrev main_c_33 : Ref sig .tc := ⟨.hbm, 323, rfl⟩
abbrev main_v245 : Ref sig .tc := ⟨.hbm, 324, rfl⟩
abbrev main_v246 : Ref sig .tc := ⟨.hbm, 325, rfl⟩
abbrev main_v247 : Ref sig .tc := ⟨.hbm, 326, rfl⟩
abbrev main_v248 : Ref sig .tc := ⟨.hbm, 327, rfl⟩
abbrev main_v249 : Ref sig .tc := ⟨.hbm, 328, rfl⟩
abbrev main_v250 : Ref sig .tc := ⟨.hbm, 329, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  reducesTo_S8192x256_S256_d0 : S8192x256.ReducesTo [0] S256
  bcast_S_S1x256 : S_.BroadcastsInDim S1x256 (![] : Fin 0 → Fin S1x256.rank)
  transposes_S8192x8192_S8192x8192_1_0 : S8192x8192.Transposes [1, 0] S8192x8192
  slices_S2x256_S1x256_0_0 : S2x256.Slices ![0, 0] S1x256
  slices_S2x256_S1x256_1_0 : S2x256.Slices ![1, 0] S1x256
  reducesTo_S1x256_S1_d1 : S1x256.ReducesTo [1] S1
  bcast_S1_S1x1_0 : S1.BroadcastsInDim S1x1 (![0] : Fin 1 → Fin S1x1.rank)
  bcast_S_S1x1 : S_.BroadcastsInDim S1x1 (![] : Fin 0 → Fin S1x1.rank)
  bcast_S1x1_S1x256_0_1 : S1x1.BroadcastsInDim S1x256 (![0, 1] : Fin 2 → Fin S1x256.rank)
  concatenates_S1x256_S1x256_S1x512_d1 : Shape.Concatenates [S1x256, S1x256] S1x512 1
  concatenates_S8192x256_S8192x256_S8192x512_d1 : Shape.Concatenates [S8192x256, S8192x256] S8192x512 1
  slices_S11x256_S1x256_1_0 : S11x256.Slices ![1, 0] S1x256
  bcast_S_S8192 : S_.BroadcastsInDim S8192 (![] : Fin 0 → Fin S8192.rank)
  bcast_S1x256_S11x256_0_1 : S1x256.BroadcastsInDim S11x256 (![0, 1] : Fin 2 → Fin S11x256.rank)
  bcast_S_S11x256 : S_.BroadcastsInDim S11x256 (![] : Fin 0 → Fin S11x256.rank)
  dot_S8192x256_S256x256_S8192x256_1_0_0_1_n_n_wf : DotDims.WF S8192x256 S256x256 S8192x256 [1] [0] [0] [1] [] []
  dot_S8192x8192_S8192x256_S8192x256_1_0_0_1_n_n_wf : DotDims.WF S8192x8192 S8192x256 S8192x256 [1] [0] [0] [1] [] []
  dot_S1x512_S512x256_S1x256_1_0_0_1_n_n_wf : DotDims.WF S1x512 S512x256 S1x256 [1] [0] [0] [1] [] []
  dot_S1x256_S256x256_S1x256_1_0_0_1_n_n_wf : DotDims.WF S1x256 S256x256 S1x256 [1] [0] [0] [1] [] []
  dot_S8192x512_S512x256_S8192x256_1_0_0_1_n_n_wf : DotDims.WF S8192x512 S512x256 S8192x256 [1] [0] [0] [1] [] []
  gather_S11x256_S8192x1_S8192x256_1_0_n_n_0_1_1256_wf : GatherDims.WF S11x256 S8192x1 S8192x256 [1] [0] [] [0] [] 1 ![1, 256]
  dot_S11x128_S128x256_S11x256_1_0_0_1_n_n_wf : DotDims.WF S11x128 S128x256 S11x256 [1] [0] [0] [1] [] []
  dot_S11x256_S256x256_S11x256_1_0_0_1_n_n_wf : DotDims.WF S11x256 S256x256 S11x256 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S1x512_S512x256_S1x256_1_0_0_1_n_n : DotDims S1x512 S512x256 S1x256 where
  lhsContracting := [1]
  rhsContracting := [0]
  lhsNonContracting := [0]
  rhsNonContracting := [1]
  lhsBatch := []
  rhsBatch := []
  wf := dot_S1x512_S512x256_S1x256_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def gather_S11x256_S8192x1_S8192x256_1_0_n_n_0_1_1256 : GatherDims S11x256 S8192x1 S8192x256 where
  offsetDims := [1]
  collapsedSliceDims := [0]
  operandBatchingDims := []
  startIndicesBatchingDims := []
  startIndexMap := [0]
  indexVectorDim := 1
  sliceSizes := ![1, 256]
  wf := gather_S11x256_S8192x1_S8192x256_1_0_n_n_0_1_1256_wf
def dot_S11x128_S128x256_S11x256_1_0_0_1_n_n : DotDims S11x128 S128x256 S11x256 where
  lhsContracting := [1]
  rhsContracting := [0]
  lhsNonContracting := [0]
  rhsNonContracting := [1]
  lhsBatch := []
  rhsBatch := []
  wf := dot_S11x128_S128x256_S11x256_1_0_0_1_n_n_wf
def dot_S11x256_S256x256_S11x256_1_0_0_1_n_n : DotDims S11x256 S256x256 S11x256 where
  lhsContracting := [1]
  rhsContracting := [0]
  lhsNonContracting := [0]
  rhsNonContracting := [1]
  lhsBatch := []
  rhsBatch := []
  wf := dot_S11x256_S256x256_S11x256_1_0_0_1_n_n_wf

class Facts : Prop extends Facts₀ where

variable [Facts]
-- ==== Proof.BitsAround.lean ====
/-
  The host program around the one kernel region.

  @main is three stretches of host operations, the region, and thirteen more stretches. The region reads the
  incidence matrix (an argument) and the node features after the first residual block (a host result), and
  writes the aggregated features. This module fixes the contents the region finds (the first three stretches
  run from launch memory), shows that @main is "those stretches, the region, the later stretches", and proves
  what a launch asks of the later stretches: they touch only buffers the region does not own, they allocate
  nothing, and none of them writes an array of the region. Every operation writes a host result buffer of its
  own and never an argument, so an argument holds at the end what it held at launch. It also names each
  window's block at a grid point, shows that an input's staging buffer holds its block whether or not the
  point fetched it, and decides the body's two branch conditions over the grid: with 64 points numbered
  row-major over 8 × 8, the accumulator is reset at the points ≡ 0 (mod 8) and copied out at those ≡ 7.
-/
import proofs.«149568_j10290741641935_1_alg».proof.Proof.Gen.Kernel.Launch
import proofs.«149568_j10290741641935_1_alg».proof.Proof.Gen.Kernel.Skeleton
import proofs.«149568_j10290741641935_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stretches -/

/-- The host operations before the region, stretch by stretch. -/
abbrev earlier : List (List (HloOp τ sig (Elt F))) := [hostOps0, hostOps0_1, hostOps0_2]
/-- The host operations after the region, stretch by stretch. -/
abbrev later : List (List (HloOp τ sig (Elt F))) := [hostOps1, hostOps1_1, hostOps1_2, hostOps1_3, hostOps1_4, hostOps1_5, hostOps1_6, hostOps1_7, hostOps1_8, hostOps1_9, hostOps1_10, hostOps1_11, hostOps1_12]

/-- Every buffer an earlier operation writes. -/
def earlierWrites : List (Ref sig .tc) := [
    main_cst, main_v0, main_v1, main_cst_0, main_v2, main_v3, main_v4, main_v5,
    main_v6, main_cst_1, main_v7, main_v8, main_cst_2, main_v9, main_v10, main_v11,
    main_v12, main_cst_3, main_v13, main_v14, main_v15, main_v16, main_v17, main_v18,
    main_v19, main_v20, main_v21, main_v22, main_v23, main_v24, main_v25, main_v26,
    main_v27, main_call0_cst, main_call0_v0, main_v28, main_v29, main_v30, main_v31, main_v32,
    main_v33, main_cst_4, main_v34, main_v35, main_cst_5, main_v36, main_v37 ]
/-- Every buffer a later operation writes. -/
def laterWrites : List (Ref sig .tc) := [
    main_v39, main_v40, main_v41, main_v42, main_v43, main_cst_6, main_v44, main_v45,
    main_cst_7, main_v46, main_v47, main_v48, main_v49, main_v50, main_cst_8, main_v51,
    main_v52, main_cst_9, main_v53, main_v54, main_v55, main_v56, main_cst_10, main_v57,
    main_v58, main_v59, main_v60, main_v61, main_v62, main_v63, main_v64, main_v65,
    main_v66, main_v67, main_v68, main_v69, main_call1_cst, main_call1_v0, main_v70, main_v71,
    main_v72, main_v73, main_v74, main_cst_11, main_v75, main_v76, main_cst_12, main_v77,
    main_v78, main_v79, main_v80, main_v81, main_cst_13, main_v82, main_v83, main_cst_14,
    main_v84, main_v85, main_v86, main_v87, main_cst_15, main_v88, main_v89, main_v90,
    main_v91, main_v92, main_v93, main_v94, main_v95, main_v96, main_v97, main_v98,
    main_v99, main_v100, main_v101, main_v102, main_v103, main_v104, main_call2_cst, main_call2_v0,
    main_v105, main_v106, main_v107, main_v108, main_v109, main_v110, main_cst_16, main_v111,
    main_v112, main_cst_17, main_v113, main_v114, main_v115, main_v116, main_v117, main_cst_18,
    main_v118, main_v119, main_cst_19, main_v120, main_v121, main_v122, main_v123, main_cst_20,
    main_v124, main_v125, main_v126, main_v127, main_v128, main_v129, main_v130, main_v131,
    main_v132, main_v133, main_v134, main_v135, main_v136, main_v137, main_v138, main_v139,
    main_v140, main_call3_cst, main_call3_v0, main_v141, main_v142, main_v143, main_v144, main_v145,
    main_v146, main_v147, main_v148, main_v149, main_v150, main_v151, main_c, main_v152,
    main_v153, main_c_21, main_v154, main_v155, main_v156, main_v157, main_v158, main_cst_22,
    main_v159, main_v160, main_cst_23, main_v161, main_v162, main_v163, main_v164, main_v165,
    main_cst_24, main_v166, main_v167, main_cst_25, main_v168, main_v169, main_v170, main_v171,
    main_cst_26, main_v172, main_v173, main_v174, main_v175, main_v176, main_v177, main_v178,
    main_v179, main_v180, main_v181, main_v182, main_v183, main_v184, main_v185, main_v186,
    main_v187, main_v188, main_call4_cst, main_call4_v0, main_v189, main_v190, main_v191, main_v192,
    main_v193, main_v194, main_cst_27, main_v195, main_v196, main_cst_28, main_v197, main_v198,
    main_v199, main_v200, main_v201, main_cst_29, main_v202, main_v203, main_cst_30, main_v204,
    main_v205, main_v206, main_v207, main_cst_31, main_v208, main_v209, main_v210, main_v211,
    main_v212, main_v213, main_v214, main_v215, main_v216, main_v217, main_v218, main_v219,
    main_v220, main_v221, main_v222, main_v223, main_call5_cst, main_call5_v0, main_v224, main_v225,
    main_v226, main_v227, main_v228, main_v229, main_v230, main_v231, main_v232, main_v233,
    main_call6_cst, main_call6_v0, main_v234, main_v235, main_v236, main_v237, main_v238, main_v239,
    main_v240, main_v241, main_c_32, main_v242, main_v243, main_c_33, main_v244, main_v245,
    main_v246, main_v247, main_v248, main_v249 ]

/-- A result buffer that is in a list of references lies, as a device buffer, in the list's image. -/
theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- A reference outside a list that holds everything an operation writes is not written by it. -/
theorem not_written {W : List (Ref sig .tc)} {r : Ref sig .tc} {op : HloOp τ sig (Elt F)}
    (hW : op.writes ⊆ (W.map (Proc.devRef (τ := τ) .tc)).toFinset) (hr : r ∉ W) : Proc.devRef .tc r ∉ op.writes := fun hb => by
  obtain ⟨y, hy, he⟩ := List.mem_map.mp (List.mem_toFinset.mp (hW hb))
  exact hr (Proc.devRef_injective _ he ▸ hy)

/-- Stretches whose operations write only inside `W` leave every reference outside `W` as it was. -/
theorem kept_of_writes {W : List (Ref sig .tc)} (opss : List (List (HloOp τ sig (Elt F)))) (V : Valuation τ sig (Elt F))
    (hW : ∀ ops ∈ opss, ∀ op ∈ ops, op.writes ⊆ (W.map (Proc.devRef (τ := τ) .tc)).toFinset) {r : Ref sig .tc} (hr : r ∉ W) :
    StableHlo.after opss.flatten V (Proc.devRef .tc r) = V (Proc.devRef .tc r) :=
  StableHlo.after_of_forall_not_mem _ V fun op hop => by
    obtain ⟨ops, hops, hop'⟩ := List.mem_flatten.mp hop
    exact not_written (hW ops hops op hop') hr

theorem hostOps0_writes : (hostOps0 : List (HloOp τ sig (Elt F))).Forall fun op => op.writes ⊆ ((earlierWrites).map (Proc.devRef (τ := τ) .tc)).toFinset :=
  ⟨single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel)⟩
theorem hostOps0_fresh : (hostOps0 : List (HloOp τ sig (Elt F))).Forall fun op => op.fresh = ∅ := by
  simp only [List.Forall]; repeat' constructor
theorem hostOps0_1_writes : (hostOps0_1 : List (HloOp τ sig (Elt F))).Forall fun op => op.writes ⊆ ((earlierWrites).map (Proc.devRef (τ := τ) .tc)).toFinset :=
  ⟨single_sub (by decide +kernel), single_sub (by decide +kernel), single_sub (by decide +kernel)⟩
theorem hostOps0_1_fresh : (hostOps0_1 : List (HloOp τ sig (Elt F))).Forall fun op => op.fresh = ∅ := by
  simp only [List.Forall]; repeat' constructor
theorem hostOps0_2_writes : (hostOps0_2 : List (HloOp τ sig (Elt F))).Forall fun op => op.writes ⊆ ((earlierWrites).map (Proc.devRef (τ := τ) .tc)).toFinset :=
  ⟨single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel)⟩
theorem hostOps0_2_fresh : (hostOps0_2 : List (HloOp τ sig (Elt F))).Forall fun op => op.fresh = ∅ := by
  simp only [List.Forall]; repeat' constructor
theorem hostOps1_writes : (hostOps1 : List (HloOp τ sig (Elt F))).Forall fun op => op.writes ⊆ ((laterWrites).map (Proc.devRef (τ := τ) .tc)).toFinset :=
  ⟨single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel)⟩
theorem hostOps1_fresh : (hostOps1 : List (HloOp τ sig (Elt F))).Forall fun op => op.fresh = ∅ := by
  simp only [List.Forall]; repeat' constructor
theorem hostOps1_1_writes : (hostOps1_1 : List (HloOp τ sig (Elt F))).Forall fun op => op.writes ⊆ ((laterWrites).map (Proc.devRef (τ := τ) .tc)).toFinset :=
  ⟨single_sub (by decide +kernel), single_sub (by decide +kernel), single_sub (by decide +kernel)⟩
theorem hostOps1_1_fresh : (hostOps1_1 : List (HloOp τ sig (Elt F))).Forall fun op => op.fresh = ∅ := by
  simp only [List.Forall]; repeat' constructor
theorem hostOps1_2_writes : (hostOps1_2 : List (HloOp τ sig (Elt F))).Forall fun op => op.writes ⊆ ((laterWrites).map (Proc.devRef (τ := τ) .tc)).toFinset :=
  ⟨single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel)⟩
theorem hostOps1_2_fresh : (hostOps1_2 : List (HloOp τ sig (Elt F))).Forall fun op => op.fresh = ∅ := by
  simp only [List.Forall]; repeat' constructor
theorem hostOps1_3_writes : (hostOps1_3 : List (HloOp τ sig (Elt F))).Forall fun op => op.writes ⊆ ((laterWrites).map (Proc.devRef (τ := τ) .tc)).toFinset :=
  ⟨single_sub (by decide +kernel), single_sub (by decide +kernel), single_sub (by decide +kernel)⟩
theorem hostOps1_3_fresh : (hostOps1_3 : List (HloOp τ sig (Elt F))).Forall fun op => op.fresh = ∅ := by
  simp only [List.Forall]; repeat' constructor
theorem hostOps1_4_writes : (hostOps1_4 : List (HloOp τ sig (Elt F))).Forall fun op => op.writes ⊆ ((laterWrites).map (Proc.devRef (τ := τ) .tc)).toFinset :=
  ⟨single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel)⟩
theorem hostOps1_4_fresh : (hostOps1_4 : List (HloOp τ sig (Elt F))).Forall fun op => op.fresh = ∅ := by
  simp only [List.Forall]; repeat' constructor
theorem hostOps1_5_writes : (hostOps1_5 : List (HloOp τ sig (Elt F))).Forall fun op => op.writes ⊆ ((laterWrites).map (Proc.devRef (τ := τ) .tc)).toFinset :=
  ⟨single_sub (by decide +kernel), single_sub (by decide +kernel), single_sub (by decide +kernel)⟩
theorem hostOps1_5_fresh : (hostOps1_5 : List (HloOp τ sig (Elt F))).Forall fun op => op.fresh = ∅ := by
  simp only [List.Forall]; repeat' constructor
theorem hostOps1_6_writes : (hostOps1_6 : List (HloOp τ sig (Elt F))).Forall fun op => op.writes ⊆ ((laterWrites).map (Proc.devRef (τ := τ) .tc)).toFinset :=
  ⟨single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel)⟩
theorem hostOps1_6_fresh : (hostOps1_6 : List (HloOp τ sig (Elt F))).Forall fun op => op.fresh = ∅ := by
  simp only [List.Forall]; repeat' constructor
theorem hostOps1_7_writes : (hostOps1_7 : List (HloOp τ sig (Elt F))).Forall fun op => op.writes ⊆ ((laterWrites).map (Proc.devRef (τ := τ) .tc)).toFinset :=
  ⟨single_sub (by decide +kernel), single_sub (by decide +kernel), single_sub (by decide +kernel)⟩
theorem hostOps1_7_fresh : (hostOps1_7 : List (HloOp τ sig (Elt F))).Forall fun op => op.fresh = ∅ := by
  simp only [List.Forall]; repeat' constructor
theorem hostOps1_8_writes : (hostOps1_8 : List (HloOp τ sig (Elt F))).Forall fun op => op.writes ⊆ ((laterWrites).map (Proc.devRef (τ := τ) .tc)).toFinset :=
  ⟨single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel)⟩
theorem hostOps1_8_fresh : (hostOps1_8 : List (HloOp τ sig (Elt F))).Forall fun op => op.fresh = ∅ := by
  simp only [List.Forall]; repeat' constructor
theorem hostOps1_9_writes : (hostOps1_9 : List (HloOp τ sig (Elt F))).Forall fun op => op.writes ⊆ ((laterWrites).map (Proc.devRef (τ := τ) .tc)).toFinset :=
  ⟨single_sub (by decide +kernel), single_sub (by decide +kernel), single_sub (by decide +kernel)⟩
theorem hostOps1_9_fresh : (hostOps1_9 : List (HloOp τ sig (Elt F))).Forall fun op => op.fresh = ∅ := by
  simp only [List.Forall]; repeat' constructor
theorem hostOps1_10_writes : (hostOps1_10 : List (HloOp τ sig (Elt F))).Forall fun op => op.writes ⊆ ((laterWrites).map (Proc.devRef (τ := τ) .tc)).toFinset :=
  ⟨single_sub (by decide +kernel), single_sub (by decide +kernel), single_sub (by decide +kernel), single_sub (by decide +kernel), single_sub (by decide +kernel), single_sub (by decide +kernel), single_sub (by decide +kernel), single_sub (by decide +kernel), single_sub (by decide +kernel)⟩
theorem hostOps1_10_fresh : (hostOps1_10 : List (HloOp τ sig (Elt F))).Forall fun op => op.fresh = ∅ := by
  simp only [List.Forall]; repeat' constructor
theorem hostOps1_11_writes : (hostOps1_11 : List (HloOp τ sig (Elt F))).Forall fun op => op.writes ⊆ ((laterWrites).map (Proc.devRef (τ := τ) .tc)).toFinset :=
  ⟨single_sub (by decide +kernel), single_sub (by decide +kernel), single_sub (by decide +kernel)⟩
theorem hostOps1_11_fresh : (hostOps1_11 : List (HloOp τ sig (Elt F))).Forall fun op => op.fresh = ∅ := by
  simp only [List.Forall]; repeat' constructor
theorem hostOps1_12_writes : (hostOps1_12 : List (HloOp τ sig (Elt F))).Forall fun op => op.writes ⊆ ((laterWrites).map (Proc.devRef (τ := τ) .tc)).toFinset :=
  ⟨single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel)⟩
theorem hostOps1_12_fresh : (hostOps1_12 : List (HloOp τ sig (Elt F))).Forall fun op => op.fresh = ∅ := by
  simp only [List.Forall]; repeat' constructor

/-- Every earlier operation writes inside `earlierWrites`. -/
theorem earlier_writes : ∀ ops ∈ (earlier : List (List (HloOp τ sig (Elt F)))), ∀ op ∈ ops,
    op.writes ⊆ (earlierWrites.map (Proc.devRef (τ := τ) .tc)).toFinset := by
  intro ops hops
  simp only [List.mem_cons, List.mem_nil_iff, or_false] at hops
  rcases hops with rfl | rfl | rfl
  exacts [List.forall_iff_forall_mem.mp hostOps0_writes, List.forall_iff_forall_mem.mp hostOps0_1_writes, List.forall_iff_forall_mem.mp hostOps0_2_writes]

/-- Every later operation writes inside `laterWrites`. -/
theorem later_writes : ∀ ops ∈ (later : List (List (HloOp τ sig (Elt F)))), ∀ op ∈ ops,
    op.writes ⊆ (laterWrites.map (Proc.devRef (τ := τ) .tc)).toFinset := by
  intro ops hops
  simp only [List.mem_cons, List.mem_nil_iff, or_false] at hops
  rcases hops with rfl | rfl | rfl | rfl | rfl | rfl | rfl | rfl | rfl | rfl | rfl | rfl | rfl
  exacts [List.forall_iff_forall_mem.mp hostOps1_writes, List.forall_iff_forall_mem.mp hostOps1_1_writes, List.forall_iff_forall_mem.mp hostOps1_2_writes, List.forall_iff_forall_mem.mp hostOps1_3_writes, List.forall_iff_forall_mem.mp hostOps1_4_writes, List.forall_iff_forall_mem.mp hostOps1_5_writes, List.forall_iff_forall_mem.mp hostOps1_6_writes, List.forall_iff_forall_mem.mp hostOps1_7_writes, List.forall_iff_forall_mem.mp hostOps1_8_writes, List.forall_iff_forall_mem.mp hostOps1_9_writes, List.forall_iff_forall_mem.mp hostOps1_10_writes, List.forall_iff_forall_mem.mp hostOps1_11_writes, List.forall_iff_forall_mem.mp hostOps1_12_writes]

/-! ## What the region finds, and @main around it -/

variable (m : (ℓ : Loc nD τ sig) → Buf (Elt F) ℓ) (ρ : Dev nD → PrngReg)

/-- Core `c`'s buffer contents when the region is entered: launch memory after the earlier stretches. -/
abbrev entryVal (c : Dev nD) : Valuation τ sig (Elt F) := StableHlo.after (List.flatten earlier) (fun b => m (c, b))
/-- The same read at a TensorCore reference. -/
abbrev entryAt (c : Dev nD) (b : Ref sig .tc) : Buf (Elt F) ((c : Thread nD τ).loc b) := entryVal m c (Proc.devRef .tc b)

/-- @main is the earlier stretches, the region, and the later stretches: it reduces to the region continued by
    the later stretches, entered at `entryAt`. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain ((later (F := F)).map StableHlo.seq)) :=
  Pipeline.hmain_around cfgs 0 defs₀ 𝒱₀ m main earlier later
    (by simp only [List.Forall]; exact ⟨hostOps0_sub, hostOps0_1_sub, hostOps0_2_sub⟩)
    (by simp only [List.Forall]; exact ⟨hostOps0_fresh, hostOps0_1_fresh, hostOps0_2_fresh⟩) main_chain

/-- The later stretches touch the region's arrays and the buffers that bypass it, nothing else. -/
theorem later_reach : ∀ ops ∈ (later : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)

/-- They allocate nothing. -/
theorem later_fresh : ∀ ops ∈ (later : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop

/-- No array of the region is among the buffers the later stretches write. -/
theorem arrays_not_later : ∀ w : Fin 3, Pipeline.arrRef spec0 w ∉ laterWrites := by decide +kernel

/-- So no later operation writes an array of the region. -/
theorem later_keeps : ∀ ops ∈ (later : List (List (HloOp τ sig (Elt F)))), ∀ op ∈ ops,
    ∀ w, Proc.devRef .tc (Pipeline.arrRef spec0 w) ∉ op.writes :=
  fun ops hops op hop w => not_written (later_writes ops hops op hop) (arrays_not_later w)

/-- A reference no earlier operation writes is found by the region as launched. -/
theorem entry_of_unwritten (c : Dev nD) {b : Ref sig .tc} (hb : b ∉ earlierWrites) :
    entryAt m c b = m ((c : Thread nD τ).loc b) :=
  kept_of_writes earlier _ earlier_writes hb

end Cert.Kernel.Around

end
-- ==== Proof.BitsWindows.lean ====
/-
  The windows of the kernel region: their blocks, what the body finds in each input's staging buffer, the
  body's branch conditions over the grid, and the frame claim read off a frame run.

  Window 0 is the incidence matrix in 1024 × 1024 blocks (block (n, e) at point (e, n)), fetched at every
  point; window 1 is the whole feature matrix, fetched once; window 2 is the result in 1024 × 256 blocks
  (block e), written back when the last row-tile of the column block has been added.
-/
import proofs.«149568_j10290741641935_1_alg».proof.Proof.BitsAround

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- The incidence window's staging buffer holds the point's block, for any proof data whose array is the
    region-entry contents and whose body leaves the block in place. -/
theorem inc_held {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The feature window's staging buffer holds the whole matrix at every point although only the first fetches
    it: its block index never moves. -/
theorem feat_held {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim from a frame run -/

/-- What the later stretches leave, from the region's exit contents. -/
abbrev exitAt (dats : (p : Fin 1) → (c : Dev nD) → Dat τ (Elt F) Unit ℕ (UR sig nD τ) ℕ (cfgs p) c) :=
  Pipeline.afterTail₀ cfgs dats 0 (entryVal m) later

/-- A buffer that no window stages and no operation writes ends as launched. -/
theorem bypass_kept (dats : (p : Fin 1) → (c : Dev nD) → Dat τ (Elt F) Unit ℕ (UR sig nD τ) ℕ (cfgs p) c) (c : Dev nD) (b : Ref sig .tc)
    (h1 : b ∉ earlierWrites) (h2 : b ∉ laterWrites) (hne : ∀ w, Pipeline.arrRef spec0 w ≠ b) :
    exitAt m dats c b = m ((c : Thread nD τ).loc b) := by
  unfold exitAt Pipeline.afterTail₀
  exact (kept_of_writes later _ later_writes h2).trans
    ((Pipeline.withArrays_of_ne spec0 c _ _ b hne).trans (entry_of_unwritten m c h1))

/-- In a state a frame run ends in, every argument is as launched — the incidence matrix because an input window's
    array is never written, the others because nothing stages or writes them. -/
theorem args_of_post (dats : (p : Fin 1) → (c : Dev nD) → Dat τ (Elt F) Unit ℕ (UR sig nD τ) ℕ (cfgs p) c)
    (hA : ∀ c w, (dats 0 c).A w = entryAt m c (Pipeline.arrRef spec0 w)) {r : PUnit × MemSt nD τ sig (Elt F)}
    (h : Pipeline.FramePost cfgs dats 0 (exitAt m dats) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28) :=
  ⟨((h c).2 main_arg0 (Pipeline.mem_restRefs_of main_arg0 rfl (by decide +kernel))).trans (bypass_kept m dats c main_arg0 (by decide +kernel) (by decide +kernel) (by decide +kernel)),
    ((h c).1 0).trans (((dats 0 c).arrAt_in 0 rfl _).trans ((hA c 0).trans (entry_of_unwritten m c (by decide +kernel)))),
    ((h c).2 main_arg2 (Pipeline.mem_restRefs_of main_arg2 rfl (by decide +kernel))).trans (bypass_kept m dats c main_arg2 (by decide +kernel) (by decide +kernel) (by decide +kernel)),
    ((h c).2 main_arg3 (Pipeline.mem_restRefs_of main_arg3 rfl (by decide +kernel))).trans (bypass_kept m dats c main_arg3 (by decide +kernel) (by decide +kernel) (by decide +kernel)),
    ((h c).2 main_arg4 (Pipeline.mem_restRefs_of main_arg4 rfl (by decide +kernel))).trans (bypass_kept m dats c main_arg4 (by decide +kernel) (by decide +kernel) (by decide +kernel)),
    ((h c).2 main_arg5 (Pipeline.mem_restRefs_of main_arg5 rfl (by decide +kernel))).trans (bypass_kept m dats c main_arg5 (by decide +kernel) (by decide +kernel) (by decide +kernel)),
    ((h c).2 main_arg6 (Pipeline.mem_restRefs_of main_arg6 rfl (by decide +kernel))).trans (bypass_kept m dats c main_arg6 (by decide +kernel) (by decide +kernel) (by decide +kernel)),
    ((h c).2 main_arg7 (Pipeline.mem_restRefs_of main_arg7 rfl (by decide +kernel))).trans (bypass_kept m dats c main_arg7 (by decide +kernel) (by decide +kernel) (by decide +kernel)),
    ((h c).2 main_arg8 (Pipeline.mem_restRefs_of main_arg8 rfl (by decide +kernel))).trans (bypass_kept m dats c main_arg8 (by decide +kernel) (by decide +kernel) (by decide +kernel)),
    ((h c).2 main_arg9 (Pipeline.mem_restRefs_of main_arg9 rfl (by decide +kernel))).trans (bypass_kept m dats c main_arg9 (by decide +kernel) (by decide +kernel) (by decide +kernel)),
    ((h c).2 main_arg10 (Pipeline.mem_restRefs_of main_arg10 rfl (by decide +kernel))).trans (bypass_kept m dats c main_arg10 (by decide +kernel) (by decide +kernel) (by decide +kernel)),
    ((h c).2 main_arg11 (Pipeline.mem_restRefs_of main_arg11 rfl (by decide +kernel))).trans (bypass_kept m dats c main_arg11 (by decide +kernel) (by decide +kernel) (by decide +kernel)),
    ((h c).2 main_arg12 (Pipeline.mem_restRefs_of main_arg12 rfl (by decide +kernel))).trans (bypass_kept m dats c main_arg12 (by decide +kernel) (by decide +kernel) (by decide +kernel)),
    ((h c).2 main_arg13 (Pipeline.mem_restRefs_of main_arg13 rfl (by decide +kernel))).trans (bypass_kept m dats c main_arg13 (by decide +kernel) (by decide +kernel) (by decide +kernel)),
    ((h c).2 main_arg14 (Pipeline.mem_restRefs_of main_arg14 rfl (by decide +kernel))).trans (bypass_kept m dats c main_arg14 (by decide +kernel) (by decide +kernel) (by decide +kernel)),
    ((h c).2 main_arg15 (Pipeline.mem_restRefs_of main_arg15 rfl (by decide +kernel))).trans (bypass_kept m dats c main_arg15 (by decide +kernel) (by decide +kernel) (by decide +kernel)),
    ((h c).2 main_arg16 (Pipeline.mem_restRefs_of main_arg16 rfl (by decide +kernel))).trans (bypass_kept m dats c main_arg16 (by decide +kernel) (by decide +kernel) (by decide +kernel)),
    ((h c).2 main_arg17 (Pipeline.mem_restRefs_of main_arg17 rfl (by decide +kernel))).trans (bypass_kept m dats c main_arg17 (by decide +kernel) (by decide +kernel) (by decide +kernel)),
    ((h c).2 main_arg18 (Pipeline.mem_restRefs_of main_arg18 rfl (by decide +kernel))).trans (bypass_kept m dats c main_arg18 (by decide +kernel) (by decide +kernel) (by decide +kernel)),
    ((h c).2 main_arg19 (Pipeline.mem_restRefs_of main_arg19 rfl (by decide +kernel))).trans (bypass_kept m dats c main_arg19 (by decide +kernel) (by decide +kernel) (by decide +kernel)),
    ((h c).2 main_arg20 (Pipeline.mem_restRefs_of main_arg20 rfl (by decide +kernel))).trans (bypass_kept m dats c main_arg20 (by decide +kernel) (by decide +kernel) (by decide +kernel)),
    ((h c).2 main_arg21 (Pipeline.mem_restRefs_of main_arg21 rfl (by decide +kernel))).trans (bypass_kept m dats c main_arg21 (by decide +kernel) (by decide +kernel) (by decide +kernel)),
    ((h c).2 main_arg22 (Pipeline.mem_restRefs_of main_arg22 rfl (by decide +kernel))).trans (bypass_kept m dats c main_arg22 (by decide +kernel) (by decide +kernel) (by decide +kernel)),
    ((h c).2 main_arg23 (Pipeline.mem_restRefs_of main_arg23 rfl (by decide +kernel))).trans (bypass_kept m dats c main_arg23 (by decide +kernel) (by decide +kernel) (by decide +kernel)),
    ((h c).2 main_arg24 (Pipeline.mem_restRefs_of main_arg24 rfl (by decide +kernel))).trans (bypass_kept m dats c main_arg24 (by decide +kernel) (by decide +kernel) (by decide +kernel)),
    ((h c).2 main_arg25 (Pipeline.mem_restRefs_of main_arg25 rfl (by decide +kernel))).trans (bypass_kept m dats c main_arg25 (by decide +kernel) (by decide +kernel) (by decide +kernel)),
    ((h c).2 main_arg26 (Pipeline.mem_restRefs_of main_arg26 rfl (by decide +kernel))).trans (bypass_kept m dats c main_arg26 (by decide +kernel) (by decide +kernel) (by decide +kernel)),
    ((h c).2 main_arg27 (Pipeline.mem_restRefs_of main_arg27 rfl (by decide +kernel))).trans (bypass_kept m dats c main_arg27 (by decide +kernel) (by decide +kernel) (by decide +kernel)),
    ((h c).2 main_arg28 (Pipeline.mem_restRefs_of main_arg28 rfl (by decide +kernel))).trans (bypass_kept m dats c main_arg28 (by decide +kernel) (by decide +kernel) (by decide +kernel))⟩

/-- THE FRAME from a frame run. -/
theorem args_kept (dats : (p : Fin 1) → (c : Dev nD) → Dat τ (Elt F) Unit ℕ (UR sig nD τ) ℕ (cfgs p) c)
    (hA : ∀ c w, (dats 0 c).A w = entryAt m c (Pipeline.arrRef spec0 w))
    (h : θ_run defs (onTc (τ := τ) (main (F := F))) (s₀ m ρ) (Pipeline.FramePost cfgs dats 0 (exitAt m dats))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun r h c => args_of_post m dats hA h c) h

/-! ## The body's two branches -/

/-- The first branch's condition from the grid coordinates: the row-tile counter is zero. -/
abbrev atFirst (i : grid0.Coords) : Prop := (Scalar.cmpi .ne (Scalar.extui (Scalar.cmpi .eq (BitVec.ofNat 32 (i 1).val) 0#32)) 0#32) = 1#1
/-- It holds at the points ≡ 0 (mod 8). -/
theorem atFirst_iff : ∀ t : Fin cfg0.N, atFirst (grid0.coords t) ↔ t.val % 8 = 0 :=
  (by decide +kernel : ∀ t : Fin grid0.N, atFirst (grid0.coords t) ↔ t.val % 8 = 0)

/-- The last branch's condition: the row-tile counter is seven. -/
abbrev atLast (i : grid0.Coords) : Prop := k0_cond2 i = 1#1
/-- It holds at the points ≡ 7 (mod 8). -/
theorem atLast_iff : ∀ t : Fin cfg0.N, atLast (grid0.coords t) ↔ t.val % 8 = 7 :=
  (by decide +kernel : ∀ t : Fin grid0.N, atLast (grid0.coords t) ↔ t.val % 8 = 7)

/-- The inputs are never idle. -/
theorem inc_live : ∀ t : Fin cfg0.N, cfg0.idle 0 (grid0.coords t) = false := by decide +kernel
theorem feat_live : ∀ t : Fin cfg0.N, cfg0.idle 1 (grid0.coords t) = false := by decide +kernel
/-- Away from the last row-tile the result window is idle and not written back; at it, live. -/
theorem out_idle : ∀ t : Fin cfg0.N, ¬atLast (grid0.coords t) → cfg0.idle 2 (grid0.coords t) = true := by decide +kernel
theorem out_noFlush : ∀ t : Fin cfg0.N, ¬atLast (grid0.coords t) → (cfg0.win 2).flush t = false := by decide +kernel
theorem out_live : ∀ t : Fin cfg0.N, atLast (grid0.coords t) → cfg0.idle 2 (grid0.coords t) = false := by decide +kernel

/-! ## The memrefs the body is called with -/

/-- One staging buffer of the result window, through which its contents are stated. -/
abbrev outView : View sig .tc .vmem S1024x256 .f32 := (Memref.whole cc0_stg2_0 : Memref sig .tc .vmem S1024x256 .f32).view
abbrev incM (t : Fin cfg0.N) : Memref sig .tc .vmem S1024x1024 .f32 := win0_0.stage (cfg0.slots t 0)
abbrev incW (t : Fin cfg0.N) : (incM t).IsWhole := hstage0_0 ((cfg0.slots t 0).cast nbuf0_0)
abbrev featM (t : Fin cfg0.N) : Memref sig .tc .vmem S8192x256 .f32 := win0_1.stage (cfg0.slots t 1)
abbrev featW (t : Fin cfg0.N) : (featM t).IsWhole := hstage0_1 ((cfg0.slots t 1).cast nbuf0_1)
abbrev outM (t : Fin cfg0.N) : Memref sig .tc .vmem S1024x256 .f32 := win0_2.stage (cfg0.slots t 2)
abbrev outW (t : Fin cfg0.N) : (outM t).IsWhole := hstage0_2 ((cfg0.slots t 2).cast nbuf0_2)
/-- The accumulator: a whole scoped buffer of the kernel's own, carried from point to point. -/
abbrev accM : Memref sig .tc .vmem S1024x256 .f32 := Memref.whole cc0_scratch0
abbrev accView : View sig .tc .vmem S1024x256 .f32 := accM.view

/-- The launch's invariant with the accumulator as a memref owned at some contents. -/
theorem inv_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Around

end
-- ==== Proof.BitsRunFirst.lean ====
/-
  The kernel body at a point where the row-tile counter is zero and not seven: it overwrites the accumulator
  with zeros, then with zeros plus this tile's product; the result window is untouched. The triple is found by
  running the body symbolically on whole staging memrefs; the pieces the accumulator ends with are the witness.
-/
import proofs.«149568_j10290741641935_1_alg».proof.Proof.BitsWindows

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body when the counter is zero: the inputs at their contents, the result buffer at any contents handed
    back untouched, the accumulator at anything; afterwards the accumulator holds the pieces `LS` written. -/
noncomputable def runFirst (c : Dev nD) (i : grid0.Coords) (arg2 : Memref sig .tc .vmem S1024x1024 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : atFirst i) (hc1 : ¬atLast i)
    (x0 : Vec F S1024x1024 .f32) (x1 : Vec F S8192x256 .f32) :
    Σ' (L2 : List (View.Piece (Elt F) S1024x256 .f32)), { LS : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0_kernel i arg2 harg2 arg3 harg3 arg4 harg4 arg5 harg5) K } := by
  refine ⟨[], ?_, fun xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Around

end
-- ==== Proof.BitsRunMid.lean ====
/-
  The kernel body at a point where the row-tile counter is neither zero nor seven: it adds this tile's product
  to what the accumulator held; the result window is untouched.
-/
import proofs.«149568_j10290741641935_1_alg».proof.Proof.BitsRunFirst

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in the middle of a column block: the accumulator comes at the contents `xs` the point before left. -/
noncomputable def runMid (c : Dev nD) (i : grid0.Coords) (arg2 : Memref sig .tc .vmem S1024x1024 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : ¬atFirst i) (hc1 : ¬atLast i)
    (x0 : Vec F S1024x1024 .f32) (x1 : Vec F S8192x256 .f32) (xs : Vec F S1024x256 .f32) :
    Σ' (L2 : List (View.Piece (Elt F) S1024x256 .f32)), { LS : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0_kernel i arg2 harg2 arg3 harg3 arg4 harg4 arg5 harg5) K } := by
  refine ⟨[], ?_, fun xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Around

end
-- ==== Proof.BitsRunLast.lean ====
/-
  The kernel body at a point where the row-tile counter is seven: it adds the last tile's product to the
  accumulator and copies the accumulator into the result window's staging buffer, covering it.
-/
import proofs.«149568_j10290741641935_1_alg».proof.Proof.BitsRunMid

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last row-tile: the result buffer comes at anything and ends with the pieces `L2` written. -/
noncomputable def runLast (c : Dev nD) (i : grid0.Coords) (arg2 : Memref sig .tc .vmem S1024x1024 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : ¬atFirst i) (hc1 : atLast i)
    (x0 : Vec F S1024x1024 .f32) (x1 : Vec F S8192x256 .f32) (xs : Vec F S1024x256 .f32) :
    Σ' (L2 : List (View.Piece (Elt F) S1024x256 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0_kernel i arg2 harg2 arg3 harg3 arg4 harg4 arg5 harg5) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Around

end
-- ==== Proof.BitsFrame.lean ====
/-
  The frame of the kernel program: every fair execution of @main terminates without a fault and leaves the
  arguments as launched.

  The region's 64 points run column block by column block; within a block the accumulator is reset at the first
  row-tile, added to at every row-tile, and copied into the result window at the last, when the window is
  written back. What the accumulator and the result buffer hold after each point is defined by recursion on
  the point (each case's pieces, found by running the body, read back); the region invariant carries the
  accumulator at that value from one point to the next. With this proof data the body meets its obligation at
  every point, and the launch theorem for a region with host stretches before and after it gives the run.
-/
import proofs.«149568_j10290741641935_1_alg».proof.Proof.BitsRunLast

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- What the first case leaves in the accumulator: its pieces cover the buffer (they tile it), -/
theorem accCoverFirst (c : Dev nD) (i : grid0.Coords) (arg2 : Memref sig .tc .vmem S1024x1024 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : atFirst i) (hc1 : ¬atLast i)
    (x0 : Vec F S1024x1024 .f32) (x1 : Vec F S8192x256 .f32) (y : S1024x256.Idx) :
    ∃ pc ∈ (runFirst c i arg2 harg2 arg3 harg3 arg4 harg4 arg5 harg5 hc0 hc1 x0 x1).2.1, y ∈ pc.1.set :=
  View.cover_of_tiledL (runFirst c i arg2 harg2 arg3 harg3 arg4 harg4 arg5 harg5 hc0 hc1 x0 x1).2.1 S1024x256.size (by sl_kernel_rfl) y
/-- so the accumulator holds them read back. -/
def accFirst (c : Dev nD) (i : grid0.Coords) (arg2 : Memref sig .tc .vmem S1024x1024 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : atFirst i) (hc1 : ¬atLast i)
    (x0 : Vec F S1024x1024 .f32) (x1 : Vec F S8192x256 .f32) : Vec F S1024x256 .f32 :=
  accView.read (Elt F) (accView.writes (Elt F) accView.junk (runFirst c i arg2 harg2 arg3 harg3 arg4 harg4 arg5 harg5 hc0 hc1 x0 x1).2.1)

/-- The case stores nothing into the result window: a placeholder nothing consults (the window is idle there). -/
def outFirst (c : Dev nD) (i : grid0.Coords) (arg2 : Memref sig .tc .vmem S1024x1024 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : atFirst i) (hc1 : ¬atLast i)
    (x0 : Vec F S1024x1024 .f32) (x1 : Vec F S8192x256 .f32) : Vec F S1024x256 .f32 :=
  outView.read (Elt F) (outView.writes (Elt F) outView.junk (runFirst c i arg2 harg2 arg3 harg3 arg4 harg4 arg5 harg5 hc0 hc1 x0 x1).1)

/-- What the middle case leaves in the accumulator: its pieces cover the buffer (they tile it), -/
theorem accCoverMid (c : Dev nD) (i : grid0.Coords) (arg2 : Memref sig .tc .vmem S1024x1024 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : ¬atFirst i) (hc1 : ¬atLast i)
    (x0 : Vec F S1024x1024 .f32) (x1 : Vec F S8192x256 .f32) (xs : Vec F S1024x256 .f32) (y : S1024x256.Idx) :
    ∃ pc ∈ (runMid c i arg2 harg2 arg3 harg3 arg4 harg4 arg5 harg5 hc0 hc1 x0 x1 xs).2.1, y ∈ pc.1.set :=
  View.cover_of_tiledL (runMid c i arg2 harg2 arg3 harg3 arg4 harg4 arg5 harg5 hc0 hc1 x0 x1 xs).2.1 S1024x256.size (by sl_kernel_rfl) y
/-- so the accumulator holds them read back. -/
def accMid (c : Dev nD) (i : grid0.Coords) (arg2 : Memref sig .tc .vmem S1024x1024 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : ¬atFirst i) (hc1 : ¬atLast i)
    (x0 : Vec F S1024x1024 .f32) (x1 : Vec F S8192x256 .f32) (xs : Vec F S1024x256 .f32) : Vec F S1024x256 .f32 :=
  accView.read (Elt F) (accView.writes (Elt F) accView.junk (runMid c i arg2 harg2 arg3 harg3 arg4 harg4 arg5 harg5 hc0 hc1 x0 x1 xs).2.1)

/-- The case stores nothing into the result window: a placeholder nothing consults (the window is idle there). -/
def outMid (c : Dev nD) (i : grid0.Coords) (arg2 : Memref sig .tc .vmem S1024x1024 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : ¬atFirst i) (hc1 : ¬atLast i)
    (x0 : Vec F S1024x1024 .f32) (x1 : Vec F S8192x256 .f32) (xs : Vec F S1024x256 .f32) : Vec F S1024x256 .f32 :=
  outView.read (Elt F) (outView.writes (Elt F) outView.junk (runMid c i arg2 harg2 arg3 harg3 arg4 harg4 arg5 harg5 hc0 hc1 x0 x1 xs).1)

/-- What the last case leaves in the accumulator: its pieces cover the buffer (they tile it), -/
theorem accCoverLast (c : Dev nD) (i : grid0.Coords) (arg2 : Memref sig .tc .vmem S1024x1024 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : ¬atFirst i) (hc1 : atLast i)
    (x0 : Vec F S1024x1024 .f32) (x1 : Vec F S8192x256 .f32) (xs : Vec F S1024x256 .f32) (y : S1024x256.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S1024x256.size (by sl_kernel_rfl) y
/-- so the accumulator holds them read back. -/
def accLast (c : Dev nD) (i : grid0.Coords) (arg2 : Memref sig .tc .vmem S1024x1024 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : ¬atFirst i) (hc1 : atLast i)
    (x0 : Vec F S1024x1024 .f32) (x1 : Vec F S8192x256 .f32) (xs : Vec F S1024x256 .f32) : Vec F S1024x256 .f32 :=
  accView.read (Elt F) (accView.writes (Elt F) accView.junk (runLast c i arg2 harg2 arg3 harg3 arg4 harg4 arg5 harg5 hc0 hc1 x0 x1 xs).2.1)

/-- The last case's pieces for the result window cover its block, -/
theorem outCoverLast (c : Dev nD) (i : grid0.Coords) (arg2 : Memref sig .tc .vmem S1024x1024 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : ¬atFirst i) (hc1 : atLast i)
    (x0 : Vec F S1024x1024 .f32) (x1 : Vec F S8192x256 .f32) (xs : Vec F S1024x256 .f32) (y : S1024x256.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1024x256.size (by sl_kernel_rfl) y
/-- so the result window's staging buffer holds them read back. -/
def outLast (c : Dev nD) (i : grid0.Coords) (arg2 : Memref sig .tc .vmem S1024x1024 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : ¬atFirst i) (hc1 : atLast i)
    (x0 : Vec F S1024x1024 .f32) (x1 : Vec F S8192x256 .f32) (xs : Vec F S1024x256 .f32) : Vec F S1024x256 .f32 :=
  outView.read (Elt F) (outView.writes (Elt F) outView.junk (runLast c i arg2 harg2 arg3 harg3 arg4 harg4 arg5 harg5 hc0 hc1 x0 x1 xs).1)

/-! ## After each point -/

/-- THE ACCUMULATION: what the result window's staging buffer and the accumulator hold after the body at
    position `n` — the case the counter selects, run on the point's input blocks and, past the first row-tile,
    on what the point before left in the accumulator. -/
def leftAt (c : Dev nD) : (n : ℕ) → n < cfg0.N → Vec F S1024x256 .f32 × Vec F S1024x256 .f32
  | 0, hn => (outFirst c (grid0.coords ⟨0, hn⟩) (incM ⟨0, hn⟩) (incW ⟨0, hn⟩) (featM ⟨0, hn⟩) (featW ⟨0, hn⟩) (outM ⟨0, hn⟩) (outW ⟨0, hn⟩) accM (Memref.isWhole_whole _) ((atFirst_iff ⟨0, hn⟩).mpr (Nat.zero_mod _)) (fun h => (fun h => by (try dsimp only at h); omega) ((atLast_iff ⟨0, hn⟩).mp h)) (blockAt m c 0 ⟨0, hn⟩) (blockAt m c 1 ⟨0, hn⟩), accFirst c (grid0.coords ⟨0, hn⟩) (incM ⟨0, hn⟩) (incW ⟨0, hn⟩) (featM ⟨0, hn⟩) (featW ⟨0, hn⟩) (outM ⟨0, hn⟩) (outW ⟨0, hn⟩) accM (Memref.isWhole_whole _) ((atFirst_iff ⟨0, hn⟩).mpr (Nat.zero_mod _)) (fun h => (fun h => by (try dsimp only at h); omega) ((atLast_iff ⟨0, hn⟩).mp h)) (blockAt m c 0 ⟨0, hn⟩) (blockAt m c 1 ⟨0, hn⟩))
  | n + 1, hn =>
    if h0 : (n + 1) % 8 = 0 then
      if h1 : (n + 1) % 8 = 7 then
        False.elim (by omega)
      else
        (outFirst c (grid0.coords ⟨n + 1, hn⟩) (incM ⟨n + 1, hn⟩) (incW ⟨n + 1, hn⟩) (featM ⟨n + 1, hn⟩) (featW ⟨n + 1, hn⟩) (outM ⟨n + 1, hn⟩) (outW ⟨n + 1, hn⟩) accM (Memref.isWhole_whole _) ((atFirst_iff ⟨n + 1, hn⟩).mpr h0) (fun h => h1 ((atLast_iff ⟨n + 1, hn⟩).mp h)) (blockAt m c 0 ⟨n + 1, hn⟩) (blockAt m c 1 ⟨n + 1, hn⟩), accFirst c (grid0.coords ⟨n + 1, hn⟩) (incM ⟨n + 1, hn⟩) (incW ⟨n + 1, hn⟩) (featM ⟨n + 1, hn⟩) (featW ⟨n + 1, hn⟩) (outM ⟨n + 1, hn⟩) (outW ⟨n + 1, hn⟩) accM (Memref.isWhole_whole _) ((atFirst_iff ⟨n + 1, hn⟩).mpr h0) (fun h => h1 ((atLast_iff ⟨n + 1, hn⟩).mp h)) (blockAt m c 0 ⟨n + 1, hn⟩) (blockAt m c 1 ⟨n + 1, hn⟩))
    else
      if h1 : (n + 1) % 8 = 7 then
        (outLast c (grid0.coords ⟨n + 1, hn⟩) (incM ⟨n + 1, hn⟩) (incW ⟨n + 1, hn⟩) (featM ⟨n + 1, hn⟩) (featW ⟨n + 1, hn⟩) (outM ⟨n + 1, hn⟩) (outW ⟨n + 1, hn⟩) accM (Memref.isWhole_whole _) (fun h => h0 ((atFirst_iff ⟨n + 1, hn⟩).mp h)) ((atLast_iff ⟨n + 1, hn⟩).mpr h1) (blockAt m c 0 ⟨n + 1, hn⟩) (blockAt m c 1 ⟨n + 1, hn⟩) (leftAt c n (Nat.lt_of_succ_lt hn)).2, accLast c (grid0.coords ⟨n + 1, hn⟩) (incM ⟨n + 1, hn⟩) (incW ⟨n + 1, hn⟩) (featM ⟨n + 1, hn⟩) (featW ⟨n + 1, hn⟩) (outM ⟨n + 1, hn⟩) (outW ⟨n + 1, hn⟩) accM (Memref.isWhole_whole _) (fun h => h0 ((atFirst_iff ⟨n + 1, hn⟩).mp h)) ((atLast_iff ⟨n + 1, hn⟩).mpr h1) (blockAt m c 0 ⟨n + 1, hn⟩) (blockAt m c 1 ⟨n + 1, hn⟩) (leftAt c n (Nat.lt_of_succ_lt hn)).2)
      else
        (outMid c (grid0.coords ⟨n + 1, hn⟩) (incM ⟨n + 1, hn⟩) (incW ⟨n + 1, hn⟩) (featM ⟨n + 1, hn⟩) (featW ⟨n + 1, hn⟩) (outM ⟨n + 1, hn⟩) (outW ⟨n + 1, hn⟩) accM (Memref.isWhole_whole _) (fun h => h0 ((atFirst_iff ⟨n + 1, hn⟩).mp h)) (fun h => h1 ((atLast_iff ⟨n + 1, hn⟩).mp h)) (blockAt m c 0 ⟨n + 1, hn⟩) (blockAt m c 1 ⟨n + 1, hn⟩) (leftAt c n (Nat.lt_of_succ_lt hn)).2, accMid c (grid0.coords ⟨n + 1, hn⟩) (incM ⟨n + 1, hn⟩) (incW ⟨n + 1, hn⟩) (featM ⟨n + 1, hn⟩) (featW ⟨n + 1, hn⟩) (outM ⟨n + 1, hn⟩) (outW ⟨n + 1, hn⟩) accM (Memref.isWhole_whole _) (fun h => h0 ((atFirst_iff ⟨n + 1, hn⟩).mp h)) (fun h => h1 ((atLast_iff ⟨n + 1, hn⟩).mp h)) (blockAt m c 0 ⟨n + 1, hn⟩) (blockAt m c 1 ⟨n + 1, hn⟩) (leftAt c n (Nat.lt_of_succ_lt hn)).2)

theorem leftAt_first (c : Dev nD) (t : Fin cfg0.N) (h0 : t.val % 8 = 0) (h1 : ¬t.val % 8 = 7) :
    leftAt m c t.val t.isLt = (outFirst c (grid0.coords t) (incM t) (incW t) (featM t) (featW t) (outM t) (outW t) accM (Memref.isWhole_whole _) ((atFirst_iff t).mpr h0) (fun h => h1 ((atLast_iff t).mp h)) (blockAt m c 0 t) (blockAt m c 1 t), accFirst c (grid0.coords t) (incM t) (incW t) (featM t) (featW t) (outM t) (outW t) accM (Memref.isWhole_whole _) ((atFirst_iff t).mpr h0) (fun h => h1 ((atLast_iff t).mp h)) (blockAt m c 0 t) (blockAt m c 1 t)) := by
  obtain ⟨n, hn⟩ := t
  cases n with
  | zero => exact rfl
  | succ n => exact (dif_pos h0).trans ((dif_neg h1).trans rfl)

theorem leftAt_mid (c : Dev nD) (t : Fin cfg0.N) (h0 : ¬t.val % 8 = 0) (h1 : ¬t.val % 8 = 7) :
    leftAt m c t.val t.isLt = (outMid c (grid0.coords t) (incM t) (incW t) (featM t) (featW t) (outM t) (outW t) accM (Memref.isWhole_whole _) (fun h => h0 ((atFirst_iff t).mp h)) (fun h => h1 ((atLast_iff t).mp h)) (blockAt m c 0 t) (blockAt m c 1 t) (leftAt m c (t.val - 1) (Nat.lt_of_le_of_lt (Nat.sub_le _ _) t.isLt)).2, accMid c (grid0.coords t) (incM t) (incW t) (featM t) (featW t) (outM t) (outW t) accM (Memref.isWhole_whole _) (fun h => h0 ((atFirst_iff t).mp h)) (fun h => h1 ((atLast_iff t).mp h)) (blockAt m c 0 t) (blockAt m c 1 t) (leftAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem leftAt_last (c : Dev nD) (t : Fin cfg0.N) (h0 : ¬t.val % 8 = 0) (h1 : t.val % 8 = 7) :
    leftAt m c t.val t.isLt = (outLast c (grid0.coords t) (incM t) (incW t) (featM t) (featW t) (outM t) (outW t) accM (Memref.isWhole_whole _) (fun h => h0 ((atFirst_iff t).mp h)) ((atLast_iff t).mpr h1) (blockAt m c 0 t) (blockAt m c 1 t) (leftAt m c (t.val - 1) (Nat.lt_of_le_of_lt (Nat.sub_le _ _) t.isLt)).2, accLast c (grid0.coords t) (incM t) (incW t) (featM t) (featW t) (outM t) (outW t) accM (Memref.isWhole_whole _) (fun h => h0 ((atFirst_iff t).mp h)) ((atLast_iff t).mpr h1) (blockAt m c 0 t) (blockAt m c 1 t) (leftAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (the accumulator at anything);
    afterwards the accumulator at what the point before left, and the generator register at some state. -/
def invAt (c : Dev nD) : (n : ℕ) → n ≤ cfg0.N → sProp 𝕄
  | 0, _ => Pipeline.ΦA spec0 c
  | n + 1, hn => iprop(iprop(owns (c : Thread nD τ) accM fullShare ((leftAt m c n hn).2)) ∗ (∃ r, prngReg c r))

theorem invAt_zero (c : Dev nD) (n : ℕ) (h : n ≤ cfg0.N) (hz : n = 0) : invAt m c n h = Pipeline.ΦA spec0 c := by
  subst hz; rfl
theorem invAt_succ (c : Dev nD) (n : ℕ) (hn : n < cfg0.N) :
    invAt m c (n + 1) hn = iprop(iprop(owns (c : Thread nD τ) accM fullShare ((leftAt m c n hn).2)) ∗ (∃ r, prngReg c r)) := rfl
theorem invAt_pos (c : Dev nD) (n : ℕ) (h : n ≤ cfg0.N) (hz : n ≠ 0) :
    invAt m c n h = iprop(iprop(owns (c : Thread nD τ) accM fullShare ((leftAt m c (n - 1) (by omega)).2)) ∗ (∃ r, prngReg c r)) := by
  cases n with
  | zero => exact absurd rfl hz
  | succ n => rfl

/-! ## The proof data -/

/-- The region's proof data on core `c`: the arrays as the region finds them; after the body each input's buffer
    at its block and the result window's at `leftAt`; the invariant `invAt`; nothing owed; full shares. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => (leftAt m c t.val t.isLt).1
  Φ t := invAt m c t.val (Nat.le_of_lt_succ t.isLt)
  q _ := fullShare
  owed _ := 0

theorem arrays_eq (c : Dev nD) (w : Fin cfg0.W) : (dats m 0 c).A w = entryAt m c (Pipeline.arrRef spec0 w) := by
  dsimp only [dats]
theorem inv_castSucc (c : Dev nD) (t : Fin cfg0.N) :
    (dats m 0 c).Φ t.castSucc = invAt m c t.val (Nat.le_of_lt t.isLt) := by
  dsimp only [dats]; simp only [Fin.coe_castSucc]
theorem after_inc (c : Dev nD) (t : Fin cfg0.N) : (dats m 0 c).after 0 t = blockAt m c 0 t := by dsimp only [dats]
theorem after_feat (c : Dev nD) (t : Fin cfg0.N) : (dats m 0 c).after 1 t = blockAt m c 1 t := by dsimp only [dats]
theorem after_out (c : Dev nD) (t : Fin cfg0.N) : (dats m 0 c).after 2 t = (leftAt m c t.val t.isLt).1 := by dsimp only [dats]
theorem before_inc (c : Dev nD) (t : Fin cfg0.N) (d) : (dats m 0 c).before 0 t d = blockAt m c 0 t :=
  inc_held m (dats m 0 c) (arrays_eq m c 0) (after_inc m c) t d
theorem before_feat (c : Dev nD) (t : Fin cfg0.N) (d) : (dats m 0 c).before 1 t d = blockAt m c 1 t :=
  feat_held m (dats m 0 c) (arrays_eq m c 1) (after_feat m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (incM t) fullShare ((dats m 0 c).before 0 t d))
    ∗ (∃ d, owns (c : Thread nD τ) (featM t) fullShare ((dats m 0 c).before 1 t d))
    ∗ (∃ d, owns (c : Thread nD τ) (outM t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; the counter says which case the point is in;
    the invariant hands the body the accumulator at what the point before left (at anything at the very first
    point) and takes it back at this point's value, the pieces covering it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_inc, before_feat]
  rw [show (dats m 0 c).owesAt () t.succ = (dats m 0 c).owesAt () t.castSucc from rfl]
  rw [show (dats m 0 c).Φ t.succ = invAt m c (t.val + 1) t.isLt from rfl, invAt_succ]
  have hN : t.val < 64 := lt_of_lt_of_eq t.isLt (show cfg0.N = 64 from N_0)
  by_cases h0 : t.val % 8 = 0
  · by_cases h1 : t.val % 8 = 7
    · exfalso; omega
    · rw [show (dats m 0 c).leavesExact 0 t = owns (c : Thread nD τ) (incM t) fullShare ((dats m 0 c).after 0 t) from by
        unfold Dat.leavesExact; rw [inc_live t], after_inc]
      rw [show (dats m 0 c).leavesExact 1 t = owns (c : Thread nD τ) (featM t) fullShare ((dats m 0 c).after 1 t) from by
        unfold Dat.leavesExact; rw [feat_live t], after_feat]
      rw [Dat.leavesExact_idle (dats m 0 c) 2 t (out_idle t (fun h => h1 ((atLast_iff t).mp h))) (out_noFlush t (fun h => h1 ((atLast_iff t).mp h)))]
      rw [leftAt_first m c t h0 h1]
      unfold accFirst; (try dsimp only)
      by_cases hz : t.val = 0
      · rw [inv_castSucc m c t, invAt_zero m c _ _ hz, inv_eq]
        iintro ⟨⟨HS, Hg⟩, Ho, ⟨%d0, H0⟩, ⟨%d1, H1⟩, ⟨%d2, H2⟩⟩
        iapply ((runFirst c (grid0.coords t) _ _ _ _ _ _ _ _ ((atFirst_iff t).mpr h0) (fun h => h1 ((atLast_iff t).mp h)) (blockAt m c 0 t) (blockAt m c 1 t)).2.2 _ Set.univ _)
        isplitl [H0]; · iexact H0
        isplitl [H1]; · iexact H1
        isplitl [H2]; · iexact H2
        isplitl [HS]; · iexact HS
        iintro ⟨H0, H1, H2, ⟨%es, HS⟩⟩
        isplitl [HS Hg]
        · isplitl [HS]
          · unfold owns; iexists _; isplitr
            swap; · iexact HS
            ipureintro; exact View.read_writes_of_cover _ _ _ _ _ (accCoverFirst c _ _ _ _ _ _ _ _ _ _ _ _ _)
          iexact Hg
        isplitl [Ho]; · iexact Ho
        isplitl [H0]; · iexact H0
        isplitl [H1]; · iexact H1
        iexists _; iexact H2
      · rw [inv_castSucc m c t, invAt_pos m c _ _ hz]
        iintro ⟨⟨HS, Hg⟩, Ho, ⟨%d0, H0⟩, ⟨%d1, H1⟩, ⟨%d2, H2⟩⟩
        iapply ((runFirst c (grid0.coords t) _ _ _ _ _ _ _ _ ((atFirst_iff t).mpr h0) (fun h => h1 ((atLast_iff t).mp h)) (blockAt m c 0 t) (blockAt m c 1 t)).2.2 _ Set.univ _)
        isplitl [H0]; · iexact H0
        isplitl [H1]; · iexact H1
        isplitl [H2]; · iexact H2
        isplitl [HS]; · iexists _; iexact HS
        iintro ⟨H0, H1, H2, ⟨%es, HS⟩⟩
        isplitl [HS Hg]
        · isplitl [HS]
          · unfold owns; iexists _; isplitr
            swap; · iexact HS
            ipureintro; exact View.read_writes_of_cover _ _ _ _ _ (accCoverFirst c _ _ _ _ _ _ _ _ _ _ _ _ _)
          iexact Hg
        isplitl [Ho]; · iexact Ho
        isplitl [H0]; · iexact H0
        isplitl [H1]; · iexact H1
        iexists _; iexact H2
  · by_cases h1 : t.val % 8 = 7
    · rw [show (dats m 0 c).leavesExact 0 t = owns (c : Thread nD τ) (incM t) fullShare ((dats m 0 c).after 0 t) from by
        unfold Dat.leavesExact; rw [inc_live t], after_inc]
      rw [show (dats m 0 c).leavesExact 1 t = owns (c : Thread nD τ) (featM t) fullShare ((dats m 0 c).after 1 t) from by
        unfold Dat.leavesExact; rw [feat_live t], after_feat]
      rw [show (dats m 0 c).leavesExact 2 t = owns (c : Thread nD τ) (outM t) fullShare ((dats m 0 c).after 2 t) from by
        unfold Dat.leavesExact; rw [out_live t ((atLast_iff t).mpr h1)], after_out]
      rw [leftAt_last m c t h0 h1]
      unfold outLast accLast; (try dsimp only)
      by_cases hz : t.val = 0
      · exfalso; omega
      · rw [inv_castSucc m c t, invAt_pos m c _ _ hz]
        iintro ⟨⟨HS, Hg⟩, Ho, ⟨%d0, H0⟩, ⟨%d1, H1⟩, ⟨%d2, H2⟩⟩
        iapply ((runLast c (grid0.coords t) _ _ _ _ _ _ _ _ (fun h => h0 ((atFirst_iff t).mp h)) ((atLast_iff t).mpr h1) (blockAt m c 0 t) (blockAt m c 1 t) _).2.2 Set.univ _)
        isplitl [H0]; · iexact H0
        isplitl [H1]; · iexact H1
        isplitl [H2]; · iexists _; iexact H2
        isplitl [HS]; · iexact HS
        iintro ⟨H0, H1, ⟨%e2, H2⟩, ⟨%es, HS⟩⟩
        isplitl [HS Hg]
        · isplitl [HS]
          · unfold owns; iexists _; isplitr
            swap; · iexact HS
            ipureintro; exact View.read_writes_of_cover _ _ _ _ _ (accCoverLast c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (outCoverLast c _ _ _ _ _ _ _ _ _ _ _ _ _ _)
    · rw [show (dats m 0 c).leavesExact 0 t = owns (c : Thread nD τ) (incM t) fullShare ((dats m 0 c).after 0 t) from by
        unfold Dat.leavesExact; rw [inc_live t], after_inc]
      rw [show (dats m 0 c).leavesExact 1 t = owns (c : Thread nD τ) (featM t) fullShare ((dats m 0 c).after 1 t) from by
        unfold Dat.leavesExact; rw [feat_live t], after_feat]
      rw [Dat.leavesExact_idle (dats m 0 c) 2 t (out_idle t (fun h => h1 ((atLast_iff t).mp h))) (out_noFlush t (fun h => h1 ((atLast_iff t).mp h)))]
      rw [leftAt_mid m c t h0 h1]
      unfold accMid; (try dsimp only)
      by_cases hz : t.val = 0
      · exfalso; omega
      · rw [inv_castSucc m c t, invAt_pos m c _ _ hz]
        iintro ⟨⟨HS, Hg⟩, Ho, ⟨%d0, H0⟩, ⟨%d1, H1⟩, ⟨%d2, H2⟩⟩
        iapply ((runMid c (grid0.coords t) _ _ _ _ _ _ _ _ (fun h => h0 ((atFirst_iff t).mp h)) (fun h => h1 ((atLast_iff t).mp h)) (blockAt m c 0 t) (blockAt m c 1 t) _).2.2 _ Set.univ _)
        isplitl [H0]; · iexact H0
        isplitl [H1]; · iexact H1
        isplitl [H2]; · iexact H2
        isplitl [HS]; · iexact HS
        iintro ⟨H0, H1, H2, ⟨%es, HS⟩⟩
        isplitl [HS Hg]
        · isplitl [HS]
          · unfold owns; iexists _; isplitr
            swap; · iexact HS
            ipureintro; exact View.read_writes_of_cover _ _ _ _ _ (accCoverMid c _ _ _ _ _ _ _ _ _ _ _ _ _ _)
          iexact Hg
        isplitl [Ho]; · iexact Ho
        isplitl [H0]; · iexact H0
        isplitl [H1]; · iexact H1
        iexists _; iexact H2

theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 := by
  rw [show (dats m 0 c).Φ 0 = invAt m c 0 (Nat.zero_le _) from rfl, invAt_zero m c 0 _ rfl]
  try exact Idealize.SL.BI.Entails.refl _

/-- After the last point the invariant gives the launch's back: the accumulator's value is forgotten. -/
theorem inv_out (c : Dev nD) : (dats m 0 c).Φ (Fin.last cfg0.N) ⊢ Pipeline.ΦA spec0 c := by
  have hne : (Fin.last cfg0.N).val ≠ 0 := by rw [Fin.val_last]; have : cfg0.N = 64 := N_0; omega
  rw [show (dats m 0 c).Φ (Fin.last cfg0.N) = invAt m c (Fin.last cfg0.N).val (Nat.le_of_lt_succ (Fin.last cfg0.N).isLt) from rfl,
    invAt_pos m c _ _ hne, inv_eq]
  iintro ⟨HS, Hg⟩
  isplitl [HS]
  · iexists _; iexact HS
  iexact Hg

/-! ## The run and the frame -/

set_option backward.isDefEq.respectTransparency.types false in
/-- Every weakly fair execution of @main on the TensorCores terminates, with every array of the region at what
    the proof data computes and every other buffer as the later stretches leave it. -/
theorem run_main : θ_run defs (onTc (τ := τ) (main (F := F))) (s₀ m ρ) (Pipeline.FramePost cfgs (dats m) 0 (exitAt m (dats m))) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := entryVal m) (opss := later) (hsub := later_reach) (hfresh := later_fresh) (hkeep := later_keeps)
    (hmain := main_around m Variants.none) (hA := arrays_eq m) (hin := inv_in m) (hout := inv_out m)

/-- THE FRAME of this program at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  args_kept m ρ (dats m) (arrays_eq m) (run_main m ρ)

end Cert.Kernel.Around

end
-- ==== Proof.IdealAround.lean ====
/-
  The host program around the one kernel region.

  @main is three stretches of host operations, the region, and thirteen more stretches. The region reads the
  incidence matrix (an argument) and the node features after the first residual block (a host result), and
  writes the aggregated features. This module fixes the contents the region finds (the first three stretches
  run from launch memory), shows that @main is "those stretches, the region, the later stretches", and proves
  what a launch asks of the later stretches: they touch only buffers the region does not own, they allocate
  nothing, and none of them writes an array of the region. Every operation writes a host result buffer of its
  own and never an argument, so an argument holds at the end what it held at launch. It also names each
  window's block at a grid point, shows that an input's staging buffer holds its block whether or not the
  point fetched it, and decides the body's two branch conditions over the grid: with 64 points numbered
  row-major over 8 × 8, the accumulator is reset at the points ≡ 0 (mod 8) and copied out at those ≡ 7.
-/
import proofs.«149568_j10290741641935_1_alg».proof.Proof.Gen.KernelIdeal.Launch
import proofs.«149568_j10290741641935_1_alg».proof.Proof.Gen.KernelIdeal.Skeleton
import proofs.«149568_j10290741641935_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stretches -/

/-- The host operations before the region, stretch by stretch. -/
abbrev earlier : List (List (HloOp τ sig (Elt F))) := [hostOps0, hostOps0_1, hostOps0_2]
/-- The host operations after the region, stretch by stretch. -/
abbrev later : List (List (HloOp τ sig (Elt F))) := [hostOps1, hostOps1_1, hostOps1_2, hostOps1_3, hostOps1_4, hostOps1_5, hostOps1_6, hostOps1_7, hostOps1_8, hostOps1_9, hostOps1_10, hostOps1_11, hostOps1_12]

/-- Every buffer an earlier operation writes. -/
def earlierWrites : List (Ref sig .tc) := [
    main_cst, main_v0, main_v1, main_cst_0, main_v2, main_v3, main_v4, main_v5,
    main_v6, main_cst_1, main_v7, main_v8, main_cst_2, main_v9, main_v10, main_v11,
    main_v12, main_cst_3, main_v13, main_v14, main_v15, main_v16, main_v17, main_v18,
    main_v19, main_v20, main_v21, main_v22, main_v23, main_v24, main_v25, main_v26,
    main_v27, main_call0_cst, main_call0_v0, main_v28, main_v29, main_v30, main_v31, main_v32,
    main_v33, main_cst_4, main_v34, main_v35, main_cst_5, main_v36, main_v37 ]
/-- Every buffer a later operation writes. -/
def laterWrites : List (Ref sig .tc) := [
    main_v39, main_v40, main_v41, main_v42, main_v43, main_cst_6, main_v44, main_v45,
    main_cst_7, main_v46, main_v47, main_v48, main_v49, main_v50, main_cst_8, main_v51,
    main_v52, main_cst_9, main_v53, main_v54, main_v55, main_v56, main_cst_10, main_v57,
    main_v58, main_v59, main_v60, main_v61, main_v62, main_v63, main_v64, main_v65,
    main_v66, main_v67, main_v68, main_v69, main_call1_cst, main_call1_v0, main_v70, main_v71,
    main_v72, main_v73, main_v74, main_cst_11, main_v75, main_v76, main_cst_12, main_v77,
    main_v78, main_v79, main_v80, main_v81, main_cst_13, main_v82, main_v83, main_cst_14,
    main_v84, main_v85, main_v86, main_v87, main_cst_15, main_v88, main_v89, main_v90,
    main_v91, main_v92, main_v93, main_v94, main_v95, main_v96, main_v97, main_v98,
    main_v99, main_v100, main_v101, main_v102, main_v103, main_v104, main_call2_cst, main_call2_v0,
    main_v105, main_v106, main_v107, main_v108, main_v109, main_v110, main_cst_16, main_v111,
    main_v112, main_cst_17, main_v113, main_v114, main_v115, main_v116, main_v117, main_cst_18,
    main_v118, main_v119, main_cst_19, main_v120, main_v121, main_v122, main_v123, main_cst_20,
    main_v124, main_v125, main_v126, main_v127, main_v128, main_v129, main_v130, main_v131,
    main_v132, main_v133, main_v134, main_v135, main_v136, main_v137, main_v138, main_v139,
    main_v140, main_call3_cst, main_call3_v0, main_v141, main_v142, main_v143, main_v144, main_v145,
    main_v146, main_v147, main_v148, main_v149, main_v150, main_v151, main_c, main_v152,
    main_v153, main_c_21, main_v154, main_v155, main_v156, main_v157, main_v158, main_cst_22,
    main_v159, main_v160, main_cst_23, main_v161, main_v162, main_v163, main_v164, main_v165,
    main_cst_24, main_v166, main_v167, main_cst_25, main_v168, main_v169, main_v170, main_v171,
    main_cst_26, main_v172, main_v173, main_v174, main_v175, main_v176, main_v177, main_v178,
    main_v179, main_v180, main_v181, main_v182, main_v183, main_v184, main_v185, main_v186,
    main_v187, main_v188, main_call4_cst, main_call4_v0, main_v189, main_v190, main_v191, main_v192,
    main_v193, main_v194, main_cst_27, main_v195, main_v196, main_cst_28, main_v197, main_v198,
    main_v199, main_v200, main_v201, main_cst_29, main_v202, main_v203, main_cst_30, main_v204,
    main_v205, main_v206, main_v207, main_cst_31, main_v208, main_v209, main_v210, main_v211,
    main_v212, main_v213, main_v214, main_v215, main_v216, main_v217, main_v218, main_v219,
    main_v220, main_v221, main_v222, main_v223, main_call5_cst, main_call5_v0, main_v224, main_v225,
    main_v226, main_v227, main_v228, main_v229, main_v230, main_v231, main_v232, main_v233,
    main_call6_cst, main_call6_v0, main_v234, main_v235, main_v236, main_v237, main_v238, main_v239,
    main_v240, main_v241, main_c_32, main_v242, main_v243, main_c_33, main_v244, main_v245,
    main_v246, main_v247, main_v248, main_v249 ]

/-- A result buffer that is in a list of references lies, as a device buffer, in the list's image. -/
theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- A reference outside a list that holds everything an operation writes is not written by it. -/
theorem not_written {W : List (Ref sig .tc)} {r : Ref sig .tc} {op : HloOp τ sig (Elt F)}
    (hW : op.writes ⊆ (W.map (Proc.devRef (τ := τ) .tc)).toFinset) (hr : r ∉ W) : Proc.devRef .tc r ∉ op.writes := fun hb => by
  obtain ⟨y, hy, he⟩ := List.mem_map.mp (List.mem_toFinset.mp (hW hb))
  exact hr (Proc.devRef_injective _ he ▸ hy)

/-- Stretches whose operations write only inside `W` leave every reference outside `W` as it was. -/
theorem kept_of_writes {W : List (Ref sig .tc)} (opss : List (List (HloOp τ sig (Elt F)))) (V : Valuation τ sig (Elt F))
    (hW : ∀ ops ∈ opss, ∀ op ∈ ops, op.writes ⊆ (W.map (Proc.devRef (τ := τ) .tc)).toFinset) {r : Ref sig .tc} (hr : r ∉ W) :
    StableHlo.after opss.flatten V (Proc.devRef .tc r) = V (Proc.devRef .tc r) :=
  StableHlo.after_of_forall_not_mem _ V fun op hop => by
    obtain ⟨ops, hops, hop'⟩ := List.mem_flatten.mp hop
    exact not_written (hW ops hops op hop') hr

theorem hostOps0_writes : (hostOps0 : List (HloOp τ sig (Elt F))).Forall fun op => op.writes ⊆ ((earlierWrites).map (Proc.devRef (τ := τ) .tc)).toFinset :=
  ⟨single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel)⟩
theorem hostOps0_fresh : (hostOps0 : List (HloOp τ sig (Elt F))).Forall fun op => op.fresh = ∅ := by
  simp only [List.Forall]; repeat' constructor
theorem hostOps0_1_writes : (hostOps0_1 : List (HloOp τ sig (Elt F))).Forall fun op => op.writes ⊆ ((earlierWrites).map (Proc.devRef (τ := τ) .tc)).toFinset :=
  ⟨single_sub (by decide +kernel), single_sub (by decide +kernel), single_sub (by decide +kernel)⟩
theorem hostOps0_1_fresh : (hostOps0_1 : List (HloOp τ sig (Elt F))).Forall fun op => op.fresh = ∅ := by
  simp only [List.Forall]; repeat' constructor
theorem hostOps0_2_writes : (hostOps0_2 : List (HloOp τ sig (Elt F))).Forall fun op => op.writes ⊆ ((earlierWrites).map (Proc.devRef (τ := τ) .tc)).toFinset :=
  ⟨single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel)⟩
theorem hostOps0_2_fresh : (hostOps0_2 : List (HloOp τ sig (Elt F))).Forall fun op => op.fresh = ∅ := by
  simp only [List.Forall]; repeat' constructor
theorem hostOps1_writes : (hostOps1 : List (HloOp τ sig (Elt F))).Forall fun op => op.writes ⊆ ((laterWrites).map (Proc.devRef (τ := τ) .tc)).toFinset :=
  ⟨single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel)⟩
theorem hostOps1_fresh : (hostOps1 : List (HloOp τ sig (Elt F))).Forall fun op => op.fresh = ∅ := by
  simp only [List.Forall]; repeat' constructor
theorem hostOps1_1_writes : (hostOps1_1 : List (HloOp τ sig (Elt F))).Forall fun op => op.writes ⊆ ((laterWrites).map (Proc.devRef (τ := τ) .tc)).toFinset :=
  ⟨single_sub (by decide +kernel), single_sub (by decide +kernel), single_sub (by decide +kernel)⟩
theorem hostOps1_1_fresh : (hostOps1_1 : List (HloOp τ sig (Elt F))).Forall fun op => op.fresh = ∅ := by
  simp only [List.Forall]; repeat' constructor
theorem hostOps1_2_writes : (hostOps1_2 : List (HloOp τ sig (Elt F))).Forall fun op => op.writes ⊆ ((laterWrites).map (Proc.devRef (τ := τ) .tc)).toFinset :=
  ⟨single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel)⟩
theorem hostOps1_2_fresh : (hostOps1_2 : List (HloOp τ sig (Elt F))).Forall fun op => op.fresh = ∅ := by
  simp only [List.Forall]; repeat' constructor
theorem hostOps1_3_writes : (hostOps1_3 : List (HloOp τ sig (Elt F))).Forall fun op => op.writes ⊆ ((laterWrites).map (Proc.devRef (τ := τ) .tc)).toFinset :=
  ⟨single_sub (by decide +kernel), single_sub (by decide +kernel), single_sub (by decide +kernel)⟩
theorem hostOps1_3_fresh : (hostOps1_3 : List (HloOp τ sig (Elt F))).Forall fun op => op.fresh = ∅ := by
  simp only [List.Forall]; repeat' constructor
theorem hostOps1_4_writes : (hostOps1_4 : List (HloOp τ sig (Elt F))).Forall fun op => op.writes ⊆ ((laterWrites).map (Proc.devRef (τ := τ) .tc)).toFinset :=
  ⟨single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel)⟩
theorem hostOps1_4_fresh : (hostOps1_4 : List (HloOp τ sig (Elt F))).Forall fun op => op.fresh = ∅ := by
  simp only [List.Forall]; repeat' constructor
theorem hostOps1_5_writes : (hostOps1_5 : List (HloOp τ sig (Elt F))).Forall fun op => op.writes ⊆ ((laterWrites).map (Proc.devRef (τ := τ) .tc)).toFinset :=
  ⟨single_sub (by decide +kernel), single_sub (by decide +kernel), single_sub (by decide +kernel)⟩
theorem hostOps1_5_fresh : (hostOps1_5 : List (HloOp τ sig (Elt F))).Forall fun op => op.fresh = ∅ := by
  simp only [List.Forall]; repeat' constructor
theorem hostOps1_6_writes : (hostOps1_6 : List (HloOp τ sig (Elt F))).Forall fun op => op.writes ⊆ ((laterWrites).map (Proc.devRef (τ := τ) .tc)).toFinset :=
  ⟨single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel)⟩
theorem hostOps1_6_fresh : (hostOps1_6 : List (HloOp τ sig (Elt F))).Forall fun op => op.fresh = ∅ := by
  simp only [List.Forall]; repeat' constructor
theorem hostOps1_7_writes : (hostOps1_7 : List (HloOp τ sig (Elt F))).Forall fun op => op.writes ⊆ ((laterWrites).map (Proc.devRef (τ := τ) .tc)).toFinset :=
  ⟨single_sub (by decide +kernel), single_sub (by decide +kernel), single_sub (by decide +kernel)⟩
theorem hostOps1_7_fresh : (hostOps1_7 : List (HloOp τ sig (Elt F))).Forall fun op => op.fresh = ∅ := by
  simp only [List.Forall]; repeat' constructor
theorem hostOps1_8_writes : (hostOps1_8 : List (HloOp τ sig (Elt F))).Forall fun op => op.writes ⊆ ((laterWrites).map (Proc.devRef (τ := τ) .tc)).toFinset :=
  ⟨single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel)⟩
theorem hostOps1_8_fresh : (hostOps1_8 : List (HloOp τ sig (Elt F))).Forall fun op => op.fresh = ∅ := by
  simp only [List.Forall]; repeat' constructor
theorem hostOps1_9_writes : (hostOps1_9 : List (HloOp τ sig (Elt F))).Forall fun op => op.writes ⊆ ((laterWrites).map (Proc.devRef (τ := τ) .tc)).toFinset :=
  ⟨single_sub (by decide +kernel), single_sub (by decide +kernel), single_sub (by decide +kernel)⟩
theorem hostOps1_9_fresh : (hostOps1_9 : List (HloOp τ sig (Elt F))).Forall fun op => op.fresh = ∅ := by
  simp only [List.Forall]; repeat' constructor
theorem hostOps1_10_writes : (hostOps1_10 : List (HloOp τ sig (Elt F))).Forall fun op => op.writes ⊆ ((laterWrites).map (Proc.devRef (τ := τ) .tc)).toFinset :=
  ⟨single_sub (by decide +kernel), single_sub (by decide +kernel), single_sub (by decide +kernel), single_sub (by decide +kernel), single_sub (by decide +kernel), single_sub (by decide +kernel), single_sub (by decide +kernel), single_sub (by decide +kernel), single_sub (by decide +kernel)⟩
theorem hostOps1_10_fresh : (hostOps1_10 : List (HloOp τ sig (Elt F))).Forall fun op => op.fresh = ∅ := by
  simp only [List.Forall]; repeat' constructor
theorem hostOps1_11_writes : (hostOps1_11 : List (HloOp τ sig (Elt F))).Forall fun op => op.writes ⊆ ((laterWrites).map (Proc.devRef (τ := τ) .tc)).toFinset :=
  ⟨single_sub (by decide +kernel), single_sub (by decide +kernel), single_sub (by decide +kernel)⟩
theorem hostOps1_11_fresh : (hostOps1_11 : List (HloOp τ sig (Elt F))).Forall fun op => op.fresh = ∅ := by
  simp only [List.Forall]; repeat' constructor
theorem hostOps1_12_writes : (hostOps1_12 : List (HloOp τ sig (Elt F))).Forall fun op => op.writes ⊆ ((laterWrites).map (Proc.devRef (τ := τ) .tc)).toFinset :=
  ⟨single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel), single_sub (by decide +kernel)⟩
theorem hostOps1_12_fresh : (hostOps1_12 : List (HloOp τ sig (Elt F))).Forall fun op => op.fresh = ∅ := by
  simp only [List.Forall]; repeat' constructor

/-- Every earlier operation writes inside `earlierWrites`. -/
theorem earlier_writes : ∀ ops ∈ (earlier : List (List (HloOp τ sig (Elt F)))), ∀ op ∈ ops,
    op.writes ⊆ (earlierWrites.map (Proc.devRef (τ := τ) .tc)).toFinset := by
  intro ops hops
  simp only [List.mem_cons, List.mem_nil_iff, or_false] at hops
  rcases hops with rfl | rfl | rfl
  exacts [List.forall_iff_forall_mem.mp hostOps0_writes, List.forall_iff_forall_mem.mp hostOps0_1_writes, List.forall_iff_forall_mem.mp hostOps0_2_writes]

/-- Every later operation writes inside `laterWrites`. -/
theorem later_writes : ∀ ops ∈ (later : List (List (HloOp τ sig (Elt F)))), ∀ op ∈ ops,
    op.writes ⊆ (laterWrites.map (Proc.devRef (τ := τ) .tc)).toFinset := by
  intro ops hops
  simp only [List.mem_cons, List.mem_nil_iff, or_false] at hops
  rcases hops with rfl | rfl | rfl | rfl | rfl | rfl | rfl | rfl | rfl | rfl | rfl | rfl | rfl
  exacts [List.forall_iff_forall_mem.mp hostOps1_writes, List.forall_iff_forall_mem.mp hostOps1_1_writes, List.forall_iff_forall_mem.mp hostOps1_2_writes, List.forall_iff_forall_mem.mp hostOps1_3_writes, List.forall_iff_forall_mem.mp hostOps1_4_writes, List.forall_iff_forall_mem.mp hostOps1_5_writes, List.forall_iff_forall_mem.mp hostOps1_6_writes, List.forall_iff_forall_mem.mp hostOps1_7_writes, List.forall_iff_forall_mem.mp hostOps1_8_writes, List.forall_iff_forall_mem.mp hostOps1_9_writes, List.forall_iff_forall_mem.mp hostOps1_10_writes, List.forall_iff_forall_mem.mp hostOps1_11_writes, List.forall_iff_forall_mem.mp hostOps1_12_writes]

/-! ## What the region finds, and @main around it -/

variable (m : (ℓ : Loc nD τ sig) → Buf (Elt F) ℓ) (ρ : Dev nD → PrngReg)

/-- Core `c`'s buffer contents when the region is entered: launch memory after the earlier stretches. -/
abbrev entryVal (c : Dev nD) : Valuation τ sig (Elt F) := StableHlo.after (List.flatten earlier) (fun b => m (c, b))
/-- The same read at a TensorCore reference. -/
abbrev entryAt (c : Dev nD) (b : Ref sig .tc) : Buf (Elt F) ((c : Thread nD τ).loc b) := entryVal m c (Proc.devRef .tc b)

/-- @main is the earlier stretches, the region, and the later stretches: it reduces to the region continued by
    the later stretches, entered at `entryAt`. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain ((later (F := F)).map StableHlo.seq)) :=
  Pipeline.hmain_around cfgs 0 defs₀ 𝒱₀ m main earlier later
    (by simp only [List.Forall]; exact ⟨hostOps0_sub, hostOps0_1_sub, hostOps0_2_sub⟩)
    (by simp only [List.Forall]; exact ⟨hostOps0_fresh, hostOps0_1_fresh, hostOps0_2_fresh⟩) main_chain

/-- The later stretches touch the region's arrays and the buffers that bypass it, nothing else. -/
theorem later_reach : ∀ ops ∈ (later : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)

/-- They allocate nothing. -/
theorem later_fresh : ∀ ops ∈ (later : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop

/-- No array of the region is among the buffers the later stretches write. -/
theorem arrays_not_later : ∀ w : Fin 3, Pipeline.arrRef spec0 w ∉ laterWrites := by decide +kernel

/-- So no later operation writes an array of the region. -/
theorem later_keeps : ∀ ops ∈ (later : List (List (HloOp τ sig (Elt F)))), ∀ op ∈ ops,
    ∀ w, Proc.devRef .tc (Pipeline.arrRef spec0 w) ∉ op.writes :=
  fun ops hops op hop w => not_written (later_writes ops hops op hop) (arrays_not_later w)

/-- A reference no earlier operation writes is found by the region as launched. -/
theorem entry_of_unwritten (c : Dev nD) {b : Ref sig .tc} (hb : b ∉ earlierWrites) :
    entryAt m c b = m ((c : Thread nD τ).loc b) :=
  kept_of_writes earlier _ earlier_writes hb

end Cert.KernelIdeal.Around

end
-- ==== Proof.IdealWindows.lean ====
/-
  The windows of the kernel region: their blocks, what the body finds in each input's staging buffer, the
  body's branch conditions over the grid, and the frame claim read off a frame run.

  Window 0 is the incidence matrix in 1024 × 1024 blocks (block (n, e) at point (e, n)), fetched at every
  point; window 1 is the whole feature matrix, fetched once; window 2 is the result in 1024 × 256 blocks
  (block e), written back when the last row-tile of the column block has been added.
-/
import proofs.«149568_j10290741641935_1_alg».proof.Proof.IdealAround

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- The incidence window's staging buffer holds the point's block, for any proof data whose array is the
    region-entry contents and whose body leaves the block in place. -/
theorem inc_held {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The feature window's staging buffer holds the whole matrix at every point although only the first fetches
    it: its block index never moves. -/
theorem feat_held {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim from a frame run -/

/-- What the later stretches leave, from the region's exit contents. -/
abbrev exitAt (dats : (p : Fin 1) → (c : Dev nD) → Dat τ (Elt F) Unit ℕ (UR sig nD τ) ℕ (cfgs p) c) :=
  Pipeline.afterTail₀ cfgs dats 0 (entryVal m) later

/-- A buffer that no window stages and no operation writes ends as launched. -/
theorem bypass_kept (dats : (p : Fin 1) → (c : Dev nD) → Dat τ (Elt F) Unit ℕ (UR sig nD τ) ℕ (cfgs p) c) (c : Dev nD) (b : Ref sig .tc)
    (h1 : b ∉ earlierWrites) (h2 : b ∉ laterWrites) (hne : ∀ w, Pipeline.arrRef spec0 w ≠ b) :
    exitAt m dats c b = m ((c : Thread nD τ).loc b) := by
  unfold exitAt Pipeline.afterTail₀
  exact (kept_of_writes later _ later_writes h2).trans
    ((Pipeline.withArrays_of_ne spec0 c _ _ b hne).trans (entry_of_unwritten m c h1))

/-- In a state a frame run ends in, every argument is as launched — the incidence matrix because an input window's
    array is never written, the others because nothing stages or writes them. -/
theorem args_of_post (dats : (p : Fin 1) → (c : Dev nD) → Dat τ (Elt F) Unit ℕ (UR sig nD τ) ℕ (cfgs p) c)
    (hA : ∀ c w, (dats 0 c).A w = entryAt m c (Pipeline.arrRef spec0 w)) {r : PUnit × MemSt nD τ sig (Elt F)}
    (h : Pipeline.FramePost cfgs dats 0 (exitAt m dats) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28) :=
  ⟨((h c).2 main_arg0 (Pipeline.mem_restRefs_of main_arg0 rfl (by decide +kernel))).trans (bypass_kept m dats c main_arg0 (by decide +kernel) (by decide +kernel) (by decide +kernel)),
    ((h c).1 0).trans (((dats 0 c).arrAt_in 0 rfl _).trans ((hA c 0).trans (entry_of_unwritten m c (by decide +kernel)))),
    ((h c).2 main_arg2 (Pipeline.mem_restRefs_of main_arg2 rfl (by decide +kernel))).trans (bypass_kept m dats c main_arg2 (by decide +kernel) (by decide +kernel) (by decide +kernel)),
    ((h c).2 main_arg3 (Pipeline.mem_restRefs_of main_arg3 rfl (by decide +kernel))).trans (bypass_kept m dats c main_arg3 (by decide +kernel) (by decide +kernel) (by decide +kernel)),
    ((h c).2 main_arg4 (Pipeline.mem_restRefs_of main_arg4 rfl (by decide +kernel))).trans (bypass_kept m dats c main_arg4 (by decide +kernel) (by decide +kernel) (by decide +kernel)),
    ((h c).2 main_arg5 (Pipeline.mem_restRefs_of main_arg5 rfl (by decide +kernel))).trans (bypass_kept m dats c main_arg5 (by decide +kernel) (by decide +kernel) (by decide +kernel)),
    ((h c).2 main_arg6 (Pipeline.mem_restRefs_of main_arg6 rfl (by decide +kernel))).trans (bypass_kept m dats c main_arg6 (by decide +kernel) (by decide +kernel) (by decide +kernel)),
    ((h c).2 main_arg7 (Pipeline.mem_restRefs_of main_arg7 rfl (by decide +kernel))).trans (bypass_kept m dats c main_arg7 (by decide +kernel) (by decide +kernel) (by decide +kernel)),
    ((h c).2 main_arg8 (Pipeline.mem_restRefs_of main_arg8 rfl (by decide +kernel))).trans (bypass_kept m dats c main_arg8 (by decide +kernel) (by decide +kernel) (by decide +kernel)),
    ((h c).2 main_arg9 (Pipeline.mem_restRefs_of main_arg9 rfl (by decide +kernel))).trans (bypass_kept m dats c main_arg9 (by decide +kernel) (by decide +kernel) (by decide +kernel)),
    ((h c).2 main_arg10 (Pipeline.mem_restRefs_of main_arg10 rfl (by decide +kernel))).trans (bypass_kept m dats c main_arg10 (by decide +kernel) (by decide +kernel) (by decide +kernel)),
    ((h c).2 main_arg11 (Pipeline.mem_restRefs_of main_arg11 rfl (by decide +kernel))).trans (bypass_kept m dats c main_arg11 (by decide +kernel) (by decide +kernel) (by decide +kernel)),
    ((h c).2 main_arg12 (Pipeline.mem_restRefs_of main_arg12 rfl (by decide +kernel))).trans (bypass_kept m dats c main_arg12 (by decide +kernel) (by decide +kernel) (by decide +kernel)),
    ((h c).2 main_arg13 (Pipeline.mem_restRefs_of main_arg13 rfl (by decide +kernel))).trans (bypass_kept m dats c main_arg13 (by decide +kernel) (by decide +kernel) (by decide +kernel)),
    ((h c).2 main_arg14 (Pipeline.mem_restRefs_of main_arg14 rfl (by decide +kernel))).trans (bypass_kept m dats c main_arg14 (by decide +kernel) (by decide +kernel) (by decide +kernel)),
    ((h c).2 main_arg15 (Pipeline.mem_restRefs_of main_arg15 rfl (by decide +kernel))).trans (bypass_kept m dats c main_arg15 (by decide +kernel) (by decide +kernel) (by decide +kernel)),
    ((h c).2 main_arg16 (Pipeline.mem_restRefs_of main_arg16 rfl (by decide +kernel))).trans (bypass_kept m dats c main_arg16 (by decide +kernel) (by decide +kernel) (by decide +kernel)),
    ((h c).2 main_arg17 (Pipeline.mem_restRefs_of main_arg17 rfl (by decide +kernel))).trans (bypass_kept m dats c main_arg17 (by decide +kernel) (by decide +kernel) (by decide +kernel)),
    ((h c).2 main_arg18 (Pipeline.mem_restRefs_of main_arg18 rfl (by decide +kernel))).trans (bypass_kept m dats c main_arg18 (by decide +kernel) (by decide +kernel) (by decide +kernel)),
    ((h c).2 main_arg19 (Pipeline.mem_restRefs_of main_arg19 rfl (by decide +kernel))).trans (bypass_kept m dats c main_arg19 (by decide +kernel) (by decide +kernel) (by decide +kernel)),
    ((h c).2 main_arg20 (Pipeline.mem_restRefs_of main_arg20 rfl (by decide +kernel))).trans (bypass_kept m dats c main_arg20 (by decide +kernel) (by decide +kernel) (by decide +kernel)),
    ((h c).2 main_arg21 (Pipeline.mem_restRefs_of main_arg21 rfl (by decide +kernel))).trans (bypass_kept m dats c main_arg21 (by decide +kernel) (by decide +kernel) (by decide +kernel)),
    ((h c).2 main_arg22 (Pipeline.mem_restRefs_of main_arg22 rfl (by decide +kernel))).trans (bypass_kept m dats c main_arg22 (by decide +kernel) (by decide +kernel) (by decide +kernel)),
    ((h c).2 main_arg23 (Pipeline.mem_restRefs_of main_arg23 rfl (by decide +kernel))).trans (bypass_kept m dats c main_arg23 (by decide +kernel) (by decide +kernel) (by decide +kernel)),
    ((h c).2 main_arg24 (Pipeline.mem_restRefs_of main_arg24 rfl (by decide +kernel))).trans (bypass_kept m dats c main_arg24 (by decide +kernel) (by decide +kernel) (by decide +kernel)),
    ((h c).2 main_arg25 (Pipeline.mem_restRefs_of main_arg25 rfl (by decide +kernel))).trans (bypass_kept m dats c main_arg25 (by decide +kernel) (by decide +kernel) (by decide +kernel)),
    ((h c).2 main_arg26 (Pipeline.mem_restRefs_of main_arg26 rfl (by decide +kernel))).trans (bypass_kept m dats c main_arg26 (by decide +kernel) (by decide +kernel) (by decide +kernel)),
    ((h c).2 main_arg27 (Pipeline.mem_restRefs_of main_arg27 rfl (by decide +kernel))).trans (bypass_kept m dats c main_arg27 (by decide +kernel) (by decide +kernel) (by decide +kernel)),
    ((h c).2 main_arg28 (Pipeline.mem_restRefs_of main_arg28 rfl (by decide +kernel))).trans (bypass_kept m dats c main_arg28 (by decide +kernel) (by decide +kernel) (by decide +kernel))⟩

/-- THE FRAME from a frame run. -/
theorem args_kept (dats : (p : Fin 1) → (c : Dev nD) → Dat τ (Elt F) Unit ℕ (UR sig nD τ) ℕ (cfgs p) c)
    (hA : ∀ c w, (dats 0 c).A w = entryAt m c (Pipeline.arrRef spec0 w))
    (h : θ_run defs (onTc (τ := τ) (main (F := F))) (s₀ m ρ) (Pipeline.FramePost cfgs dats 0 (exitAt m dats))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun r h c => args_of_post m dats hA h c) h

/-! ## The body's two branches -/

/-- The first branch's condition from the grid coordinates: the row-tile counter is zero. -/
abbrev atFirst (i : grid0.Coords) : Prop := (Scalar.cmpi .ne (Scalar.extui (Scalar.cmpi .eq (BitVec.ofNat 32 (i 1).val) 0#32)) 0#32) = 1#1
/-- It holds at the points ≡ 0 (mod 8). -/
theorem atFirst_iff : ∀ t : Fin cfg0.N, atFirst (grid0.coords t) ↔ t.val % 8 = 0 :=
  (by decide +kernel : ∀ t : Fin grid0.N, atFirst (grid0.coords t) ↔ t.val % 8 = 0)

/-- The last branch's condition: the row-tile counter is seven. -/
abbrev atLast (i : grid0.Coords) : Prop := k0_cond2 i = 1#1
/-- It holds at the points ≡ 7 (mod 8). -/
theorem atLast_iff : ∀ t : Fin cfg0.N, atLast (grid0.coords t) ↔ t.val % 8 = 7 :=
  (by decide +kernel : ∀ t : Fin grid0.N, atLast (grid0.coords t) ↔ t.val % 8 = 7)

/-- The inputs are never idle. -/
theorem inc_live : ∀ t : Fin cfg0.N, cfg0.idle 0 (grid0.coords t) = false := by decide +kernel
theorem feat_live : ∀ t : Fin cfg0.N, cfg0.idle 1 (grid0.coords t) = false := by decide +kernel
/-- Away from the last row-tile the result window is idle and not written back; at it, live. -/
theorem out_idle : ∀ t : Fin cfg0.N, ¬atLast (grid0.coords t) → cfg0.idle 2 (grid0.coords t) = true := by decide +kernel
theorem out_noFlush : ∀ t : Fin cfg0.N, ¬atLast (grid0.coords t) → (cfg0.win 2).flush t = false := by decide +kernel
theorem out_live : ∀ t : Fin cfg0.N, atLast (grid0.coords t) → cfg0.idle 2 (grid0.coords t) = false := by decide +kernel

/-! ## The memrefs the body is called with -/

/-- One staging buffer of the result window, through which its contents are stated. -/
abbrev outView : View sig .tc .vmem S1024x256 .f32 := (Memref.whole cc0_stg2_0 : Memref sig .tc .vmem S1024x256 .f32).view
abbrev incM (t : Fin cfg0.N) : Memref sig .tc .vmem S1024x1024 .f32 := win0_0.stage (cfg0.slots t 0)
abbrev incW (t : Fin cfg0.N) : (incM t).IsWhole := hstage0_0 ((cfg0.slots t 0).cast nbuf0_0)
abbrev featM (t : Fin cfg0.N) : Memref sig .tc .vmem S8192x256 .f32 := win0_1.stage (cfg0.slots t 1)
abbrev featW (t : Fin cfg0.N) : (featM t).IsWhole := hstage0_1 ((cfg0.slots t 1).cast nbuf0_1)
abbrev outM (t : Fin cfg0.N) : Memref sig .tc .vmem S1024x256 .f32 := win0_2.stage (cfg0.slots t 2)
abbrev outW (t : Fin cfg0.N) : (outM t).IsWhole := hstage0_2 ((cfg0.slots t 2).cast nbuf0_2)
/-- The accumulator: a whole scoped buffer of the kernel's own, carried from point to point. -/
abbrev accM : Memref sig .tc .vmem S1024x256 .f32 := Memref.whole cc0_scratch0
abbrev accView : View sig .tc .vmem S1024x256 .f32 := accM.view

/-- The launch's invariant with the accumulator as a memref owned at some contents. -/
theorem inv_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Around

end
-- ==== Proof.IdealRunFirst.lean ====
/-
  The kernel body at a point where the row-tile counter is zero and not seven: it overwrites the accumulator
  with zeros, then with zeros plus this tile's product; the result window is untouched. The triple is found by
  running the body symbolically on whole staging memrefs; the pieces the accumulator ends with are the witness.
-/
import proofs.«149568_j10290741641935_1_alg».proof.Proof.IdealWindows

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body when the counter is zero: the inputs at their contents, the result buffer at any contents handed
    back untouched, the accumulator at anything; afterwards the accumulator holds the pieces `LS` written. -/
noncomputable def runFirst (c : Dev nD) (i : grid0.Coords) (arg2 : Memref sig .tc .vmem S1024x1024 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : atFirst i) (hc1 : ¬atLast i)
    (x0 : Vec F S1024x1024 .f32) (x1 : Vec F S8192x256 .f32) :
    Σ' (L2 : List (View.Piece (Elt F) S1024x256 .f32)), { LS : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0_kernel i arg2 harg2 arg3 harg3 arg4 harg4 arg5 harg5) K } := by
  refine ⟨[], ?_, fun xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Around

end
-- ==== Proof.IdealRunMid.lean ====
/-
  The kernel body at a point where the row-tile counter is neither zero nor seven: it adds this tile's product
  to what the accumulator held; the result window is untouched.
-/
import proofs.«149568_j10290741641935_1_alg».proof.Proof.IdealRunFirst

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in the middle of a column block: the accumulator comes at the contents `xs` the point before left. -/
noncomputable def runMid (c : Dev nD) (i : grid0.Coords) (arg2 : Memref sig .tc .vmem S1024x1024 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : ¬atFirst i) (hc1 : ¬atLast i)
    (x0 : Vec F S1024x1024 .f32) (x1 : Vec F S8192x256 .f32) (xs : Vec F S1024x256 .f32) :
    Σ' (L2 : List (View.Piece (Elt F) S1024x256 .f32)), { LS : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0_kernel i arg2 harg2 arg3 harg3 arg4 harg4 arg5 harg5) K } := by
  refine ⟨[], ?_, fun xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Around

end
-- ==== Proof.IdealRunLast.lean ====
/-
  The kernel body at a point where the row-tile counter is seven: it adds the last tile's product to the
  accumulator and copies the accumulator into the result window's staging buffer, covering it.
-/
import proofs.«149568_j10290741641935_1_alg».proof.Proof.IdealRunMid

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last row-tile: the result buffer comes at anything and ends with the pieces `L2` written. -/
noncomputable def runLast (c : Dev nD) (i : grid0.Coords) (arg2 : Memref sig .tc .vmem S1024x1024 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : ¬atFirst i) (hc1 : atLast i)
    (x0 : Vec F S1024x1024 .f32) (x1 : Vec F S8192x256 .f32) (xs : Vec F S1024x256 .f32) :
    Σ' (L2 : List (View.Piece (Elt F) S1024x256 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0_kernel i arg2 harg2 arg3 harg3 arg4 harg4 arg5 harg5) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Around

end
-- ==== Proof.IdealFrame.lean ====
/-
  The frame of the kernel program: every fair execution of @main terminates without a fault and leaves the
  arguments as launched.

  The region's 64 points run column block by column block; within a block the accumulator is reset at the first
  row-tile, added to at every row-tile, and copied into the result window at the last, when the window is
  written back. What the accumulator and the result buffer hold after each point is defined by recursion on
  the point (each case's pieces, found by running the body, read back); the region invariant carries the
  accumulator at that value from one point to the next. With this proof data the body meets its obligation at
  every point, and the launch theorem for a region with host stretches before and after it gives the run.
-/
import proofs.«149568_j10290741641935_1_alg».proof.Proof.IdealRunLast

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- What the first case leaves in the accumulator: its pieces cover the buffer (they tile it), -/
theorem accCoverFirst (c : Dev nD) (i : grid0.Coords) (arg2 : Memref sig .tc .vmem S1024x1024 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : atFirst i) (hc1 : ¬atLast i)
    (x0 : Vec F S1024x1024 .f32) (x1 : Vec F S8192x256 .f32) (y : S1024x256.Idx) :
    ∃ pc ∈ (runFirst c i arg2 harg2 arg3 harg3 arg4 harg4 arg5 harg5 hc0 hc1 x0 x1).2.1, y ∈ pc.1.set :=
  View.cover_of_tiledL (runFirst c i arg2 harg2 arg3 harg3 arg4 harg4 arg5 harg5 hc0 hc1 x0 x1).2.1 S1024x256.size (by sl_kernel_rfl) y
/-- so the accumulator holds them read back. -/
def accFirst (c : Dev nD) (i : grid0.Coords) (arg2 : Memref sig .tc .vmem S1024x1024 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : atFirst i) (hc1 : ¬atLast i)
    (x0 : Vec F S1024x1024 .f32) (x1 : Vec F S8192x256 .f32) : Vec F S1024x256 .f32 :=
  accView.read (Elt F) (accView.writes (Elt F) accView.junk (runFirst c i arg2 harg2 arg3 harg3 arg4 harg4 arg5 harg5 hc0 hc1 x0 x1).2.1)

/-- The case stores nothing into the result window: a placeholder nothing consults (the window is idle there). -/
def outFirst (c : Dev nD) (i : grid0.Coords) (arg2 : Memref sig .tc .vmem S1024x1024 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : atFirst i) (hc1 : ¬atLast i)
    (x0 : Vec F S1024x1024 .f32) (x1 : Vec F S8192x256 .f32) : Vec F S1024x256 .f32 :=
  outView.read (Elt F) (outView.writes (Elt F) outView.junk (runFirst c i arg2 harg2 arg3 harg3 arg4 harg4 arg5 harg5 hc0 hc1 x0 x1).1)

/-- What the middle case leaves in the accumulator: its pieces cover the buffer (they tile it), -/
theorem accCoverMid (c : Dev nD) (i : grid0.Coords) (arg2 : Memref sig .tc .vmem S1024x1024 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : ¬atFirst i) (hc1 : ¬atLast i)
    (x0 : Vec F S1024x1024 .f32) (x1 : Vec F S8192x256 .f32) (xs : Vec F S1024x256 .f32) (y : S1024x256.Idx) :
    ∃ pc ∈ (runMid c i arg2 harg2 arg3 harg3 arg4 harg4 arg5 harg5 hc0 hc1 x0 x1 xs).2.1, y ∈ pc.1.set :=
  View.cover_of_tiledL (runMid c i arg2 harg2 arg3 harg3 arg4 harg4 arg5 harg5 hc0 hc1 x0 x1 xs).2.1 S1024x256.size (by sl_kernel_rfl) y
/-- so the accumulator holds them read back. -/
def accMid (c : Dev nD) (i : grid0.Coords) (arg2 : Memref sig .tc .vmem S1024x1024 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : ¬atFirst i) (hc1 : ¬atLast i)
    (x0 : Vec F S1024x1024 .f32) (x1 : Vec F S8192x256 .f32) (xs : Vec F S1024x256 .f32) : Vec F S1024x256 .f32 :=
  accView.read (Elt F) (accView.writes (Elt F) accView.junk (runMid c i arg2 harg2 arg3 harg3 arg4 harg4 arg5 harg5 hc0 hc1 x0 x1 xs).2.1)

/-- The case stores nothing into the result window: a placeholder nothing consults (the window is idle there). -/
def outMid (c : Dev nD) (i : grid0.Coords) (arg2 : Memref sig .tc .vmem S1024x1024 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : ¬atFirst i) (hc1 : ¬atLast i)
    (x0 : Vec F S1024x1024 .f32) (x1 : Vec F S8192x256 .f32) (xs : Vec F S1024x256 .f32) : Vec F S1024x256 .f32 :=
  outView.read (Elt F) (outView.writes (Elt F) outView.junk (runMid c i arg2 harg2 arg3 harg3 arg4 harg4 arg5 harg5 hc0 hc1 x0 x1 xs).1)

/-- What the last case leaves in the accumulator: its pieces cover the buffer (they tile it), -/
theorem accCoverLast (c : Dev nD) (i : grid0.Coords) (arg2 : Memref sig .tc .vmem S1024x1024 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : ¬atFirst i) (hc1 : atLast i)
    (x0 : Vec F S1024x1024 .f32) (x1 : Vec F S8192x256 .f32) (xs : Vec F S1024x256 .f32) (y : S1024x256.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S1024x256.size (by sl_kernel_rfl) y
/-- so the accumulator holds them read back. -/
def accLast (c : Dev nD) (i : grid0.Coords) (arg2 : Memref sig .tc .vmem S1024x1024 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : ¬atFirst i) (hc1 : atLast i)
    (x0 : Vec F S1024x1024 .f32) (x1 : Vec F S8192x256 .f32) (xs : Vec F S1024x256 .f32) : Vec F S1024x256 .f32 :=
  accView.read (Elt F) (accView.writes (Elt F) accView.junk (runLast c i arg2 harg2 arg3 harg3 arg4 harg4 arg5 harg5 hc0 hc1 x0 x1 xs).2.1)

/-- The last case's pieces for the result window cover its block, -/
theorem outCoverLast (c : Dev nD) (i : grid0.Coords) (arg2 : Memref sig .tc .vmem S1024x1024 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : ¬atFirst i) (hc1 : atLast i)
    (x0 : Vec F S1024x1024 .f32) (x1 : Vec F S8192x256 .f32) (xs : Vec F S1024x256 .f32) (y : S1024x256.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1024x256.size (by sl_kernel_rfl) y
/-- so the result window's staging buffer holds them read back. -/
def outLast (c : Dev nD) (i : grid0.Coords) (arg2 : Memref sig .tc .vmem S1024x1024 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : ¬atFirst i) (hc1 : atLast i)
    (x0 : Vec F S1024x1024 .f32) (x1 : Vec F S8192x256 .f32) (xs : Vec F S1024x256 .f32) : Vec F S1024x256 .f32 :=
  outView.read (Elt F) (outView.writes (Elt F) outView.junk (runLast c i arg2 harg2 arg3 harg3 arg4 harg4 arg5 harg5 hc0 hc1 x0 x1 xs).1)

/-! ## After each point -/

/-- THE ACCUMULATION: what the result window's staging buffer and the accumulator hold after the body at
    position `n` — the case the counter selects, run on the point's input blocks and, past the first row-tile,
    on what the point before left in the accumulator. -/
def leftAt (c : Dev nD) : (n : ℕ) → n < cfg0.N → Vec F S1024x256 .f32 × Vec F S1024x256 .f32
  | 0, hn => (outFirst c (grid0.coords ⟨0, hn⟩) (incM ⟨0, hn⟩) (incW ⟨0, hn⟩) (featM ⟨0, hn⟩) (featW ⟨0, hn⟩) (outM ⟨0, hn⟩) (outW ⟨0, hn⟩) accM (Memref.isWhole_whole _) ((atFirst_iff ⟨0, hn⟩).mpr (Nat.zero_mod _)) (fun h => (fun h => by (try dsimp only at h); omega) ((atLast_iff ⟨0, hn⟩).mp h)) (blockAt m c 0 ⟨0, hn⟩) (blockAt m c 1 ⟨0, hn⟩), accFirst c (grid0.coords ⟨0, hn⟩) (incM ⟨0, hn⟩) (incW ⟨0, hn⟩) (featM ⟨0, hn⟩) (featW ⟨0, hn⟩) (outM ⟨0, hn⟩) (outW ⟨0, hn⟩) accM (Memref.isWhole_whole _) ((atFirst_iff ⟨0, hn⟩).mpr (Nat.zero_mod _)) (fun h => (fun h => by (try dsimp only at h); omega) ((atLast_iff ⟨0, hn⟩).mp h)) (blockAt m c 0 ⟨0, hn⟩) (blockAt m c 1 ⟨0, hn⟩))
  | n + 1, hn =>
    if h0 : (n + 1) % 8 = 0 then
      if h1 : (n + 1) % 8 = 7 then
        False.elim (by omega)
      else
        (outFirst c (grid0.coords ⟨n + 1, hn⟩) (incM ⟨n + 1, hn⟩) (incW ⟨n + 1, hn⟩) (featM ⟨n + 1, hn⟩) (featW ⟨n + 1, hn⟩) (outM ⟨n + 1, hn⟩) (outW ⟨n + 1, hn⟩) accM (Memref.isWhole_whole _) ((atFirst_iff ⟨n + 1, hn⟩).mpr h0) (fun h => h1 ((atLast_iff ⟨n + 1, hn⟩).mp h)) (blockAt m c 0 ⟨n + 1, hn⟩) (blockAt m c 1 ⟨n + 1, hn⟩), accFirst c (grid0.coords ⟨n + 1, hn⟩) (incM ⟨n + 1, hn⟩) (incW ⟨n + 1, hn⟩) (featM ⟨n + 1, hn⟩) (featW ⟨n + 1, hn⟩) (outM ⟨n + 1, hn⟩) (outW ⟨n + 1, hn⟩) accM (Memref.isWhole_whole _) ((atFirst_iff ⟨n + 1, hn⟩).mpr h0) (fun h => h1 ((atLast_iff ⟨n + 1, hn⟩).mp h)) (blockAt m c 0 ⟨n + 1, hn⟩) (blockAt m c 1 ⟨n + 1, hn⟩))
    else
      if h1 : (n + 1) % 8 = 7 then
        (outLast c (grid0.coords ⟨n + 1, hn⟩) (incM ⟨n + 1, hn⟩) (incW ⟨n + 1, hn⟩) (featM ⟨n + 1, hn⟩) (featW ⟨n + 1, hn⟩) (outM ⟨n + 1, hn⟩) (outW ⟨n + 1, hn⟩) accM (Memref.isWhole_whole _) (fun h => h0 ((atFirst_iff ⟨n + 1, hn⟩).mp h)) ((atLast_iff ⟨n + 1, hn⟩).mpr h1) (blockAt m c 0 ⟨n + 1, hn⟩) (blockAt m c 1 ⟨n + 1, hn⟩) (leftAt c n (Nat.lt_of_succ_lt hn)).2, accLast c (grid0.coords ⟨n + 1, hn⟩) (incM ⟨n + 1, hn⟩) (incW ⟨n + 1, hn⟩) (featM ⟨n + 1, hn⟩) (featW ⟨n + 1, hn⟩) (outM ⟨n + 1, hn⟩) (outW ⟨n + 1, hn⟩) accM (Memref.isWhole_whole _) (fun h => h0 ((atFirst_iff ⟨n + 1, hn⟩).mp h)) ((atLast_iff ⟨n + 1, hn⟩).mpr h1) (blockAt m c 0 ⟨n + 1, hn⟩) (blockAt m c 1 ⟨n + 1, hn⟩) (leftAt c n (Nat.lt_of_succ_lt hn)).2)
      else
        (outMid c (grid0.coords ⟨n + 1, hn⟩) (incM ⟨n + 1, hn⟩) (incW ⟨n + 1, hn⟩) (featM ⟨n + 1, hn⟩) (featW ⟨n + 1, hn⟩) (outM ⟨n + 1, hn⟩) (outW ⟨n + 1, hn⟩) accM (Memref.isWhole_whole _) (fun h => h0 ((atFirst_iff ⟨n + 1, hn⟩).mp h)) (fun h => h1 ((atLast_iff ⟨n + 1, hn⟩).mp h)) (blockAt m c 0 ⟨n + 1, hn⟩) (blockAt m c 1 ⟨n + 1, hn⟩) (leftAt c n (Nat.lt_of_succ_lt hn)).2, accMid c (grid0.coords ⟨n + 1, hn⟩) (incM ⟨n + 1, hn⟩) (incW ⟨n + 1, hn⟩) (featM ⟨n + 1, hn⟩) (featW ⟨n + 1, hn⟩) (outM ⟨n + 1, hn⟩) (outW ⟨n + 1, hn⟩) accM (Memref.isWhole_whole _) (fun h => h0 ((atFirst_iff ⟨n + 1, hn⟩).mp h)) (fun h => h1 ((atLast_iff ⟨n + 1, hn⟩).mp h)) (blockAt m c 0 ⟨n + 1, hn⟩) (blockAt m c 1 ⟨n + 1, hn⟩) (leftAt c n (Nat.lt_of_succ_lt hn)).2)

theorem leftAt_first (c : Dev nD) (t : Fin cfg0.N) (h0 : t.val % 8 = 0) (h1 : ¬t.val % 8 = 7) :
    leftAt m c t.val t.isLt = (outFirst c (grid0.coords t) (incM t) (incW t) (featM t) (featW t) (outM t) (outW t) accM (Memref.isWhole_whole _) ((atFirst_iff t).mpr h0) (fun h => h1 ((atLast_iff t).mp h)) (blockAt m c 0 t) (blockAt m c 1 t), accFirst c (grid0.coords t) (incM t) (incW t) (featM t) (featW t) (outM t) (outW t) accM (Memref.isWhole_whole _) ((atFirst_iff t).mpr h0) (fun h => h1 ((atLast_iff t).mp h)) (blockAt m c 0 t) (blockAt m c 1 t)) := by
  obtain ⟨n, hn⟩ := t
  cases n with
  | zero => exact rfl
  | succ n => exact (dif_pos h0).trans ((dif_neg h1).trans rfl)

theorem leftAt_mid (c : Dev nD) (t : Fin cfg0.N) (h0 : ¬t.val % 8 = 0) (h1 : ¬t.val % 8 = 7) :
    leftAt m c t.val t.isLt = (outMid c (grid0.coords t) (incM t) (incW t) (featM t) (featW t) (outM t) (outW t) accM (Memref.isWhole_whole _) (fun h => h0 ((atFirst_iff t).mp h)) (fun h => h1 ((atLast_iff t).mp h)) (blockAt m c 0 t) (blockAt m c 1 t) (leftAt m c (t.val - 1) (Nat.lt_of_le_of_lt (Nat.sub_le _ _) t.isLt)).2, accMid c (grid0.coords t) (incM t) (incW t) (featM t) (featW t) (outM t) (outW t) accM (Memref.isWhole_whole _) (fun h => h0 ((atFirst_iff t).mp h)) (fun h => h1 ((atLast_iff t).mp h)) (blockAt m c 0 t) (blockAt m c 1 t) (leftAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem leftAt_last (c : Dev nD) (t : Fin cfg0.N) (h0 : ¬t.val % 8 = 0) (h1 : t.val % 8 = 7) :
    leftAt m c t.val t.isLt = (outLast c (grid0.coords t) (incM t) (incW t) (featM t) (featW t) (outM t) (outW t) accM (Memref.isWhole_whole _) (fun h => h0 ((atFirst_iff t).mp h)) ((atLast_iff t).mpr h1) (blockAt m c 0 t) (blockAt m c 1 t) (leftAt m c (t.val - 1) (Nat.lt_of_le_of_lt (Nat.sub_le _ _) t.isLt)).2, accLast c (grid0.coords t) (incM t) (incW t) (featM t) (featW t) (outM t) (outW t) accM (Memref.isWhole_whole _) (fun h => h0 ((atFirst_iff t).mp h)) ((atLast_iff t).mpr h1) (blockAt m c 0 t) (blockAt m c 1 t) (leftAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (the accumulator at anything);
    afterwards the accumulator at what the point before left, and the generator register at some state. -/
def invAt (c : Dev nD) : (n : ℕ) → n ≤ cfg0.N → sProp 𝕄
  | 0, _ => Pipeline.ΦA spec0 c
  | n + 1, hn => iprop(iprop(owns (c : Thread nD τ) accM fullShare ((leftAt m c n hn).2)) ∗ (∃ r, prngReg c r))

theorem invAt_zero (c : Dev nD) (n : ℕ) (h : n ≤ cfg0.N) (hz : n = 0) : invAt m c n h = Pipeline.ΦA spec0 c := by
  subst hz; rfl
theorem invAt_succ (c : Dev nD) (n : ℕ) (hn : n < cfg0.N) :
    invAt m c (n + 1) hn = iprop(iprop(owns (c : Thread nD τ) accM fullShare ((leftAt m c n hn).2)) ∗ (∃ r, prngReg c r)) := rfl
theorem invAt_pos (c : Dev nD) (n : ℕ) (h : n ≤ cfg0.N) (hz : n ≠ 0) :
    invAt m c n h = iprop(iprop(owns (c : Thread nD τ) accM fullShare ((leftAt m c (n - 1) (by omega)).2)) ∗ (∃ r, prngReg c r)) := by
  cases n with
  | zero => exact absurd rfl hz
  | succ n => rfl

/-! ## The proof data -/

/-- The region's proof data on core `c`: the arrays as the region finds them; after the body each input's buffer
    at its block and the result window's at `leftAt`; the invariant `invAt`; nothing owed; full shares. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => (leftAt m c t.val t.isLt).1
  Φ t := invAt m c t.val (Nat.le_of_lt_succ t.isLt)
  q _ := fullShare
  owed _ := 0

theorem arrays_eq (c : Dev nD) (w : Fin cfg0.W) : (dats m 0 c).A w = entryAt m c (Pipeline.arrRef spec0 w) := by
  dsimp only [dats]
theorem inv_castSucc (c : Dev nD) (t : Fin cfg0.N) :
    (dats m 0 c).Φ t.castSucc = invAt m c t.val (Nat.le_of_lt t.isLt) := by
  dsimp only [dats]; simp only [Fin.coe_castSucc]
theorem after_inc (c : Dev nD) (t : Fin cfg0.N) : (dats m 0 c).after 0 t = blockAt m c 0 t := by dsimp only [dats]
theorem after_feat (c : Dev nD) (t : Fin cfg0.N) : (dats m 0 c).after 1 t = blockAt m c 1 t := by dsimp only [dats]
theorem after_out (c : Dev nD) (t : Fin cfg0.N) : (dats m 0 c).after 2 t = (leftAt m c t.val t.isLt).1 := by dsimp only [dats]
theorem before_inc (c : Dev nD) (t : Fin cfg0.N) (d) : (dats m 0 c).before 0 t d = blockAt m c 0 t :=
  inc_held m (dats m 0 c) (arrays_eq m c 0) (after_inc m c) t d
theorem before_feat (c : Dev nD) (t : Fin cfg0.N) (d) : (dats m 0 c).before 1 t d = blockAt m c 1 t :=
  feat_held m (dats m 0 c) (arrays_eq m c 1) (after_feat m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (incM t) fullShare ((dats m 0 c).before 0 t d))
    ∗ (∃ d, owns (c : Thread nD τ) (featM t) fullShare ((dats m 0 c).before 1 t d))
    ∗ (∃ d, owns (c : Thread nD τ) (outM t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; the counter says which case the point is in;
    the invariant hands the body the accumulator at what the point before left (at anything at the very first
    point) and takes it back at this point's value, the pieces covering it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_inc, before_feat]
  rw [show (dats m 0 c).owesAt () t.succ = (dats m 0 c).owesAt () t.castSucc from rfl]
  rw [show (dats m 0 c).Φ t.succ = invAt m c (t.val + 1) t.isLt from rfl, invAt_succ]
  have hN : t.val < 64 := lt_of_lt_of_eq t.isLt (show cfg0.N = 64 from N_0)
  by_cases h0 : t.val % 8 = 0
  · by_cases h1 : t.val % 8 = 7
    · exfalso; omega
    · rw [show (dats m 0 c).leavesExact 0 t = owns (c : Thread nD τ) (incM t) fullShare ((dats m 0 c).after 0 t) from by
        unfold Dat.leavesExact; rw [inc_live t], after_inc]
      rw [show (dats m 0 c).leavesExact 1 t = owns (c : Thread nD τ) (featM t) fullShare ((dats m 0 c).after 1 t) from by
        unfold Dat.leavesExact; rw [feat_live t], after_feat]
      rw [Dat.leavesExact_idle (dats m 0 c) 2 t (out_idle t (fun h => h1 ((atLast_iff t).mp h))) (out_noFlush t (fun h => h1 ((atLast_iff t).mp h)))]
      rw [leftAt_first m c t h0 h1]
      unfold accFirst; (try dsimp only)
      by_cases hz : t.val = 0
      · rw [inv_castSucc m c t, invAt_zero m c _ _ hz, inv_eq]
        iintro ⟨⟨HS, Hg⟩, Ho, ⟨%d0, H0⟩, ⟨%d1, H1⟩, ⟨%d2, H2⟩⟩
        iapply ((runFirst c (grid0.coords t) _ _ _ _ _ _ _ _ ((atFirst_iff t).mpr h0) (fun h => h1 ((atLast_iff t).mp h)) (blockAt m c 0 t) (blockAt m c 1 t)).2.2 _ Set.univ _)
        isplitl [H0]; · iexact H0
        isplitl [H1]; · iexact H1
        isplitl [H2]; · iexact H2
        isplitl [HS]; · iexact HS
        iintro ⟨H0, H1, H2, ⟨%es, HS⟩⟩
        isplitl [HS Hg]
        · isplitl [HS]
          · unfold owns; iexists _; isplitr
            swap; · iexact HS
            ipureintro; exact View.read_writes_of_cover _ _ _ _ _ (accCoverFirst c _ _ _ _ _ _ _ _ _ _ _ _ _)
          iexact Hg
        isplitl [Ho]; · iexact Ho
        isplitl [H0]; · iexact H0
        isplitl [H1]; · iexact H1
        iexists _; iexact H2
      · rw [inv_castSucc m c t, invAt_pos m c _ _ hz]
        iintro ⟨⟨HS, Hg⟩, Ho, ⟨%d0, H0⟩, ⟨%d1, H1⟩, ⟨%d2, H2⟩⟩
        iapply ((runFirst c (grid0.coords t) _ _ _ _ _ _ _ _ ((atFirst_iff t).mpr h0) (fun h => h1 ((atLast_iff t).mp h)) (blockAt m c 0 t) (blockAt m c 1 t)).2.2 _ Set.univ _)
        isplitl [H0]; · iexact H0
        isplitl [H1]; · iexact H1
        isplitl [H2]; · iexact H2
        isplitl [HS]; · iexists _; iexact HS
        iintro ⟨H0, H1, H2, ⟨%es, HS⟩⟩
        isplitl [HS Hg]
        · isplitl [HS]
          · unfold owns; iexists _; isplitr
            swap; · iexact HS
            ipureintro; exact View.read_writes_of_cover _ _ _ _ _ (accCoverFirst c _ _ _ _ _ _ _ _ _ _ _ _ _)
          iexact Hg
        isplitl [Ho]; · iexact Ho
        isplitl [H0]; · iexact H0
        isplitl [H1]; · iexact H1
        iexists _; iexact H2
  · by_cases h1 : t.val % 8 = 7
    · rw [show (dats m 0 c).leavesExact 0 t = owns (c : Thread nD τ) (incM t) fullShare ((dats m 0 c).after 0 t) from by
        unfold Dat.leavesExact; rw [inc_live t], after_inc]
      rw [show (dats m 0 c).leavesExact 1 t = owns (c : Thread nD τ) (featM t) fullShare ((dats m 0 c).after 1 t) from by
        unfold Dat.leavesExact; rw [feat_live t], after_feat]
      rw [show (dats m 0 c).leavesExact 2 t = owns (c : Thread nD τ) (outM t) fullShare ((dats m 0 c).after 2 t) from by
        unfold Dat.leavesExact; rw [out_live t ((atLast_iff t).mpr h1)], after_out]
      rw [leftAt_last m c t h0 h1]
      unfold outLast accLast; (try dsimp only)
      by_cases hz : t.val = 0
      · exfalso; omega
      · rw [inv_castSucc m c t, invAt_pos m c _ _ hz]
        iintro ⟨⟨HS, Hg⟩, Ho, ⟨%d0, H0⟩, ⟨%d1, H1⟩, ⟨%d2, H2⟩⟩
        iapply ((runLast c (grid0.coords t) _ _ _ _ _ _ _ _ (fun h => h0 ((atFirst_iff t).mp h)) ((atLast_iff t).mpr h1) (blockAt m c 0 t) (blockAt m c 1 t) _).2.2 Set.univ _)
        isplitl [H0]; · iexact H0
        isplitl [H1]; · iexact H1
        isplitl [H2]; · iexists _; iexact H2
        isplitl [HS]; · iexact HS
        iintro ⟨H0, H1, ⟨%e2, H2⟩, ⟨%es, HS⟩⟩
        isplitl [HS Hg]
        · isplitl [HS]
          · unfold owns; iexists _; isplitr
            swap; · iexact HS
            ipureintro; exact View.read_writes_of_cover _ _ _ _ _ (accCoverLast c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (outCoverLast c _ _ _ _ _ _ _ _ _ _ _ _ _ _)
    · rw [show (dats m 0 c).leavesExact 0 t = owns (c : Thread nD τ) (incM t) fullShare ((dats m 0 c).after 0 t) from by
        unfold Dat.leavesExact; rw [inc_live t], after_inc]
      rw [show (dats m 0 c).leavesExact 1 t = owns (c : Thread nD τ) (featM t) fullShare ((dats m 0 c).after 1 t) from by
        unfold Dat.leavesExact; rw [feat_live t], after_feat]
      rw [Dat.leavesExact_idle (dats m 0 c) 2 t (out_idle t (fun h => h1 ((atLast_iff t).mp h))) (out_noFlush t (fun h => h1 ((atLast_iff t).mp h)))]
      rw [leftAt_mid m c t h0 h1]
      unfold accMid; (try dsimp only)
      by_cases hz : t.val = 0
      · exfalso; omega
      · rw [inv_castSucc m c t, invAt_pos m c _ _ hz]
        iintro ⟨⟨HS, Hg⟩, Ho, ⟨%d0, H0⟩, ⟨%d1, H1⟩, ⟨%d2, H2⟩⟩
        iapply ((runMid c (grid0.coords t) _ _ _ _ _ _ _ _ (fun h => h0 ((atFirst_iff t).mp h)) (fun h => h1 ((atLast_iff t).mp h)) (blockAt m c 0 t) (blockAt m c 1 t) _).2.2 _ Set.univ _)
        isplitl [H0]; · iexact H0
        isplitl [H1]; · iexact H1
        isplitl [H2]; · iexact H2
        isplitl [HS]; · iexact HS
        iintro ⟨H0, H1, H2, ⟨%es, HS⟩⟩
        isplitl [HS Hg]
        · isplitl [HS]
          · unfold owns; iexists _; isplitr
            swap; · iexact HS
            ipureintro; exact View.read_writes_of_cover _ _ _ _ _ (accCoverMid c _ _ _ _ _ _ _ _ _ _ _ _ _ _)
          iexact Hg
        isplitl [Ho]; · iexact Ho
        isplitl [H0]; · iexact H0
        isplitl [H1]; · iexact H1
        iexists _; iexact H2

theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 := by
  rw [show (dats m 0 c).Φ 0 = invAt m c 0 (Nat.zero_le _) from rfl, invAt_zero m c 0 _ rfl]
  try exact Idealize.SL.BI.Entails.refl _

/-- After the last point the invariant gives the launch's back: the accumulator's value is forgotten. -/
theorem inv_out (c : Dev nD) : (dats m 0 c).Φ (Fin.last cfg0.N) ⊢ Pipeline.ΦA spec0 c := by
  have hne : (Fin.last cfg0.N).val ≠ 0 := by rw [Fin.val_last]; have : cfg0.N = 64 := N_0; omega
  rw [show (dats m 0 c).Φ (Fin.last cfg0.N) = invAt m c (Fin.last cfg0.N).val (Nat.le_of_lt_succ (Fin.last cfg0.N).isLt) from rfl,
    invAt_pos m c _ _ hne, inv_eq]
  iintro ⟨HS, Hg⟩
  isplitl [HS]
  · iexists _; iexact HS
  iexact Hg

/-! ## The run and the frame -/

set_option backward.isDefEq.respectTransparency.types false in
/-- Every weakly fair execution of @main on the TensorCores terminates, with every array of the region at what
    the proof data computes and every other buffer as the later stretches leave it. -/
theorem run_main : θ_run defs (onTc (τ := τ) (main (F := F))) (s₀ m ρ) (Pipeline.FramePost cfgs (dats m) 0 (exitAt m (dats m))) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := entryVal m) (opss := later) (hsub := later_reach) (hfresh := later_fresh) (hkeep := later_keeps)
    (hmain := main_around m Variants.none) (hA := arrays_eq m) (hin := inv_in m) (hout := inv_out m)

/-- THE FRAME of this program at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  args_kept m ρ (dats m) (arrays_eq m) (run_main m ρ)

end Cert.KernelIdeal.Around

end
-- ==== Proof.LibMatmulTN.lean ====
/-
  The product Aᵀ · B of a k × m and a k × n matrix — a matrix unit's product whose dimension numbers contract the
  FIRST axis of both operands and keep no batch axis — accumulated into the zero matrix, read at (a, b), is the
  inner product of column a of A with column b of B:  Σ_{c < k} A[c, a] · B[c, b].
-/
import Idealize.ShloMosaic.PureOps.Ideal
import Idealize.ShloMosaic.PureOps.Ideal.Laws
import Idealize.ShloMosaic.Lib.ValueIdx

noncomputable section

open scoped BigOperators

namespace Cert.LibMatmulTN

open Idealize.ShloMosaic Idealize.ShloMosaic.ValueIdx

/-- `Aᵀ · B` into the zero accumulator, read at `(a, b)`: the inner product of the two columns. `w` is the record's
    well-formedness, which a program states. -/
theorem matmul_tn_zero_apply {m n k : ℕ} {φ₁ φ₂ : FTy}
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂)
    (a : Fin m) (b : Fin n) :
    matmul (⟨[0], [0], [1], [1], [], [], w⟩ : DotDims _ _ _) prec A B (constant ⟨2, ![m, n]⟩ .f32 0x00000000#32) (ix2 a b)
      = ∑ c : Fin k, A (ix2 c a) * B (ix2 c b) := by
  show FloatOps.matmul _ prec A B _ (ix2 a b) = _
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val
    (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulTN

end
-- ==== Proof.AggKernel.lean ====
/-
  The arithmetic of the aggregation incidenceᵀ · x at the ideal values, as statements about vectors only: the kernel's side.

  Entry (e, d) of the aggregation is Σ_r incidence[r, e] · x[r, d] over the 8192 rows r. The kernel computes it block by
  block: for an output block of 1024 rows it starts from the zero block and, for each of the eight tiles of 1024 rows of
  the contraction axis, adds the product of the transposed 1024 × 1024 incidence block with the 1024 × 256 block of x.
  Since 8192 = 8 · 1024, the eight partial sums add up to the whole sum; only commutativity and associativity of + are
  used, which hold at the extended reals.
-/
import proofs.«149568_j10290741641935_1_alg».proof.Proof.Gen.KernelIdeal.Skeleton
import proofs.«149568_j10290741641935_1_alg».proof.Proof.LibMatmulTN
import Idealize.ShloMosaic.Lib.ValueIdx
import Idealize.ShloMosaic.Lib.ValueLayout
import Idealize.ShloMosaic.PureOps.Ideal.Laws

noncomputable section

open scoped BigOperators

namespace Cert.AggMath

open Idealize.ShloMosaic Idealize.ShloMosaic.ValueIdx
open Cert.KernelIdeal (S8192x8192 S8192x256 S1024x1024 S1024x256)

/-! ## The specification -/

/-- The aggregation: entry (e, d) of incidenceᵀ · x is the sum over the rows r of incidence[r, e] · x[r, d]. -/
def aggSpec (inc : Vec Ideal S8192x8192 .f32) (x : Vec Ideal S8192x256 .f32) : Vec Ideal S8192x256 .f32 :=
  fun j => ∑ r : Fin 8192, inc (@ix2 8192 8192 r (j 0)) * x (@ix2 8192 256 r (j 1))

theorem aggSpec_ix2 (inc : Vec Ideal S8192x8192 .f32) (x : Vec Ideal S8192x256 .f32) (e : Fin 8192) (d : Fin 256) :
    aggSpec inc x (ix2 e d) = ∑ r : Fin 8192, inc (ix2 r e) * x (ix2 r d) := rfl

/-- Two 1024 × 256 blocks that agree at every (p, q) are equal. -/
theorem ext_1024x256 {α : Type} (u v : S1024x256.Idx → α)
    (h : ∀ (p : Fin 1024) (q : Fin 256), u (ix2 p q) = v (ix2 p q)) : u = v :=
  funext fun j => by rw [eq_ix2 j]; exact h _ _

/-- Two 8192 × 256 matrices that agree at every (e, d) are equal. -/
theorem ext_8192x256 {α : Type} (u v : S8192x256.Idx → α)
    (h : ∀ (e : Fin 8192) (d : Fin 256), u (ix2 e d) = v (ix2 e d)) : u = v :=
  funext fun j => by rw [eq_ix2 j]; exact h _ _

/-! ## 8192 = 8 · 1024 -/

/-- A sum over 8192 = 8 · 1024 terms, taken 1024 at a time. -/
theorem sum_tiles {M : Type*} [AddCommMonoid M] (f : Fin 8192 → M) :
    ∑ r : Fin 8192, f r = ∑ n : Fin 8, ∑ c : Fin 1024, f ⟨1024 * n.val + c.val, by omega⟩ := by
  have h := Fintype.sum_equiv (finProdFinEquiv : Fin 8 × Fin 1024 ≃ Fin 8192)
      (fun y : Fin 8 × Fin 1024 => f ⟨1024 * y.1.val + y.2.val, by omega⟩) f
      (fun y => congrArg f (Fin.ext (by
        show 1024 * y.1.val + y.2.val = y.2.val + 1024 * y.1.val
        omega)))
  rw [← h, Fintype.sum_prod_type]

/-! ## The kernel's two payloads: the zero block and one accumulation step

Narrowing the operands to bf16 and a shape cast to the same shape change nothing at the ideal values, so a step is
the accumulator plus (block of incidence)ᵀ · (block of x). -/

/-- The zero block. -/
theorem k0_pay1_apply (j : S1024x256.Idx) : Cert.KernelIdeal.Gen.k0_pay1 (F := Ideal) j = 0 := by
  unfold Cert.KernelIdeal.Gen.k0_pay1
  rw [shapeCast_self]
  exact Ideal.ofBits_zero_f32

/-- One accumulation step. -/
theorem k0_pay2_apply (v6 : Vec Ideal S1024x256 .f32) (v8 : Vec Ideal S1024x1024 .f32) (v11 : Vec Ideal S1024x256 .f32)
    (p : Fin 1024) (q : Fin 256) :
    Cert.KernelIdeal.Gen.k0_pay2 (F := Ideal) v6 v8 v11 (ix2 p q)
      = v11 (ix2 p q) + ∑ c : Fin 1024, v8 (ix2 c p) * v6 (ix2 c q) := by
  unfold Cert.KernelIdeal.Gen.k0_pay2
  rw [shapeCast_self, shapeCast_self]
  refine congrArg (v11 (ix2 p q) + ·) ?_
  exact Cert.LibMatmulTN.matmul_tn_zero_apply Cert.KernelIdeal.Gen.dot_S1024x1024_S1024x256_S1024x256_0_0_1_1_n_n_wf none
    (truncf .bf16 v8 Cert.KernelIdeal.Gen.bitsLt_bf16_f32) (truncf .bf16 v6 Cert.KernelIdeal.Gen.bitsLt_bf16_f32) p q

/-! ## Eight steps make the whole sum -/

/-- What tile m — rows 1024 m, …, 1024 m + 1023 of both operands — contributes to entry (1024 e + p, q) of the
    aggregation; zero past the eighth tile. -/
def tileSum (inc : Vec Ideal S8192x8192 .f32) (x : Vec Ideal S8192x256 .f32) (e : Fin 8) (m : ℕ)
    (p : Fin 1024) (q : Fin 256) : Ideal .f32 :=
  if h : m < 8 then
    ∑ c : Fin 1024, inc (ix2 (⟨1024 * m + c.val, by omega⟩ : Fin 8192) (⟨1024 * e.val + p.val, by omega⟩ : Fin 8192))
      * x (ix2 (⟨1024 * m + c.val, by omega⟩ : Fin 8192) q)
  else 0

/-- An entry of the aggregation is the sum of its eight tiles' contributions. -/
theorem aggSpec_eq_sum_tileSum (inc : Vec Ideal S8192x8192 .f32) (x : Vec Ideal S8192x256 .f32) (e : Fin 8)
    (p : Fin 1024) (q : Fin 256) :
    aggSpec inc x (ix2 (⟨1024 * e.val + p.val, by omega⟩ : Fin 8192) q)
      = ∑ m ∈ Finset.range 8, tileSum inc x e m p q := by
  rw [aggSpec_ix2, sum_tiles, Finset.sum_range]
  refine Finset.sum_congr rfl fun n _ => ?_
  rw [tileSum, dif_pos n.isLt]

/-- One accumulation step whose two loaded blocks are tile n of the operands adds tile n's contribution. -/
theorem k0_pay2_tile (inc : Vec Ideal S8192x8192 .f32) (x : Vec Ideal S8192x256 .f32) (e n : Fin 8)
    (v6 : Vec Ideal S1024x256 .f32) (v8 : Vec Ideal S1024x1024 .f32) (v11 : Vec Ideal S1024x256 .f32)
    (h8 : ∀ c p : Fin 1024, v8 (ix2 c p)
      = inc (ix2 (⟨1024 * n.val + c.val, by omega⟩ : Fin 8192) (⟨1024 * e.val + p.val, by omega⟩ : Fin 8192)))
    (h6 : ∀ (c : Fin 1024) (q : Fin 256), v6 (ix2 c q) = x (ix2 (⟨1024 * n.val + c.val, by omega⟩ : Fin 8192) q))
    (p : Fin 1024) (q : Fin 256) :
    Cert.KernelIdeal.Gen.k0_pay2 (F := Ideal) v6 v8 v11 (ix2 p q) = v11 (ix2 p q) + tileSum inc x e n.val p q := by
  rw [k0_pay2_apply, tileSum, dif_pos n.isLt]
  refine congrArg (v11 (ix2 p q) + ·) (Finset.sum_congr rfl fun c _ => ?_)
  rw [h8 c p, h6 c q]

/-- The accumulator after the first n steps: the zero block, then one accumulation step per tile. -/
def accAfter (v6 : ℕ → Vec Ideal S1024x256 .f32) (v8 : ℕ → Vec Ideal S1024x1024 .f32) : ℕ → Vec Ideal S1024x256 .f32
  | 0 => Cert.KernelIdeal.Gen.k0_pay1 (F := Ideal)
  | n + 1 => Cert.KernelIdeal.Gen.k0_pay2 (F := Ideal) (v6 n) (v8 n) (accAfter v6 v8 n)

/-- After n steps the accumulator holds the sum of the first n block products. -/
theorem accAfter_apply (v6 : ℕ → Vec Ideal S1024x256 .f32) (v8 : ℕ → Vec Ideal S1024x1024 .f32) (n : ℕ)
    (p : Fin 1024) (q : Fin 256) :
    accAfter v6 v8 n (ix2 p q) = ∑ m ∈ Finset.range n, ∑ c : Fin 1024, v8 m (ix2 c p) * v6 m (ix2 c q) := by
  induction n with
  | zero => rw [Finset.sum_range_zero]; exact k0_pay1_apply _
  | succ n ih => rw [Finset.sum_range_succ, ← ih]; exact k0_pay2_apply _ _ _ p q

/-- Eight steps over the eight tiles of the contraction axis give the aggregation's block e. -/
theorem accAfter_eight (inc : Vec Ideal S8192x8192 .f32) (x : Vec Ideal S8192x256 .f32) (e : Fin 8)
    (v6 : ℕ → Vec Ideal S1024x256 .f32) (v8 : ℕ → Vec Ideal S1024x1024 .f32)
    (h8 : ∀ (n : Fin 8) (c p : Fin 1024), v8 n.val (ix2 c p)
      = inc (ix2 (⟨1024 * n.val + c.val, by omega⟩ : Fin 8192) (⟨1024 * e.val + p.val, by omega⟩ : Fin 8192)))
    (h6 : ∀ (n : Fin 8) (c : Fin 1024) (q : Fin 256), v6 n.val (ix2 c q)
      = x (ix2 (⟨1024 * n.val + c.val, by omega⟩ : Fin 8192) q))
    (p : Fin 1024) (q : Fin 256) :
    accAfter v6 v8 8 (ix2 p q) = aggSpec inc x (ix2 (⟨1024 * e.val + p.val, by omega⟩ : Fin 8192) q) := by
  rw [accAfter_apply, aggSpec_eq_sum_tileSum]
  refine Finset.sum_congr rfl fun m hm => ?_
  have hm8 : m < 8 := Finset.mem_range.mp hm
  rw [tileSum, dif_pos hm8]
  refine Finset.sum_congr rfl fun c _ => ?_
  rw [h8 ⟨m, hm8⟩ c p, h6 ⟨m, hm8⟩ c q]

/-- Block e of the aggregation: its rows 1024 e, …, 1024 e + 1023. -/
def aggBlock (inc : Vec Ideal S8192x8192 .f32) (x : Vec Ideal S8192x256 .f32) (e : Fin 8) : Vec Ideal S1024x256 .f32 :=
  fun j => aggSpec inc x (@ix2 8192 256 ⟨1024 * e.val + (j 0).val, by have := idx2_lt0 j; omega⟩ (j 1))

theorem aggBlock_ix2 (inc : Vec Ideal S8192x8192 .f32) (x : Vec Ideal S8192x256 .f32) (e : Fin 8)
    (p : Fin 1024) (q : Fin 256) :
    aggBlock inc x e (ix2 p q) = aggSpec inc x (ix2 (⟨1024 * e.val + p.val, by omega⟩ : Fin 8192) q) := rfl

/-- Eight steps over the eight tiles of the contraction axis give block e of the aggregation, as an equality of blocks. -/
theorem accAfter_eight_block (inc : Vec Ideal S8192x8192 .f32) (x : Vec Ideal S8192x256 .f32) (e : Fin 8)
    (v6 : ℕ → Vec Ideal S1024x256 .f32) (v8 : ℕ → Vec Ideal S1024x1024 .f32)
    (h8 : ∀ (n : Fin 8) (c p : Fin 1024), v8 n.val (ix2 c p)
      = inc (ix2 (⟨1024 * n.val + c.val, by omega⟩ : Fin 8192) (⟨1024 * e.val + p.val, by omega⟩ : Fin 8192)))
    (h6 : ∀ (n : Fin 8) (c : Fin 1024) (q : Fin 256), v6 n.val (ix2 c q)
      = x (ix2 (⟨1024 * n.val + c.val, by omega⟩ : Fin 8192) q)) :
    accAfter v6 v8 8 = aggBlock inc x e :=
  ext_1024x256 _ _ fun p q => accAfter_eight inc x e v6 v8 h8 h6 p q

end Cert.AggMath

end
-- ==== Proof.IdealValue.lean ====
/-
  The value of the kernel region at the extended reals: its result array ends holding incidenceᵀ · features.

  Each case's found pieces, read back, are one accumulation step: the accumulator becomes (what it held, or the
  zero block at the first row-tile) plus the product of the point's incidence block, transposed, with the 1024
  feature rows the body loads at the point's row offset. By induction along a column block the accumulator after
  row-tile n is the zero block with the first n + 1 tile products added; after the eighth this is block e of the
  aggregation, since the eight row-tiles partition the 8192 nodes and a finite sum over a partition is the sum of
  the parts' sums. The last row-tile copies it into the result window, which is then written back; these eight
  write-backs tile the result array, so the array ends holding the aggregation.
-/
import proofs.«149568_j10290741641935_1_alg».proof.Proof.IdealFrame
import proofs.«149568_j10290741641935_1_alg».proof.Proof.AggKernel
import Idealize.ShloMosaic.Lib.Pipeline.Value
import Idealize.ShloMosaic.Lib.ValueIdx

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Each case's pieces as one accumulation step -/
/-- The zero offsets, however spelt. -/
theorem hz : (![0, 0] : Fin 2 → Nat) = fun _ => 0 := funext fun a => by fin_cases a <;> rfl

/-- The 1024 rows of the feature matrix the body loads at a point: rows [1024·n, 1024·n + 1024). -/
def rowsAt (i : grid0.Coords) (x1 : Vec F S8192x256 .f32) : Vec F S1024x256 .f32 :=
  View.ld x1 (Rect.unit (s := S8192x256) (k0_off1 i) S1024x256.size (k0_off1_inb i))

/-- In the middle of a column block the accumulator becomes what it held plus this tile's product: the case's one
    covering store, its loads read through the whole buffers (the feature rows through the offset rectangle). -/
theorem accMid_eq (c : Dev nD) (i : grid0.Coords) (arg2 : Memref sig .tc .vmem S1024x1024 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : ¬atFirst i) (hc1 : ¬atLast i)
    (x0 : Vec F S1024x1024 .f32) (x1 : Vec F S8192x256 .f32) (xs : Vec F S1024x256 .f32) :
    accMid c i arg2 harg2 arg3 harg3 arg4 harg4 arg5 harg5 hc0 hc1 x0 x1 xs = k0_pay2 (rowsAt i x1) x0 xs := by
  unfold accMid
  rw [View.read_writes_eq_canon _ _ _ (accCoverMid c i arg2 harg2 arg3 harg3 arg4 harg4 arg5 harg5 hc0 hc1 x0 x1 xs)]
  unfold runMid
  dsimp only
  rw [View.canon_unit_zero hz]
  simp only [View.readAt_eq_ld, harg2.read_unread, harg3.read_unread, harg5.read_unread, View.ld_unit_zero (S := S1024x256) hz, View.ld_unit_zero (S := S1024x1024) hz]
  rfl

/-- At the first row-tile the accumulator is first overwritten with zeros and read back, so it becomes the zero
    block plus this tile's product. -/
theorem accFirst_eq (c : Dev nD) (i : grid0.Coords) (arg2 : Memref sig .tc .vmem S1024x1024 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : atFirst i) (hc1 : ¬atLast i)
    (x0 : Vec F S1024x1024 .f32) (x1 : Vec F S8192x256 .f32) :
    accFirst c i arg2 harg2 arg3 harg3 arg4 harg4 arg5 harg5 hc0 hc1 x0 x1 = k0_pay2 (rowsAt i x1) x0 k0_pay1 := by
  unfold accFirst
  rw [View.read_writes_eq_canon _ _ _ (accCoverFirst c i arg2 harg2 arg3 harg3 arg4 harg4 arg5 harg5 hc0 hc1 x0 x1)]
  unfold runFirst
  dsimp only
  sl_unfold_words
  rw [View.canon_cons_unit_zero (S := S1024x256) hz, View.readCov_unit_zero (S := S1024x256) _ hz]
  simp only [View.readAt_eq_ld, harg2.read_unread, harg3.read_unread, View.ld_unit_zero (S := S1024x1024) hz]
  rfl

/-- At the last row-tile the result window receives what the accumulator has just been given: the copy reads the
    accumulation step's own store back. -/
theorem outLast_eq (c : Dev nD) (i : grid0.Coords) (arg2 : Memref sig .tc .vmem S1024x1024 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : ¬atFirst i) (hc1 : atLast i)
    (x0 : Vec F S1024x1024 .f32) (x1 : Vec F S8192x256 .f32) (xs : Vec F S1024x256 .f32) :
    outLast c i arg2 harg2 arg3 harg3 arg4 harg4 arg5 harg5 hc0 hc1 x0 x1 xs = k0_pay2 (rowsAt i x1) x0 xs := by
  unfold outLast
  rw [View.read_writes_eq_canon _ _ _ (outCoverLast c i arg2 harg2 arg3 harg3 arg4 harg4 arg5 harg5 hc0 hc1 x0 x1 xs)]
  unfold runLast
  dsimp only
  sl_unfold_words
  rw [View.canon_unit_zero hz, View.readCov_unit_zero (S := S1024x256) _ hz]
  simp only [View.readAt_eq_ld, harg2.read_unread, harg3.read_unread, harg5.read_unread, View.ld_unit_zero (S := S1024x256) hz, View.ld_unit_zero (S := S1024x1024) hz]
  rfl

/-- And the accumulator itself holds that same value. -/
theorem accLast_eq (c : Dev nD) (i : grid0.Coords) (arg2 : Memref sig .tc .vmem S1024x1024 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : ¬atFirst i) (hc1 : atLast i)
    (x0 : Vec F S1024x1024 .f32) (x1 : Vec F S8192x256 .f32) (xs : Vec F S1024x256 .f32) :
    accLast c i arg2 harg2 arg3 harg3 arg4 harg4 arg5 harg5 hc0 hc1 x0 x1 xs = k0_pay2 (rowsAt i x1) x0 xs := by
  unfold accLast
  rw [View.read_writes_eq_canon _ _ _ (accCoverLast c i arg2 harg2 arg3 harg3 arg4 harg4 arg5 harg5 hc0 hc1 x0 x1 xs)]
  unfold runLast
  dsimp only
  sl_unfold_words
  rw [View.canon_unit_zero hz]
  simp only [View.readAt_eq_ld, harg2.read_unread, harg3.read_unread, harg5.read_unread, View.ld_unit_zero (S := S1024x256) hz, View.ld_unit_zero (S := S1024x1024) hz]
  rfl

/-- The loaded rows at an index: row `cc` of the load is row (offset + cc) of the matrix. -/
theorem rowsAt_apply (i : grid0.Coords) (x1 : Vec F S8192x256 .f32) (cc : Fin 1024) (q : Fin 256) (r : Fin 8192) (hr : r.val = k0_off1 i 0 + cc.val) (h1 : k0_off1 i 1 = 0) :
    rowsAt i x1 (ValueIdx.ix2 cc q) = x1 (ValueIdx.ix2 r q) := by
  unfold rowsAt
  show x1 _ = x1 _
  congr 1
  funext a
  apply Fin.ext
  match a with
  | ⟨0, _⟩ => show k0_off1 i 0 + 1 * cc.val = r.val; omega
  | ⟨1, _⟩ => show k0_off1 i 1 + 1 * q.val = q.val; omega

/-! ## Index facts over the grid, decided once -/

variable (m : (ℓ : Loc nD τ sig) → Buf (Elt F) ℓ) (ρ : Dev nD → PrngReg)

theorem cfgN : cfg0.N = 64 := N_0

/-- Point (e, n) of the grid has number 8·e + n: its incidence block is (n, e), its result block e, and the body
    loads the feature rows from 1024·n. -/
theorem inc_index : ∀ t : Fin cfg0.N, win0_0.index t 0 = t.val % 8 ∧ win0_0.index t 1 = t.val / 8 :=
  (by decide +kernel : ∀ t : Fin grid0.N, win0_0.index t 0 = t.val % 8 ∧ win0_0.index t 1 = t.val / 8)
theorem feat_index : ∀ t : Fin cfg0.N, win0_1.index t 0 = 0 ∧ win0_1.index t 1 = 0 :=
  (by decide +kernel : ∀ t : Fin grid0.N, win0_1.index t 0 = 0 ∧ win0_1.index t 1 = 0)
theorem out_index : ∀ t : Fin cfg0.N, win0_2.index t 0 = t.val / 8 ∧ win0_2.index t 1 = 0 :=
  (by decide +kernel : ∀ t : Fin grid0.N, win0_2.index t 0 = t.val / 8 ∧ win0_2.index t 1 = 0)
theorem row_offset : ∀ t : Fin cfg0.N, k0_off1 (grid0.coords t) 0 = 1024 * (t.val % 8) ∧ k0_off1 (grid0.coords t) 1 = 0 :=
  (by decide +kernel : ∀ t : Fin grid0.N, k0_off1 (grid0.coords t) 0 = 1024 * (t.val % 8) ∧ k0_off1 (grid0.coords t) 1 = 0)

/-- The point of column block `e` and row-tile `n`. -/
def pt (e : Fin 8) (n : ℕ) (h : n < 8) : Fin cfg0.N := ⟨8 * e.val + n, by rw [cfgN]; omega⟩

theorem leftAt_congr (c : Dev nD) {k k' : ℕ} (hk : k < cfg0.N) (hk' : k' < cfg0.N) (e : k = k') :
    leftAt m c k hk = leftAt m c k' hk' := by subst e; rfl

/-! ## At the extended reals: the accumulator along a column block -/

section AtIdeal

open Cert.AggMath Idealize.ShloMosaic.ValueIdx

variable (m : (ℓ : Loc nD τ sig) → Buf (Elt Ideal) ℓ) (ρ : Dev nD → PrngReg)

theorem out_extent : ∀ t : Fin cfg0.N, win0_2.xsize (grid0.coords t) 0 = 1024 ∧ win0_2.xsize (grid0.coords t) 1 = 256 :=
  (by decide +kernel : ∀ t : Fin grid0.N, win0_2.xsize (grid0.coords t) 0 = 1024 ∧ win0_2.xsize (grid0.coords t) 1 = 256)

/-- The point of column block `e` at row-tile `n` (taken mod 8, so that it is a point for every `n`). -/
def tilePt (e : Fin 8) (n : ℕ) : Fin cfg0.N := ⟨8 * e.val + n % 8, by rw [cfgN]; omega⟩

/-- The incidence block and the feature rows the body reads at row-tile `n` of column block `e`. -/
def incTile (c : Dev nD) (e : Fin 8) (n : ℕ) : Vec Ideal S1024x1024 .f32 := blockAt m c 0 (tilePt e n)
def featTile (c : Dev nD) (e : Fin 8) (n : ℕ) : Vec Ideal S1024x256 .f32 :=
  rowsAt (grid0.coords (tilePt e n)) (blockAt m c 1 (tilePt e n))

/-- After row-tile `n` of column block `e` the accumulator holds the zero block with the first n + 1 tile
    products added in order: by induction on the row-tile, each case's pieces read back as one accumulation step. -/
theorem acc_along (c : Dev nD) (e : Fin 8) : ∀ n : ℕ, n < 8 →
    (leftAt m c (tilePt e n).val (tilePt e n).isLt).2 = accAfter (featTile m c e) (incTile m c e) (n + 1)
  | 0, _ => by
    have hv : (tilePt e 0).val = 8 * e.val := by show 8 * e.val + 0 % 8 = _; omega
    rw [leftAt_first m c (tilePt e 0) (by rw [hv]; omega) (by rw [hv]; omega)]
    dsimp only
    rw [accFirst_eq]
    rfl
  | n + 1, h => by
    have hv : (tilePt e (n + 1)).val = 8 * e.val + (n + 1) := by show 8 * e.val + (n + 1) % 8 = _; omega
    have hprev : (tilePt e (n + 1)).val - 1 = (tilePt e n).val := by rw [hv]; show _ = 8 * e.val + n % 8; omega
    have ih := acc_along c e n (by omega)
    by_cases h7 : n + 1 = 7
    · rw [leftAt_last m c (tilePt e (n + 1)) (by rw [hv]; omega) (by rw [hv]; omega)]
      dsimp only
      rw [accLast_eq, leftAt_congr m c _ (tilePt e n).isLt hprev, ih]
      rfl
    · rw [leftAt_mid m c (tilePt e (n + 1)) (by rw [hv]; omega) (by rw [hv]; omega)]
      dsimp only
      rw [accMid_eq, leftAt_congr m c _ (tilePt e n).isLt hprev, ih]
      rfl

/-- The incidence block of point (e, n) is rows [1024 n, 1024 n + 1024) × columns [1024 e, 1024 e + 1024). -/
theorem inc_tile_eq (c : Dev nD) (e : Fin 8) (n : Fin 8) (cc p : Fin 1024) :
    incTile m c e n.val (ix2 cc p)
      = entryAt m c main_arg1 (ix2 (⟨1024 * n.val + cc.val, by omega⟩ : Fin 8192) (⟨1024 * e.val + p.val, by omega⟩ : Fin 8192)) := by
  have hv : (tilePt e n.val).val = 8 * e.val + n.val := by show 8 * e.val + n.val % 8 = _; omega
  obtain ⟨i0, i1⟩ := inc_index (tilePt e n.val)
  unfold incTile blockAt
  rw [View.read_apply]
  show entryAt m c main_arg1 _ = entryAt m c main_arg1 _
  congr 1
  funext a
  apply Fin.ext
  match a with
  | ⟨0, _⟩ => show win0_0.index (tilePt e n.val) 0 * 1024 + 1 * cc.val = 1024 * n.val + cc.val; rw [i0, hv]; omega
  | ⟨1, _⟩ => show win0_0.index (tilePt e n.val) 1 * 1024 + 1 * p.val = 1024 * e.val + p.val; rw [i1, hv]; omega

/-- The rows the body loads at point (e, n) are rows [1024 n, 1024 n + 1024) of the feature matrix. -/
theorem feat_tile_eq (c : Dev nD) (e : Fin 8) (n : Fin 8) (cc : Fin 1024) (q : Fin 256) :
    featTile m c e n.val (ix2 cc q) = entryAt m c main_v33 (ix2 (⟨1024 * n.val + cc.val, by omega⟩ : Fin 8192) q) := by
  have hv : (tilePt e n.val).val = 8 * e.val + n.val := by show 8 * e.val + n.val % 8 = _; omega
  obtain ⟨o0, o1⟩ := row_offset (tilePt e n.val)
  obtain ⟨f0, f1⟩ := feat_index (tilePt e n.val)
  unfold featTile
  rw [rowsAt_apply _ _ cc q (⟨1024 * n.val + cc.val, by omega⟩ : Fin 8192) (by rw [o0, hv]; show 1024 * n.val + cc.val = 1024 * ((8 * e.val + n.val) % 8) + cc.val; omega) o1]
  unfold blockAt
  rw [View.read_apply]
  show entryAt m c main_v33 _ = entryAt m c main_v33 _
  congr 1
  funext a
  apply Fin.ext
  match a with
  | ⟨0, _⟩ => show win0_1.index (tilePt e n.val) 0 * 8192 + 1 * (1024 * n.val + cc.val) = 1024 * n.val + cc.val; rw [f0]; omega
  | ⟨1, _⟩ => show win0_1.index (tilePt e n.val) 1 * 256 + 1 * q.val = q.val; rw [f1]; omega

/-- At the last row-tile the result window's buffer receives block `e` of the aggregation. -/
theorem out_at_last (c : Dev nD) (e : Fin 8) :
    (leftAt m c (tilePt e 7).val (tilePt e 7).isLt).1 = aggBlock (entryAt m c main_arg1) (entryAt m c main_v33) e := by
  have hv : (tilePt e 7).val = 8 * e.val + 7 := by show 8 * e.val + 7 % 8 = _; omega
  have hprev : (tilePt e 7).val - 1 = (tilePt e 6).val := by rw [hv]; show _ = 8 * e.val + 6 % 8; omega
  rw [leftAt_last m c (tilePt e 7) (by rw [hv]; omega) (by rw [hv]; omega)]
  dsimp only
  rw [outLast_eq, leftAt_congr m c _ (tilePt e 6).isLt hprev, acc_along m c e 6 (by omega)]
  exact accAfter_eight_block _ _ e (featTile m c e) (incTile m c e) (inc_tile_eq m c e) (feat_tile_eq m c e)

/-- What the write-back at the last row-tile of column block `e` moves is the aggregation read through that block. -/
theorem flushed_at (c : Dev nD) (e : Fin 8) :
    (dats m 0 c).flushed 2 (tilePt e 7)
      = ((cfg0.win 2).blk (tilePt e 7)).view.read (Elt Ideal) (aggSpec (entryAt m c main_arg1) (entryAt m c main_v33)) := by
  have hv : (tilePt e 7).val = 8 * e.val + 7 := by show 8 * e.val + 7 % 8 = _; omega
  obtain ⟨o0, o1⟩ := out_index (tilePt e 7)
  show (cfg0.win 2).cut (grid0.coords (tilePt e 7)) ((dats m 0 c).after 2 (tilePt e 7)) = _
  rw [after_out, out_at_last m c e]
  funext j
  rw [View.read_apply]
  show aggSpec _ _ _ = aggSpec _ _ _
  congr 1
  funext a
  apply Fin.ext
  match a with
  | ⟨0, _⟩ => show 1024 * e.val + (j 0).val = win0_2.index (tilePt e 7) 0 * 1024 + 1 * (j 0).val; rw [o0, hv]; omega
  | ⟨1, _⟩ => show (j 1).val = win0_2.index (tilePt e 7) 1 * 256 + 1 * (j 1).val; rw [o1]; omega

/-- Every write-back is one of those: the result window is written back exactly at the last row-tiles. -/
theorem flushed_block (c : Dev nD) (t : Fin cfg0.N) (hf : (cfg0.win 2).flush t = true) :
    (dats m 0 c).flushed 2 t
      = ((cfg0.win 2).blk t).view.read (Elt Ideal) (aggSpec (entryAt m c main_arg1) (entryAt m c main_v33)) := by
  have h7 : t.val % 8 = 7 := (flush0_2 t).mp hf
  have hN : t.val < 64 := lt_of_lt_of_eq t.isLt cfgN
  obtain ⟨e, rfl⟩ : ∃ e : Fin 8, t = tilePt e 7 :=
    ⟨⟨t.val / 8, by omega⟩, Fin.ext (by show t.val = 8 * (t.val / 8) + 7 % 8; omega)⟩
  exact flushed_at m c e

/-- Row r of the result lies in the block written back at the last row-tile of column block r / 1024. -/
theorem out_cover (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : Nat) < 8192 := (i 0).isLt
  have h1 : (i 1 : Nat) < 256 := (i 1).isLt
  have hlt : (i 0 : Nat) / 1024 < 8 := by omega
  refine ⟨tilePt ⟨(i 0 : Nat) / 1024, hlt⟩ 7, (flush0_2 _).mpr (by show (8 * ((i 0 : Nat) / 1024) + 7 % 8) % 8 = 7; omega), ?_⟩
  have hv : (tilePt ⟨(i 0 : Nat) / 1024, hlt⟩ 7).val = 8 * ((i 0 : Nat) / 1024) + 7 := by show 8 * ((i 0 : Nat) / 1024) + 7 % 8 = _; omega
  obtain ⟨o0, o1⟩ := out_index (tilePt ⟨(i 0 : Nat) / 1024, hlt⟩ 7)
  obtain ⟨x0, x1⟩ := out_extent (tilePt ⟨(i 0 : Nat) / 1024, hlt⟩ 7)
  show i ∈ ((View.whole main_v38).slice (win0_2.rect (tilePt ⟨(i 0 : Nat) / 1024, hlt⟩ 7))).set
  rw [View.set_slice_whole, Rect.mem_set_unit]
  intro a
  match a with
  | ⟨0, _⟩ =>
    show win0_2.index (tilePt ⟨(i 0 : Nat) / 1024, hlt⟩ 7) 0 * win0_2.size 0 ≤ (i 0 : Nat) ∧ (i 0 : Nat) < win0_2.index (tilePt ⟨(i 0 : Nat) / 1024, hlt⟩ 7) 0 * win0_2.size 0 + win0_2.xsize (grid0.coords (tilePt ⟨(i 0 : Nat) / 1024, hlt⟩ 7)) 0
    rw [o0, x0, hv, show win0_2.size 0 = 1024 from rfl]; omega
  | ⟨1, _⟩ =>
    show win0_2.index (tilePt ⟨(i 0 : Nat) / 1024, hlt⟩ 7) 1 * win0_2.size 1 ≤ (i 1 : Nat) ∧ (i 1 : Nat) < win0_2.index (tilePt ⟨(i 0 : Nat) / 1024, hlt⟩ 7) 1 * win0_2.size 1 + win0_2.xsize (grid0.coords (tilePt ⟨(i 0 : Nat) / 1024, hlt⟩ 7)) 1
    rw [o1, x1, show win0_2.size 1 = 256 from rfl]; omega

/-- THE REGION'S VALUE: its result array ends holding the aggregation incidenceᵀ · features, every row the inner
    product over all 8192 nodes, of the incidence matrix as launched and the features as the region found them. -/
theorem agg_final (c : Dev nD) :
    (dats m 0 c).arrAt 2 cfg0.N = aggSpec (entryAt m c main_arg1) (entryAt m c main_v33) :=
  (dats m 0 c).arrAt_eq_of_cover 2 _ (flushed_block m c) (out_cover c)

end AtIdeal

end Cert.KernelIdeal.Around

end
-- ==== Proof.AggRef.lean ====
/-
  The arithmetic of the aggregation incidenceᵀ · x at the ideal values: the reference's side. The reference transposes
  the incidence matrix and then multiplies, contracting the transposed matrix's columns with the rows of x; read at
  (e, d) that is Σ_r incidence[r, e] · x[r, d], the aggregation.
-/
import proofs.«149568_j10290741641935_1_alg».proof.Proof.Gen.ReferenceIdeal
import proofs.«149568_j10290741641935_1_alg».proof.Proof.AggKernel
import Idealize.ShloMosaic.Lib.ValueIdx
import Idealize.ShloMosaic.Lib.ValueLayout
import Idealize.ShloMosaic.PureOps.Ideal.Laws

noncomputable section

open scoped BigOperators

namespace Cert.AggMath

open Idealize.ShloMosaic Idealize.ShloMosaic.ValueIdx
open Cert.KernelIdeal (S8192x8192 S8192x256 S1024x1024 S1024x256)

/-! ## The reference: a transpose, then a product -/

/-- The reference's two operations — transpose the incidence matrix, then contract the transposed matrix's columns with
    the rows of x — read at (e, d). -/
theorem ref_agg_apply (inc : Vec Ideal S8192x8192 .f32) (x : Vec Ideal S8192x256 .f32) (e : Fin 8192) (d : Fin 256) :
    Host.dotGeneral (F := Ideal) (φ₁ := .f32) (φ₂ := .f32) Cert.ReferenceIdeal.dot_S8192x8192_S8192x256_S8192x256_1_0_0_1_n_n none
      (transpose Cert.ReferenceIdeal.S8192x8192 [1, 0] inc Cert.ReferenceIdeal.Gen.transposes_S8192x8192_S8192x8192_1_0) x
      (ix2 e d)
      = ∑ r : Fin 8192, inc (ix2 r e) * x (ix2 r d) := by
  simp only [Host.dotGeneral]
  rw [Ideal.dotGeneral_apply, ← Equiv.sum_comp (contrEquiv1 Cert.ReferenceIdeal.dot_S8192x8192_S8192x256_S8192x256_1_0_0_1_n_n 8192 rfl rfl).symm]
  refine Finset.sum_congr rfl fun k _ => ?_
  have hk := contrEquiv1_symm_val Cert.ReferenceIdeal.dot_S8192x8192_S8192x256_S8192x256_1_0_0_1_n_n 8192 rfl rfl k
  have el : Cert.ReferenceIdeal.dot_S8192x8192_S8192x256_S8192x256_1_0_0_1_n_n.lhsIdx (ix2 e d) ((contrEquiv1 Cert.ReferenceIdeal.dot_S8192x8192_S8192x256_S8192x256_1_0_0_1_n_n 8192 rfl rfl).symm k) = ix2 e k := by
    funext a; apply Fin.ext
    match a with
    | ⟨0, _⟩ => simp [DotDims.lhsIdx, Cert.ReferenceIdeal.dot_S8192x8192_S8192x256_S8192x256_1_0_0_1_n_n]; rfl
    | ⟨1, _⟩ => simp [DotDims.lhsIdx, Cert.ReferenceIdeal.dot_S8192x8192_S8192x256_S8192x256_1_0_0_1_n_n]; exact hk
  have er : Cert.ReferenceIdeal.dot_S8192x8192_S8192x256_S8192x256_1_0_0_1_n_n.rhsIdx (ix2 e d) ((contrEquiv1 Cert.ReferenceIdeal.dot_S8192x8192_S8192x256_S8192x256_1_0_0_1_n_n 8192 rfl rfl).symm k) = ix2 k d := by
    funext a; apply Fin.ext
    match a with
    | ⟨0, _⟩ => simp [DotDims.rhsIdx, Cert.ReferenceIdeal.dot_S8192x8192_S8192x256_S8192x256_1_0_0_1_n_n]; exact hk
    | ⟨1, _⟩ => simp [DotDims.rhsIdx, Cert.ReferenceIdeal.dot_S8192x8192_S8192x256_S8192x256_1_0_0_1_n_n]; rfl
  rw [el, er, transpose_ix2_apply]

/-- The reference's two operations compute the aggregation. -/
theorem ref_agg_eq (inc : Vec Ideal S8192x8192 .f32) (x : Vec Ideal S8192x256 .f32) :
    Host.dotGeneral (F := Ideal) (φ₁ := .f32) (φ₂ := .f32) Cert.ReferenceIdeal.dot_S8192x8192_S8192x256_S8192x256_1_0_0_1_n_n none
      (transpose Cert.ReferenceIdeal.S8192x8192 [1, 0] inc Cert.ReferenceIdeal.Gen.transposes_S8192x8192_S8192x8192_1_0) x
      = aggSpec inc x :=
  ext_8192x256 _ _ fun e d => ref_agg_apply inc x e d

end Cert.AggMath

end
-- ==== Proof.HostAgree.lean ====
/-
  The reference program as three pieces, and the first piece against the kernel program.

  The reference runs 301 host operations. The first 47 are, operation for operation and buffer name for
  buffer name, the 47 the kernel program runs before its kernel; the next two are the transpose of the
  incidence matrix and its product with the node features, which stand where the kernel program launches
  the kernel; the last 252 are the operations the kernel program runs after the kernel, on buffers whose
  numbers are shifted by one. Here: the cut of the reference's line into the three pieces and what a run of
  the whole line is in terms of runs of the pieces; which buffers the first two pieces leave alone; what the
  middle piece computes; and that the first piece computes, in the buffer of the node features and in the
  buffer of their column means, the same functions of the same seven arguments as the kernel program's
  first 47 operations — the operations are the same functions applied to equal inputs.
-/
import proofs.«149568_j10290741641935_1_alg».proof.Proof.Gen.KernelIdeal.Launch
import proofs.«149568_j10290741641935_1_alg».proof.Proof.Gen.ReferenceIdeal.Run

noncomputable section

namespace Cert.HostAgree

open Idealize.ShloMosaic Idealize.ShloMosaic.StableHlo Idealize.SL.Sem

variable {F : FTy → Type} [FloatOps F]

/-! ## Lines of host operations, cut in pieces -/

/-- Running two lines one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- A list is its first `m` elements, then the next `n`, then the rest. -/
theorem list_split3 {α : Type} (l : List α) (m n : Nat) :
    l = l.take m ++ (l.drop m).take n ++ l.drop (m + n) := by
  rw [List.append_assoc, ← List.drop_drop, List.take_append_drop, List.take_append_drop]

/-- A line run from `V` is its first `m` operations, then the next `n`, then the rest, each run from what
    the piece before leaves. -/
theorem after_split3 {τ : Topo} {sig : RefSig} {Val : EltTy → Type} (l : List (HloOp τ sig Val)) (m n : Nat) (V : Valuation τ sig Val) :
    after l V = after (l.drop (m + n)) (after ((l.drop m).take n) (after (l.take m) V)) :=
  (congrArg (fun k => after k V) (list_split3 l m n)).trans (by rw [after_append, after_append])

/-- The reference's 301 operations: the 47 that the kernel program also runs first, the transpose and the
    product that stand where the kernel program launches its kernel, and the 252 that both run last. -/
theorem ref_split :
    (ReferenceIdeal.Value.ops : List (HloOp ReferenceIdeal.τ ReferenceIdeal.sig (Elt F)))
      = ReferenceIdeal.Value.ops.take 47 ++ (ReferenceIdeal.Value.ops.drop 47).take 2 ++ ReferenceIdeal.Value.ops.drop 49 :=
  list_split3 _ 47 2

/-- The reference's run, piece by piece. -/
theorem after_ref_ops (V : Valuation ReferenceIdeal.τ ReferenceIdeal.sig (Elt F)) :
    after ReferenceIdeal.Value.ops V
      = after (ReferenceIdeal.Value.ops.drop 49) (after ((ReferenceIdeal.Value.ops.drop 47).take 2) (after (ReferenceIdeal.Value.ops.take 47) V)) :=
  after_split3 _ 47 2 V

/-- The middle piece: the transpose of the incidence matrix, then its product with the node features. -/
theorem ref_middle :
    ((ReferenceIdeal.Value.ops : List (HloOp ReferenceIdeal.τ ReferenceIdeal.sig (Elt F))).drop 47).take 2
      = [ unary ReferenceIdeal.main_arg1 ReferenceIdeal.main_v38
            ((transpose ReferenceIdeal.S8192x8192 [1, 0] · ReferenceIdeal.Gen.transposes_S8192x8192_S8192x8192_1_0) :
              (⟨ReferenceIdeal.S8192x8192, .f32⟩ : BufTy).Contents (Elt F) → (⟨ReferenceIdeal.S8192x8192, .f32⟩ : BufTy).Contents (Elt F)),
          binary ReferenceIdeal.main_v38 ReferenceIdeal.main_v33 ReferenceIdeal.main_v39
            ((fun l r => Host.dotGeneral ReferenceIdeal.dot_S8192x8192_S8192x256_S8192x256_1_0_0_1_n_n none l r) :
              (⟨ReferenceIdeal.S8192x8192, .f32⟩ : BufTy).Contents (Elt F) → (⟨ReferenceIdeal.S8192x256, .f32⟩ : BufTy).Contents (Elt F)
                → (⟨ReferenceIdeal.S8192x256, .f32⟩ : BufTy).Contents (Elt F)) ] :=
  rfl

/-! ## What the first pieces leave alone -/

/-- The buffers the reference's first 47 operations write. -/
abbrev W47 : List (Ref ReferenceIdeal.sig .tc) :=
  [
    ReferenceIdeal.main_cst, ReferenceIdeal.main_v0, ReferenceIdeal.main_v1, ReferenceIdeal.main_cst_0, ReferenceIdeal.main_v2, ReferenceIdeal.main_v3,
    ReferenceIdeal.main_v4, ReferenceIdeal.main_v5, ReferenceIdeal.main_v6, ReferenceIdeal.main_cst_1, ReferenceIdeal.main_v7, ReferenceIdeal.main_v8,
    ReferenceIdeal.main_cst_2, ReferenceIdeal.main_v9, ReferenceIdeal.main_v10, ReferenceIdeal.main_v11, ReferenceIdeal.main_v12, ReferenceIdeal.main_cst_3,
    ReferenceIdeal.main_v13, ReferenceIdeal.main_v14, ReferenceIdeal.main_v15, ReferenceIdeal.main_v16, ReferenceIdeal.main_v17, ReferenceIdeal.main_v18,
    ReferenceIdeal.main_v19, ReferenceIdeal.main_v20, ReferenceIdeal.main_v21, ReferenceIdeal.main_v22, ReferenceIdeal.main_v23, ReferenceIdeal.main_v24,
    ReferenceIdeal.main_v25, ReferenceIdeal.main_v26, ReferenceIdeal.main_v27, ReferenceIdeal.main_call0_cst, ReferenceIdeal.main_call0_v0, ReferenceIdeal.main_v28,
    ReferenceIdeal.main_v29, ReferenceIdeal.main_v30, ReferenceIdeal.main_v31, ReferenceIdeal.main_v32, ReferenceIdeal.main_v33, ReferenceIdeal.main_cst_4,
    ReferenceIdeal.main_v34, ReferenceIdeal.main_v35, ReferenceIdeal.main_cst_5, ReferenceIdeal.main_v36, ReferenceIdeal.main_v37 ]

/-- The buffers the transpose and the product write. -/
abbrev Wmid : List (Ref ReferenceIdeal.sig .tc) := [ReferenceIdeal.main_v38, ReferenceIdeal.main_v39]

set_option maxRecDepth 8192 in
set_option maxHeartbeats 120000000 in
theorem take47_writes :
    ((ReferenceIdeal.Value.ops : List (HloOp ReferenceIdeal.τ ReferenceIdeal.sig (Elt F))).take 47).Forall fun op =>
      op.writes ⊆ (W47.map (Proc.devRef (τ := ReferenceIdeal.τ) .tc)).toFinset := by
  delta ReferenceIdeal.Value.ops
  simp only [List.take_succ_cons, List.take_zero, List.Forall]
  repeat' apply And.intro
  all_goals (simp only [nullary_writes, unary_writes, binary_writes, ternary_writes, Finset.singleton_subset_iff, List.mem_toFinset]
             exact List.mem_map_of_mem (by decide))

theorem middle_writes :
    (((ReferenceIdeal.Value.ops : List (HloOp ReferenceIdeal.τ ReferenceIdeal.sig (Elt F))).drop 47).take 2).Forall fun op =>
      op.writes ⊆ (Wmid.map (Proc.devRef (τ := ReferenceIdeal.τ) .tc)).toFinset := by
  rw [ref_middle]
  simp only [List.Forall]
  repeat' apply And.intro
  all_goals (simp only [nullary_writes, unary_writes, binary_writes, ternary_writes, Finset.singleton_subset_iff, List.mem_toFinset]
             exact List.mem_map_of_mem (by decide))

/-- A buffer the first 47 operations do not write keeps its contents through them. -/
theorem take47_keep (V : Valuation ReferenceIdeal.τ ReferenceIdeal.sig (Elt F)) (r : Ref ReferenceIdeal.sig .tc) (h : r ∉ W47) :
    after (ReferenceIdeal.Value.ops.take 47) V (Proc.devRef .tc r) = V (Proc.devRef .tc r) :=
  after_of_writes_sub _ V take47_writes h

/-- A buffer that is neither the transpose nor the product keeps its contents through the two. -/
theorem middle_keep (V : Valuation ReferenceIdeal.τ ReferenceIdeal.sig (Elt F)) (r : Ref ReferenceIdeal.sig .tc) (h : r ∉ Wmid) :
    after ((ReferenceIdeal.Value.ops.drop 47).take 2) V (Proc.devRef .tc r) = V (Proc.devRef .tc r) :=
  after_of_writes_sub _ V middle_writes h

/-- The first 49 operations are the first 47 and the middle two. -/
theorem take49_eq :
    (ReferenceIdeal.Value.ops : List (HloOp ReferenceIdeal.τ ReferenceIdeal.sig (Elt F))).take 49
      = ReferenceIdeal.Value.ops.take 47 ++ (ReferenceIdeal.Value.ops.drop 47).take 2 := by
  rw [show (49 : Nat) = 47 + 2 from rfl, List.take_add]

/-- A buffer none of the first 49 operations writes keeps its contents through them. -/
theorem take49_keep (V : Valuation ReferenceIdeal.τ ReferenceIdeal.sig (Elt F)) (r : Ref ReferenceIdeal.sig .tc)
    (h47 : r ∉ W47) (hmid : r ∉ Wmid) :
    after (ReferenceIdeal.Value.ops.take 49) V (Proc.devRef .tc r) = V (Proc.devRef .tc r) := by
  rw [take49_eq, after_append, middle_keep _ r hmid, take47_keep V r h47]

/-- What the two middle operations leave in the product's buffer: the transposed incidence matrix times the
    node features, both read from the contents the two start from. -/
theorem middle_v39 (V : Valuation ReferenceIdeal.τ ReferenceIdeal.sig (Elt F)) :
    after ((ReferenceIdeal.Value.ops.drop 47).take 2) V (Proc.devRef .tc ReferenceIdeal.main_v39)
      = Host.dotGeneral ReferenceIdeal.dot_S8192x8192_S8192x256_S8192x256_1_0_0_1_n_n none
          (transpose ReferenceIdeal.S8192x8192 [1, 0] (V (Proc.devRef .tc ReferenceIdeal.main_arg1))
            ReferenceIdeal.Gen.transposes_S8192x8192_S8192x8192_1_0)
          (V (Proc.devRef .tc ReferenceIdeal.main_v33)) := by
  rw [ref_middle]
  after_results_simp <;> rfl

/-! ## The first 47 operations

The two programs run the same 47 operations first, on buffers of the same names: the same functions of
the same seven arguments. -/
set_option maxRecDepth 8192 in
set_option maxHeartbeats 120000000 in
theorem earlier_agree_v33 (Wk : Valuation KernelIdeal.τ KernelIdeal.sig (Elt F)) (Wr : Valuation ReferenceIdeal.τ ReferenceIdeal.sig (Elt F))
    (h0 : Wr (Proc.devRef .tc ReferenceIdeal.main_arg0) = Wk (Proc.devRef .tc KernelIdeal.main_arg0))
    (h4 : Wr (Proc.devRef .tc ReferenceIdeal.main_arg4) = Wk (Proc.devRef .tc KernelIdeal.main_arg4))
    (h5 : Wr (Proc.devRef .tc ReferenceIdeal.main_arg5) = Wk (Proc.devRef .tc KernelIdeal.main_arg5))
    (h6 : Wr (Proc.devRef .tc ReferenceIdeal.main_arg6) = Wk (Proc.devRef .tc KernelIdeal.main_arg6))
    (h7 : Wr (Proc.devRef .tc ReferenceIdeal.main_arg7) = Wk (Proc.devRef .tc KernelIdeal.main_arg7))
    (h16 : Wr (Proc.devRef .tc ReferenceIdeal.main_arg16) = Wk (Proc.devRef .tc KernelIdeal.main_arg16))
    (h17 : Wr (Proc.devRef .tc ReferenceIdeal.main_arg17) = Wk (Proc.devRef .tc KernelIdeal.main_arg17)) :
    after (ReferenceIdeal.Value.ops.take 47) Wr (Proc.devRef .tc ReferenceIdeal.main_v33)
      = after (List.flatten [KernelIdeal.Gen.hostOps0, KernelIdeal.Gen.hostOps0_1, KernelIdeal.Gen.hostOps0_2]) Wk (Proc.devRef .tc KernelIdeal.main_v33) := by
  delta ReferenceIdeal.Value.ops KernelIdeal.Gen.hostOps0 KernelIdeal.Gen.hostOps0_1 KernelIdeal.Gen.hostOps0_2
  simp only [List.take_succ_cons, List.take_zero,
    List.flatten_cons, List.flatten_nil, List.append_nil, List.cons_append, List.nil_append]
  after_results_simp
  simp only [h0, h4, h5, h6, h7, h16, h17]
  rfl

set_option maxRecDepth 8192 in
set_option maxHeartbeats 120000000 in
theorem earlier_agree_v37 (Wk : Valuation KernelIdeal.τ KernelIdeal.sig (Elt F)) (Wr : Valuation ReferenceIdeal.τ ReferenceIdeal.sig (Elt F))
    (h0 : Wr (Proc.devRef .tc ReferenceIdeal.main_arg0) = Wk (Proc.devRef .tc KernelIdeal.main_arg0))
    (h4 : Wr (Proc.devRef .tc ReferenceIdeal.main_arg4) = Wk (Proc.devRef .tc KernelIdeal.main_arg4))
    (h5 : Wr (Proc.devRef .tc ReferenceIdeal.main_arg5) = Wk (Proc.devRef .tc KernelIdeal.main_arg5))
    (h6 : Wr (Proc.devRef .tc ReferenceIdeal.main_arg6) = Wk (Proc.devRef .tc KernelIdeal.main_arg6))
    (h7 : Wr (Proc.devRef .tc ReferenceIdeal.main_arg7) = Wk (Proc.devRef .tc KernelIdeal.main_arg7))
    (h16 : Wr (Proc.devRef .tc ReferenceIdeal.main_arg16) = Wk (Proc.devRef .tc KernelIdeal.main_arg16))
    (h17 : Wr (Proc.devRef .tc ReferenceIdeal.main_arg17) = Wk (Proc.devRef .tc KernelIdeal.main_arg17)) :
    after (ReferenceIdeal.Value.ops.take 47) Wr (Proc.devRef .tc ReferenceIdeal.main_v37)
      = after (List.flatten [KernelIdeal.Gen.hostOps0, KernelIdeal.Gen.hostOps0_1, KernelIdeal.Gen.hostOps0_2]) Wk (Proc.devRef .tc KernelIdeal.main_v37) := by
  delta ReferenceIdeal.Value.ops KernelIdeal.Gen.hostOps0 KernelIdeal.Gen.hostOps0_1 KernelIdeal.Gen.hostOps0_2
  simp only [List.take_succ_cons, List.take_zero,
    List.flatten_cons, List.flatten_nil, List.append_nil, List.cons_append, List.nil_append]
  after_results_simp
  simp only [h0, h4, h5, h6, h7, h16, h17]
  rfl

end Cert.HostAgree

end
-- ==== Proof.HostBridge0.lean ====
/-
  The kernel program's last 252 host operations against the reference's value, result 0.

  After its kernel the kernel program runs 252 host operations. They are, operation for operation, the
  reference's last 252, on buffers whose numbers are shifted by one. So if the contents the 252 start
  from hold — in the buffer of the node features, in the buffer of their column means, in the buffer of
  the aggregated features and in the arguments they read — what the reference has there at that point
  (its first 47 operations' values, the product of the transposed incidence matrix with the node features,
  and the arguments' launch contents), then the kernel program's result buffer main_v241 ends at the
  reference's value of main_v242: the same functions applied to equal inputs.
-/
import proofs.«149568_j10290741641935_1_alg».proof.Proof.Gen.KernelIdeal.Launch
import proofs.«149568_j10290741641935_1_alg».proof.Proof.Gen.ReferenceIdeal.Run

noncomputable section

namespace Cert.HostAgree

open Idealize.ShloMosaic Idealize.ShloMosaic.StableHlo Idealize.SL.Sem

variable {F : FTy → Type} [FloatOps F]

/-- Two blocks side by side depend only on the two blocks. -/
private theorem concatenate_congr2 {α : Type} {t : Shape} {a : Fin t.rank} {S1 S2 : Shape} {x x' : S1.Idx → α} {y y' : S2.Idx → α}
    (h : Shape.Concatenates [S1, S2] t a) (hx : x = x') (hy : y = y') :
    concatenate t a [⟨S1, x⟩, ⟨S2, y⟩] h = concatenate t a [⟨S1, x'⟩, ⟨S2, y'⟩] h := by subst hx hy; rfl
attribute [local congr] concatenate_congr2

set_option maxRecDepth 8192 in
set_option maxHeartbeats 120000000 in
/-- The kernel program's result `main_v241`, from contents that agree with the reference's on every buffer the
    last 252 operations read, is the reference's result `main_v242`. -/
theorem bridge_out0 (Wk : Valuation KernelIdeal.τ KernelIdeal.sig (Elt F))
    (m' : (ℓ : Loc ReferenceIdeal.nD ReferenceIdeal.τ ReferenceIdeal.sig) → Buf (Elt F) ℓ) (c : Dev ReferenceIdeal.nD)
    (hv33 : Wk (Proc.devRef .tc KernelIdeal.main_v33)
      = after (ReferenceIdeal.Value.ops.take 47) (fun b => m' (c, b)) (Proc.devRef .tc ReferenceIdeal.main_v33))
    (hv37 : Wk (Proc.devRef .tc KernelIdeal.main_v37)
      = after (ReferenceIdeal.Value.ops.take 47) (fun b => m' (c, b)) (Proc.devRef .tc ReferenceIdeal.main_v37))
    (hv38 : Wk (Proc.devRef .tc KernelIdeal.main_v38)
      = Host.dotGeneral ReferenceIdeal.dot_S8192x8192_S8192x256_S8192x256_1_0_0_1_n_n none
          (transpose ReferenceIdeal.S8192x8192 [1, 0] (m' ((c.tc : Thread ReferenceIdeal.nD ReferenceIdeal.τ).loc ReferenceIdeal.main_arg1))
            ReferenceIdeal.Gen.transposes_S8192x8192_S8192x8192_1_0)
          (after (ReferenceIdeal.Value.ops.take 47) (fun b => m' (c, b)) (Proc.devRef .tc ReferenceIdeal.main_v33)))
    (h2 : Wk (Proc.devRef .tc KernelIdeal.main_arg2) = m' ((c.tc : Thread ReferenceIdeal.nD ReferenceIdeal.τ).loc ReferenceIdeal.main_arg2))
    (h3 : Wk (Proc.devRef .tc KernelIdeal.main_arg3) = m' ((c.tc : Thread ReferenceIdeal.nD ReferenceIdeal.τ).loc ReferenceIdeal.main_arg3))
    (h8 : Wk (Proc.devRef .tc KernelIdeal.main_arg8) = m' ((c.tc : Thread ReferenceIdeal.nD ReferenceIdeal.τ).loc ReferenceIdeal.main_arg8))
    (h9 : Wk (Proc.devRef .tc KernelIdeal.main_arg9) = m' ((c.tc : Thread ReferenceIdeal.nD ReferenceIdeal.τ).loc ReferenceIdeal.main_arg9))
    (h10 : Wk (Proc.devRef .tc KernelIdeal.main_arg10) = m' ((c.tc : Thread ReferenceIdeal.nD ReferenceIdeal.τ).loc ReferenceIdeal.main_arg10))
    (h11 : Wk (Proc.devRef .tc KernelIdeal.main_arg11) = m' ((c.tc : Thread ReferenceIdeal.nD ReferenceIdeal.τ).loc ReferenceIdeal.main_arg11))
    (h12 : Wk (Proc.devRef .tc KernelIdeal.main_arg12) = m' ((c.tc : Thread ReferenceIdeal.nD ReferenceIdeal.τ).loc ReferenceIdeal.main_arg12))
    (h13 : Wk (Proc.devRef .tc KernelIdeal.main_arg13) = m' ((c.tc : Thread ReferenceIdeal.nD ReferenceIdeal.τ).loc ReferenceIdeal.main_arg13))
    (h14 : Wk (Proc.devRef .tc KernelIdeal.main_arg14) = m' ((c.tc : Thread ReferenceIdeal.nD ReferenceIdeal.τ).loc ReferenceIdeal.main_arg14))
    (h15 : Wk (Proc.devRef .tc KernelIdeal.main_arg15) = m' ((c.tc : Thread ReferenceIdeal.nD ReferenceIdeal.τ).loc ReferenceIdeal.main_arg15))
    (h18 : Wk (Proc.devRef .tc KernelIdeal.main_arg18) = m' ((c.tc : Thread ReferenceIdeal.nD ReferenceIdeal.τ).loc ReferenceIdeal.main_arg18))
    (h19 : Wk (Proc.devRef .tc KernelIdeal.main_arg19) = m' ((c.tc : Thread ReferenceIdeal.nD ReferenceIdeal.τ).loc ReferenceIdeal.main_arg19))
    (h20 : Wk (Proc.devRef .tc KernelIdeal.main_arg20) = m' ((c.tc : Thread ReferenceIdeal.nD ReferenceIdeal.τ).loc ReferenceIdeal.main_arg20))
    (h21 : Wk (Proc.devRef .tc KernelIdeal.main_arg21) = m' ((c.tc : Thread ReferenceIdeal.nD ReferenceIdeal.τ).loc ReferenceIdeal.main_arg21))
    (h22 : Wk (Proc.devRef .tc KernelIdeal.main_arg22) = m' ((c.tc : Thread ReferenceIdeal.nD ReferenceIdeal.τ).loc ReferenceIdeal.main_arg22))
    (h23 : Wk (Proc.devRef .tc KernelIdeal.main_arg23) = m' ((c.tc : Thread ReferenceIdeal.nD ReferenceIdeal.τ).loc ReferenceIdeal.main_arg23))
    (h24 : Wk (Proc.devRef .tc KernelIdeal.main_arg24) = m' ((c.tc : Thread ReferenceIdeal.nD ReferenceIdeal.τ).loc ReferenceIdeal.main_arg24))
    (h25 : Wk (Proc.devRef .tc KernelIdeal.main_arg25) = m' ((c.tc : Thread ReferenceIdeal.nD ReferenceIdeal.τ).loc ReferenceIdeal.main_arg25))
    (h26 : Wk (Proc.devRef .tc KernelIdeal.main_arg26) = m' ((c.tc : Thread ReferenceIdeal.nD ReferenceIdeal.τ).loc ReferenceIdeal.main_arg26))
    (h27 : Wk (Proc.devRef .tc KernelIdeal.main_arg27) = m' ((c.tc : Thread ReferenceIdeal.nD ReferenceIdeal.τ).loc ReferenceIdeal.main_arg27))
    (h28 : Wk (Proc.devRef .tc KernelIdeal.main_arg28) = m' ((c.tc : Thread ReferenceIdeal.nD ReferenceIdeal.τ).loc ReferenceIdeal.main_arg28)) :
    after (List.flatten [KernelIdeal.Gen.hostOps1, KernelIdeal.Gen.hostOps1_1, KernelIdeal.Gen.hostOps1_2, KernelIdeal.Gen.hostOps1_3, KernelIdeal.Gen.hostOps1_4, KernelIdeal.Gen.hostOps1_5, KernelIdeal.Gen.hostOps1_6, KernelIdeal.Gen.hostOps1_7, KernelIdeal.Gen.hostOps1_8, KernelIdeal.Gen.hostOps1_9, KernelIdeal.Gen.hostOps1_10, KernelIdeal.Gen.hostOps1_11, KernelIdeal.Gen.hostOps1_12]) Wk (Proc.devRef .tc KernelIdeal.main_v241) = ReferenceIdeal.Value.res_main_v242 m' c := by
  -- the reference's first 47 operations, read where the hypotheses name them
  delta ReferenceIdeal.Value.ops at hv33 hv37 hv38
  simp only [List.take_succ_cons, List.take_zero] at hv33 hv37 hv38
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] at hv33 hv37 hv38
  -- the kernel program's last 252 operations, read at the result
  delta KernelIdeal.Gen.hostOps1 KernelIdeal.Gen.hostOps1_1 KernelIdeal.Gen.hostOps1_2 KernelIdeal.Gen.hostOps1_3 KernelIdeal.Gen.hostOps1_4 KernelIdeal.Gen.hostOps1_5 KernelIdeal.Gen.hostOps1_6 KernelIdeal.Gen.hostOps1_7 KernelIdeal.Gen.hostOps1_8 KernelIdeal.Gen.hostOps1_9 KernelIdeal.Gen.hostOps1_10 KernelIdeal.Gen.hostOps1_11 KernelIdeal.Gen.hostOps1_12
  simp only [List.flatten_cons, List.flatten_nil, List.append_nil, List.cons_append, List.nil_append]
  after_results_simp
  -- equal inputs
  simp only [hv38, hv33, hv37, h2, h3, h8, h9, h10, h11, h12, h13, h14, h15, h18, h19, h20, h21, h22, h23, h24, h25, h26, h27, h28]
  -- the reference's value is the same composed term
  delta ReferenceIdeal.Value.res_main_v242
  rfl

end Cert.HostAgree

end
-- ==== Proof.HostBridge1.lean ====
/-
  The kernel program's last 252 host operations against the reference's value, result 1.

  After its kernel the kernel program runs 252 host operations. They are, operation for operation, the
  reference's last 252, on buffers whose numbers are shifted by one. So if the contents the 252 start
  from hold — in the buffer of the node features, in the buffer of their column means, in the buffer of
  the aggregated features and in the arguments they read — what the reference has there at that point
  (its first 47 operations' values, the product of the transposed incidence matrix with the node features,
  and the arguments' launch contents), then the kernel program's result buffer main_v249 ends at the
  reference's value of main_v250: the same functions applied to equal inputs.
-/
import proofs.«149568_j10290741641935_1_alg».proof.Proof.Gen.KernelIdeal.Launch
import proofs.«149568_j10290741641935_1_alg».proof.Proof.Gen.ReferenceIdeal.Run

noncomputable section

namespace Cert.HostAgree

open Idealize.ShloMosaic Idealize.ShloMosaic.StableHlo Idealize.SL.Sem

variable {F : FTy → Type} [FloatOps F]

/-- Two blocks side by side depend only on the two blocks. -/
private theorem concatenate_congr2 {α : Type} {t : Shape} {a : Fin t.rank} {S1 S2 : Shape} {x x' : S1.Idx → α} {y y' : S2.Idx → α}
    (h : Shape.Concatenates [S1, S2] t a) (hx : x = x') (hy : y = y') :
    concatenate t a [⟨S1, x⟩, ⟨S2, y⟩] h = concatenate t a [⟨S1, x'⟩, ⟨S2, y'⟩] h := by subst hx hy; rfl
attribute [local congr] concatenate_congr2

set_option maxRecDepth 8192 in
set_option maxHeartbeats 120000000 in
/-- The kernel program's result `main_v249`, from contents that agree with the reference's on every buffer the
    last 252 operations read, is the reference's result `main_v250`. -/
theorem bridge_out1 (Wk : Valuation KernelIdeal.τ KernelIdeal.sig (Elt F))
    (m' : (ℓ : Loc ReferenceIdeal.nD ReferenceIdeal.τ ReferenceIdeal.sig) → Buf (Elt F) ℓ) (c : Dev ReferenceIdeal.nD)
    (hv33 : Wk (Proc.devRef .tc KernelIdeal.main_v33)
      = after (ReferenceIdeal.Value.ops.take 47) (fun b => m' (c, b)) (Proc.devRef .tc ReferenceIdeal.main_v33))
    (hv37 : Wk (Proc.devRef .tc KernelIdeal.main_v37)
      = after (ReferenceIdeal.Value.ops.take 47) (fun b => m' (c, b)) (Proc.devRef .tc ReferenceIdeal.main_v37))
    (hv38 : Wk (Proc.devRef .tc KernelIdeal.main_v38)
      = Host.dotGeneral ReferenceIdeal.dot_S8192x8192_S8192x256_S8192x256_1_0_0_1_n_n none
          (transpose ReferenceIdeal.S8192x8192 [1, 0] (m' ((c.tc : Thread ReferenceIdeal.nD ReferenceIdeal.τ).loc ReferenceIdeal.main_arg1))
            ReferenceIdeal.Gen.transposes_S8192x8192_S8192x8192_1_0)
          (after (ReferenceIdeal.Value.ops.take 47) (fun b => m' (c, b)) (Proc.devRef .tc ReferenceIdeal.main_v33)))
    (h2 : Wk (Proc.devRef .tc KernelIdeal.main_arg2) = m' ((c.tc : Thread ReferenceIdeal.nD ReferenceIdeal.τ).loc ReferenceIdeal.main_arg2))
    (h3 : Wk (Proc.devRef .tc KernelIdeal.main_arg3) = m' ((c.tc : Thread ReferenceIdeal.nD ReferenceIdeal.τ).loc ReferenceIdeal.main_arg3))
    (h8 : Wk (Proc.devRef .tc KernelIdeal.main_arg8) = m' ((c.tc : Thread ReferenceIdeal.nD ReferenceIdeal.τ).loc ReferenceIdeal.main_arg8))
    (h9 : Wk (Proc.devRef .tc KernelIdeal.main_arg9) = m' ((c.tc : Thread ReferenceIdeal.nD ReferenceIdeal.τ).loc ReferenceIdeal.main_arg9))
    (h10 : Wk (Proc.devRef .tc KernelIdeal.main_arg10) = m' ((c.tc : Thread ReferenceIdeal.nD ReferenceIdeal.τ).loc ReferenceIdeal.main_arg10))
    (h11 : Wk (Proc.devRef .tc KernelIdeal.main_arg11) = m' ((c.tc : Thread ReferenceIdeal.nD ReferenceIdeal.τ).loc ReferenceIdeal.main_arg11))
    (h12 : Wk (Proc.devRef .tc KernelIdeal.main_arg12) = m' ((c.tc : Thread ReferenceIdeal.nD ReferenceIdeal.τ).loc ReferenceIdeal.main_arg12))
    (h13 : Wk (Proc.devRef .tc KernelIdeal.main_arg13) = m' ((c.tc : Thread ReferenceIdeal.nD ReferenceIdeal.τ).loc ReferenceIdeal.main_arg13))
    (h14 : Wk (Proc.devRef .tc KernelIdeal.main_arg14) = m' ((c.tc : Thread ReferenceIdeal.nD ReferenceIdeal.τ).loc ReferenceIdeal.main_arg14))
    (h15 : Wk (Proc.devRef .tc KernelIdeal.main_arg15) = m' ((c.tc : Thread ReferenceIdeal.nD ReferenceIdeal.τ).loc ReferenceIdeal.main_arg15))
    (h18 : Wk (Proc.devRef .tc KernelIdeal.main_arg18) = m' ((c.tc : Thread ReferenceIdeal.nD ReferenceIdeal.τ).loc ReferenceIdeal.main_arg18))
    (h19 : Wk (Proc.devRef .tc KernelIdeal.main_arg19) = m' ((c.tc : Thread ReferenceIdeal.nD ReferenceIdeal.τ).loc ReferenceIdeal.main_arg19))
    (h20 : Wk (Proc.devRef .tc KernelIdeal.main_arg20) = m' ((c.tc : Thread ReferenceIdeal.nD ReferenceIdeal.τ).loc ReferenceIdeal.main_arg20))
    (h21 : Wk (Proc.devRef .tc KernelIdeal.main_arg21) = m' ((c.tc : Thread ReferenceIdeal.nD ReferenceIdeal.τ).loc ReferenceIdeal.main_arg21))
    (h22 : Wk (Proc.devRef .tc KernelIdeal.main_arg22) = m' ((c.tc : Thread ReferenceIdeal.nD ReferenceIdeal.τ).loc ReferenceIdeal.main_arg22))
    (h23 : Wk (Proc.devRef .tc KernelIdeal.main_arg23) = m' ((c.tc : Thread ReferenceIdeal.nD ReferenceIdeal.τ).loc ReferenceIdeal.main_arg23))
    (h24 : Wk (Proc.devRef .tc KernelIdeal.main_arg24) = m' ((c.tc : Thread ReferenceIdeal.nD ReferenceIdeal.τ).loc ReferenceIdeal.main_arg24))
    (h25 : Wk (Proc.devRef .tc KernelIdeal.main_arg25) = m' ((c.tc : Thread ReferenceIdeal.nD ReferenceIdeal.τ).loc ReferenceIdeal.main_arg25))
    (h26 : Wk (Proc.devRef .tc KernelIdeal.main_arg26) = m' ((c.tc : Thread ReferenceIdeal.nD ReferenceIdeal.τ).loc ReferenceIdeal.main_arg26))
    (h27 : Wk (Proc.devRef .tc KernelIdeal.main_arg27) = m' ((c.tc : Thread ReferenceIdeal.nD ReferenceIdeal.τ).loc ReferenceIdeal.main_arg27))
    (h28 : Wk (Proc.devRef .tc KernelIdeal.main_arg28) = m' ((c.tc : Thread ReferenceIdeal.nD ReferenceIdeal.τ).loc ReferenceIdeal.main_arg28)) :
    after (List.flatten [KernelIdeal.Gen.hostOps1, KernelIdeal.Gen.hostOps1_1, KernelIdeal.Gen.hostOps1_2, KernelIdeal.Gen.hostOps1_3, KernelIdeal.Gen.hostOps1_4, KernelIdeal.Gen.hostOps1_5, KernelIdeal.Gen.hostOps1_6, KernelIdeal.Gen.hostOps1_7, KernelIdeal.Gen.hostOps1_8, KernelIdeal.Gen.hostOps1_9, KernelIdeal.Gen.hostOps1_10, KernelIdeal.Gen.hostOps1_11, KernelIdeal.Gen.hostOps1_12]) Wk (Proc.devRef .tc KernelIdeal.main_v249) = ReferenceIdeal.Value.res_main_v250 m' c := by
  -- the reference's first 47 operations, read where the hypotheses name them
  delta ReferenceIdeal.Value.ops at hv33 hv37 hv38
  simp only [List.take_succ_cons, List.take_zero] at hv33 hv37 hv38
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] at hv33 hv37 hv38
  -- the kernel program's last 252 operations, read at the result
  delta KernelIdeal.Gen.hostOps1 KernelIdeal.Gen.hostOps1_1 KernelIdeal.Gen.hostOps1_2 KernelIdeal.Gen.hostOps1_3 KernelIdeal.Gen.hostOps1_4 KernelIdeal.Gen.hostOps1_5 KernelIdeal.Gen.hostOps1_6 KernelIdeal.Gen.hostOps1_7 KernelIdeal.Gen.hostOps1_8 KernelIdeal.Gen.hostOps1_9 KernelIdeal.Gen.hostOps1_10 KernelIdeal.Gen.hostOps1_11 KernelIdeal.Gen.hostOps1_12
  simp only [List.flatten_cons, List.flatten_nil, List.append_nil, List.cons_append, List.nil_append]
  after_results_simp
  -- equal inputs
  simp only [hv38, hv33, hv37, h2, h3, h8, h9, h10, h11, h12, h13, h14, h15, h18, h19, h20, h21, h22, h23, h24, h25, h26, h27, h28]
  -- the reference's value is the same composed term
  delta ReferenceIdeal.Value.res_main_v250
  rfl

end Cert.HostAgree

end
-- ==== Proof.Bridge.lean ====
/-
  The two idealized programs end with equal results.

  Both programs apply the same host operations before and after the aggregation; they differ only in how the
  aggregation incidenceᵀ · features is computed. The kernel region leaves it in its result array (eight row-tiles
  accumulated per column block); the reference transposes the incidence matrix and takes one product. At the
  extended reals both are, row by row, the inner product over all 8192 nodes. The later operations read, besides
  the aggregation, twenty-one arguments and two earlier results (the features and their column mean); the region's
  exit contents agree with the reference's there, so the later operations, being the same functions, give the
  same two results.
-/
import proofs.«149568_j10290741641935_1_alg».proof.Defs
import proofs.«149568_j10290741641935_1_alg».proof.Proof.IdealValue
import proofs.«149568_j10290741641935_1_alg».proof.Proof.AggRef
import proofs.«149568_j10290741641935_1_alg».proof.Proof.HostAgree
import proofs.«149568_j10290741641935_1_alg».proof.Proof.HostBridge0
import proofs.«149568_j10290741641935_1_alg».proof.Proof.HostBridge1
import proofs.«149568_j10290741641935_1_alg».proof.Proof.Gen.ReferenceIdeal.Run
import proofs.«149568_j10290741641935_1_alg».proof.Proof.Gen.Pre_finite_inputs

set_option maxRecDepth 16384

noncomputable section

namespace Cert.Bridge

open Idealize.ShloMosaic Idealize.ShloMosaic.TcCoe Idealize.SL.Sem
open Idealize.ShloMosaic.Pipeline (Dat)
open Cert.KernelIdeal Cert.KernelIdeal.Gen Cert.KernelIdeal.Around

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories agree on the arguments (the algebraic claim's hypothesis). -/
def Agree : Prop := ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)

/-- Core `c`'s buffers when the region exits: its arrays at what the run left, everything else as at entry. -/
abbrev exitVal (c : Dev nD) : Valuation τ sig (Elt Ideal) :=
  Pipeline.withArrays spec0 c (entryVal m c) fun w => (dats m 0 c).arrAt w cfg0.N

/-- The reference's launch memory on core `c`, as a valuation. -/
abbrev refLaunch (c : Dev nD) : Valuation Cert.ReferenceIdeal.τ Cert.ReferenceIdeal.sig (Elt Ideal) := fun b => m' (c, b)

variable {m m'}

/-- Each argument the later operations read is, at the region's exit, the reference's argument: no window stages
    it, no earlier operation writes it, and the two launch memories agree on it. -/
theorem exit_arg2 (h : Agree m m') (c : Dev nD) :
    exitVal m c (Proc.devRef .tc main_arg2)
      = m' ((c.tc : Thread Cert.ReferenceIdeal.nD Cert.ReferenceIdeal.τ).loc Cert.ReferenceIdeal.main_arg2) :=
  (Pipeline.withArrays_of_ne spec0 c (entryVal m c) (fun w => (dats m 0 c).arrAt w cfg0.N) main_arg2 (by decide +kernel)).trans
    ((entry_of_unwritten m c (b := main_arg2) (by decide +kernel)).trans ((h c).2.2.1).symm)
theorem exit_arg3 (h : Agree m m') (c : Dev nD) :
    exitVal m c (Proc.devRef .tc main_arg3)
      = m' ((c.tc : Thread Cert.ReferenceIdeal.nD Cert.ReferenceIdeal.τ).loc Cert.ReferenceIdeal.main_arg3) :=
  (Pipeline.withArrays_of_ne spec0 c (entryVal m c) (fun w => (dats m 0 c).arrAt w cfg0.N) main_arg3 (by decide +kernel)).trans
    ((entry_of_unwritten m c (b := main_arg3) (by decide +kernel)).trans ((h c).2.2.2.1).symm)
theorem exit_arg8 (h : Agree m m') (c : Dev nD) :
    exitVal m c (Proc.devRef .tc main_arg8)
      = m' ((c.tc : Thread Cert.ReferenceIdeal.nD Cert.ReferenceIdeal.τ).loc Cert.ReferenceIdeal.main_arg8) :=
  (Pipeline.withArrays_of_ne spec0 c (entryVal m c) (fun w => (dats m 0 c).arrAt w cfg0.N) main_arg8 (by decide +kernel)).trans
    ((entry_of_unwritten m c (b := main_arg8) (by decide +kernel)).trans ((h c).2.2.2.2.2.2.2.2.1).symm)
theorem exit_arg9 (h : Agree m m') (c : Dev nD) :
    exitVal m c (Proc.devRef .tc main_arg9)
      = m' ((c.tc : Thread Cert.ReferenceIdeal.nD Cert.ReferenceIdeal.τ).loc Cert.ReferenceIdeal.main_arg9) :=
  (Pipeline.withArrays_of_ne spec0 c (entryVal m c) (fun w => (dats m 0 c).arrAt w cfg0.N) main_arg9 (by decide +kernel)).trans
    ((entry_of_unwritten m c (b := main_arg9) (by decide +kernel)).trans ((h c).2.2.2.2.2.2.2.2.2.1).symm)
theorem exit_arg10 (h : Agree m m') (c : Dev nD) :
    exitVal m c (Proc.devRef .tc main_arg10)
      = m' ((c.tc : Thread Cert.ReferenceIdeal.nD Cert.ReferenceIdeal.τ).loc Cert.ReferenceIdeal.main_arg10) :=
  (Pipeline.withArrays_of_ne spec0 c (entryVal m c) (fun w => (dats m 0 c).arrAt w cfg0.N) main_arg10 (by decide +kernel)).trans
    ((entry_of_unwritten m c (b := main_arg10) (by decide +kernel)).trans ((h c).2.2.2.2.2.2.2.2.2.2.1).symm)
theorem exit_arg11 (h : Agree m m') (c : Dev nD) :
    exitVal m c (Proc.devRef .tc main_arg11)
      = m' ((c.tc : Thread Cert.ReferenceIdeal.nD Cert.ReferenceIdeal.τ).loc Cert.ReferenceIdeal.main_arg11) :=
  (Pipeline.withArrays_of_ne spec0 c (entryVal m c) (fun w => (dats m 0 c).arrAt w cfg0.N) main_arg11 (by decide +kernel)).trans
    ((entry_of_unwritten m c (b := main_arg11) (by decide +kernel)).trans ((h c).2.2.2.2.2.2.2.2.2.2.2.1).symm)
theorem exit_arg12 (h : Agree m m') (c : Dev nD) :
    exitVal m c (Proc.devRef .tc main_arg12)
      = m' ((c.tc : Thread Cert.ReferenceIdeal.nD Cert.ReferenceIdeal.τ).loc Cert.ReferenceIdeal.main_arg12) :=
  (Pipeline.withArrays_of_ne spec0 c (entryVal m c) (fun w => (dats m 0 c).arrAt w cfg0.N) main_arg12 (by decide +kernel)).trans
    ((entry_of_unwritten m c (b := main_arg12) (by decide +kernel)).trans ((h c).2.2.2.2.2.2.2.2.2.2.2.2.1).symm)
theorem exit_arg13 (h : Agree m m') (c : Dev nD) :
    exitVal m c (Proc.devRef .tc main_arg13)
      = m' ((c.tc : Thread Cert.ReferenceIdeal.nD Cert.ReferenceIdeal.τ).loc Cert.ReferenceIdeal.main_arg13) :=
  (Pipeline.withArrays_of_ne spec0 c (entryVal m c) (fun w => (dats m 0 c).arrAt w cfg0.N) main_arg13 (by decide +kernel)).trans
    ((entry_of_unwritten m c (b := main_arg13) (by decide +kernel)).trans ((h c).2.2.2.2.2.2.2.2.2.2.2.2.2.1).symm)
theorem exit_arg14 (h : Agree m m') (c : Dev nD) :
    exitVal m c (Proc.devRef .tc main_arg14)
      = m' ((c.tc : Thread Cert.ReferenceIdeal.nD Cert.ReferenceIdeal.τ).loc Cert.ReferenceIdeal.main_arg14) :=
  (Pipeline.withArrays_of_ne spec0 c (entryVal m c) (fun w => (dats m 0 c).arrAt w cfg0.N) main_arg14 (by decide +kernel)).trans
    ((entry_of_unwritten m c (b := main_arg14) (by decide +kernel)).trans ((h c).2.2.2.2.2.2.2.2.2.2.2.2.2.2.1).symm)
theorem exit_arg15 (h : Agree m m') (c : Dev nD) :
    exitVal m c (Proc.devRef .tc main_arg15)
      = m' ((c.tc : Thread Cert.ReferenceIdeal.nD Cert.ReferenceIdeal.τ).loc Cert.ReferenceIdeal.main_arg15) :=
  (Pipeline.withArrays_of_ne spec0 c (entryVal m c) (fun w => (dats m 0 c).arrAt w cfg0.N) main_arg15 (by decide +kernel)).trans
    ((entry_of_unwritten m c (b := main_arg15) (by decide +kernel)).trans ((h c).2.2.2.2.2.2.2.2.2.2.2.2.2.2.2.1).symm)
theorem exit_arg18 (h : Agree m m') (c : Dev nD) :
    exitVal m c (Proc.devRef .tc main_arg18)
      = m' ((c.tc : Thread Cert.ReferenceIdeal.nD Cert.ReferenceIdeal.τ).loc Cert.ReferenceIdeal.main_arg18) :=
  (Pipeline.withArrays_of_ne spec0 c (entryVal m c) (fun w => (dats m 0 c).arrAt w cfg0.N) main_arg18 (by decide +kernel)).trans
    ((entry_of_unwritten m c (b := main_arg18) (by decide +kernel)).trans ((h c).2.2.2.2.2.2.2.2.2.2.2.2.2.2.2.2.2.2.1).symm)
theorem exit_arg19 (h : Agree m m') (c : Dev nD) :
    exitVal m c (Proc.devRef .tc main_arg19)
      = m' ((c.tc : Thread Cert.ReferenceIdeal.nD Cert.ReferenceIdeal.τ).loc Cert.ReferenceIdeal.main_arg19) :=
  (Pipeline.withArrays_of_ne spec0 c (entryVal m c) (fun w => (dats m 0 c).arrAt w cfg0.N) main_arg19 (by decide +kernel)).trans
    ((entry_of_unwritten m c (b := main_arg19) (by decide +kernel)).trans ((h c).2.2.2.2.2.2.2.2.2.2.2.2.2.2.2.2.2.2.2.1).symm)
theorem exit_arg20 (h : Agree m m') (c : Dev nD) :
    exitVal m c (Proc.devRef .tc main_arg20)
      = m' ((c.tc : Thread Cert.ReferenceIdeal.nD Cert.ReferenceIdeal.τ).loc Cert.ReferenceIdeal.main_arg20) :=
  (Pipeline.withArrays_of_ne spec0 c (entryVal m c) (fun w => (dats m 0 c).arrAt w cfg0.N) main_arg20 (by decide +kernel)).trans
    ((entry_of_unwritten m c (b := main_arg20) (by decide +kernel)).trans ((h c).2.2.2.2.2.2.2.2.2.2.2.2.2.2.2.2.2.2.2.2.1).symm)
theorem exit_arg21 (h : Agree m m') (c : Dev nD) :
    exitVal m c (Proc.devRef .tc main_arg21)
      = m' ((c.tc : Thread Cert.ReferenceIdeal.nD Cert.ReferenceIdeal.τ).loc Cert.ReferenceIdeal.main_arg21) :=
  (Pipeline.withArrays_of_ne spec0 c (entryVal m c) (fun w => (dats m 0 c).arrAt w cfg0.N) main_arg21 (by decide +kernel)).trans
    ((entry_of_unwritten m c (b := main_arg21) (by decide +kernel)).trans ((h c).2.2.2.2.2.2.2.2.2.2.2.2.2.2.2.2.2.2.2.2.2.1).symm)
theorem exit_arg22 (h : Agree m m') (c : Dev nD) :
    exitVal m c (Proc.devRef .tc main_arg22)
      = m' ((c.tc : Thread Cert.ReferenceIdeal.nD Cert.ReferenceIdeal.τ).loc Cert.ReferenceIdeal.main_arg22) :=
  (Pipeline.withArrays_of_ne spec0 c (entryVal m c) (fun w => (dats m 0 c).arrAt w cfg0.N) main_arg22 (by decide +kernel)).trans
    ((entry_of_unwritten m c (b := main_arg22) (by decide +kernel)).trans ((h c).2.2.2.2.2.2.2.2.2.2.2.2.2.2.2.2.2.2.2.2.2.2.1).symm)
theorem exit_arg23 (h : Agree m m') (c : Dev nD) :
    exitVal m c (Proc.devRef .tc main_arg23)
      = m' ((c.tc : Thread Cert.ReferenceIdeal.nD Cert.ReferenceIdeal.τ).loc Cert.ReferenceIdeal.main_arg23) :=
  (Pipeline.withArrays_of_ne spec0 c (entryVal m c) (fun w => (dats m 0 c).arrAt w cfg0.N) main_arg23 (by decide +kernel)).trans
    ((entry_of_unwritten m c (b := main_arg23) (by decide +kernel)).trans ((h c).2.2.2.2.2.2.2.2.2.2.2.2.2.2.2.2.2.2.2.2.2.2.2.1).symm)
theorem exit_arg24 (h : Agree m m') (c : Dev nD) :
    exitVal m c (Proc.devRef .tc main_arg24)
      = m' ((c.tc : Thread Cert.ReferenceIdeal.nD Cert.ReferenceIdeal.τ).loc Cert.ReferenceIdeal.main_arg24) :=
  (Pipeline.withArrays_of_ne spec0 c (entryVal m c) (fun w => (dats m 0 c).arrAt w cfg0.N) main_arg24 (by decide +kernel)).trans
    ((entry_of_unwritten m c (b := main_arg24) (by decide +kernel)).trans ((h c).2.2.2.2.2.2.2.2.2.2.2.2.2.2.2.2.2.2.2.2.2.2.2.2.1).symm)
theorem exit_arg25 (h : Agree m m') (c : Dev nD) :
    exitVal m c (Proc.devRef .tc main_arg25)
      = m' ((c.tc : Thread Cert.ReferenceIdeal.nD Cert.ReferenceIdeal.τ).loc Cert.ReferenceIdeal.main_arg25) :=
  (Pipeline.withArrays_of_ne spec0 c (entryVal m c) (fun w => (dats m 0 c).arrAt w cfg0.N) main_arg25 (by decide +kernel)).trans
    ((entry_of_unwritten m c (b := main_arg25) (by decide +kernel)).trans ((h c).2.2.2.2.2.2.2.2.2.2.2.2.2.2.2.2.2.2.2.2.2.2.2.2.2.1).symm)
theorem exit_arg26 (h : Agree m m') (c : Dev nD) :
    exitVal m c (Proc.devRef .tc main_arg26)
      = m' ((c.tc : Thread Cert.ReferenceIdeal.nD Cert.ReferenceIdeal.τ).loc Cert.ReferenceIdeal.main_arg26) :=
  (Pipeline.withArrays_of_ne spec0 c (entryVal m c) (fun w => (dats m 0 c).arrAt w cfg0.N) main_arg26 (by decide +kernel)).trans
    ((entry_of_unwritten m c (b := main_arg26) (by decide +kernel)).trans ((h c).2.2.2.2.2.2.2.2.2.2.2.2.2.2.2.2.2.2.2.2.2.2.2.2.2.2.1).symm)
theorem exit_arg27 (h : Agree m m') (c : Dev nD) :
    exitVal m c (Proc.devRef .tc main_arg27)
      = m' ((c.tc : Thread Cert.ReferenceIdeal.nD Cert.ReferenceIdeal.τ).loc Cert.ReferenceIdeal.main_arg27) :=
  (Pipeline.withArrays_of_ne spec0 c (entryVal m c) (fun w => (dats m 0 c).arrAt w cfg0.N) main_arg27 (by decide +kernel)).trans
    ((entry_of_unwritten m c (b := main_arg27) (by decide +kernel)).trans ((h c).2.2.2.2.2.2.2.2.2.2.2.2.2.2.2.2.2.2.2.2.2.2.2.2.2.2.2.1).symm)
theorem exit_arg28 (h : Agree m m') (c : Dev nD) :
    exitVal m c (Proc.devRef .tc main_arg28)
      = m' ((c.tc : Thread Cert.ReferenceIdeal.nD Cert.ReferenceIdeal.τ).loc Cert.ReferenceIdeal.main_arg28) :=
  (Pipeline.withArrays_of_ne spec0 c (entryVal m c) (fun w => (dats m 0 c).arrAt w cfg0.N) main_arg28 (by decide +kernel)).trans
    ((entry_of_unwritten m c (b := main_arg28) (by decide +kernel)).trans ((h c).2.2.2.2.2.2.2.2.2.2.2.2.2.2.2.2.2.2.2.2.2.2.2.2.2.2.2.2).symm)

/-- The features as the region found them are the reference's features: the earlier operations are the same. -/
theorem entry_feat (h : Agree m m') (c : Dev nD) :
    entryVal m c (Proc.devRef .tc main_v33)
      = StableHlo.after (Cert.ReferenceIdeal.Value.ops.take 47) (refLaunch m' c) (Proc.devRef .tc Cert.ReferenceIdeal.main_v33) :=
  (Cert.HostAgree.earlier_agree_v33 (fun b => m (c, b)) (refLaunch m' c) (h c).1 (h c).2.2.2.2.1 (h c).2.2.2.2.2.1 (h c).2.2.2.2.2.2.1 (h c).2.2.2.2.2.2.2.1 (h c).2.2.2.2.2.2.2.2.2.2.2.2.2.2.2.2.1 (h c).2.2.2.2.2.2.2.2.2.2.2.2.2.2.2.2.2.1).symm

/-- The features' column mean likewise. -/
theorem entry_mean (h : Agree m m') (c : Dev nD) :
    entryVal m c (Proc.devRef .tc main_v37)
      = StableHlo.after (Cert.ReferenceIdeal.Value.ops.take 47) (refLaunch m' c) (Proc.devRef .tc Cert.ReferenceIdeal.main_v37) :=
  (Cert.HostAgree.earlier_agree_v37 (fun b => m (c, b)) (refLaunch m' c) (h c).1 (h c).2.2.2.2.1 (h c).2.2.2.2.2.1 (h c).2.2.2.2.2.2.1 (h c).2.2.2.2.2.2.2.1 (h c).2.2.2.2.2.2.2.2.2.2.2.2.2.2.2.2.1 (h c).2.2.2.2.2.2.2.2.2.2.2.2.2.2.2.2.2.1).symm

/-- A statement about a buffer, made under one name of it, holds under any other name of the same buffer. -/
theorem at_same_ref {f g : (b : Ref sig .tc) → (Proc.devRef (τ := τ) .tc b).ty.Contents (Elt Ideal)} {b b' : Ref sig .tc}
    (e : b = b') (h : f b = g b) : f b' = g b' := by subst e; exact h

/-- The feature window's array is the features' buffer. -/
theorem feat_ref : Pipeline.arrRef spec0 1 = main_v33 := by decide +kernel

/-- The region leaves the features where it found them (an input window's array is never written). -/
theorem exit_feat_kept (c : Dev nD) :
    exitVal m c (Proc.devRef .tc main_v33) = entryVal m c (Proc.devRef .tc main_v33) :=
  at_same_ref (f := fun b => exitVal m c (Proc.devRef .tc b)) (g := fun b => entryVal m c (Proc.devRef .tc b)) feat_ref
    ((Pipeline.withArrays_arr spec0 launch0.win.arr_inj c (entryVal m c) (fun w => (dats m 0 c).arrAt w cfg0.N) 1).trans
      (((dats m 0 c).arrAt_in 1 rfl cfg0.N).trans (arrays_eq m c 1)))

theorem exit_feat (h : Agree m m') (c : Dev nD) :
    exitVal m c (Proc.devRef .tc main_v33)
      = StableHlo.after (Cert.ReferenceIdeal.Value.ops.take 47) (refLaunch m' c) (Proc.devRef .tc Cert.ReferenceIdeal.main_v33) :=
  (exit_feat_kept c).trans (entry_feat h c)

theorem exit_mean (h : Agree m m') (c : Dev nD) :
    exitVal m c (Proc.devRef .tc main_v37)
      = StableHlo.after (Cert.ReferenceIdeal.Value.ops.take 47) (refLaunch m' c) (Proc.devRef .tc Cert.ReferenceIdeal.main_v37) :=
  (Pipeline.withArrays_of_ne spec0 c (entryVal m c) (fun w => (dats m 0 c).arrAt w cfg0.N) main_v37 (by decide +kernel)).trans (entry_mean h c)

/-- The aggregation the region leaves is the reference's transpose-then-product of the same two matrices. -/
theorem exit_agg (h : Agree m m') (c : Dev nD) :
    exitVal m c (Proc.devRef .tc main_v38)
      = Host.dotGeneral (F := Ideal) (φ₁ := .f32) (φ₂ := .f32) Cert.ReferenceIdeal.dot_S8192x8192_S8192x256_S8192x256_1_0_0_1_n_n none
          (transpose Cert.ReferenceIdeal.S8192x8192 [1, 0] (m' ((c.tc : Thread Cert.ReferenceIdeal.nD Cert.ReferenceIdeal.τ).loc Cert.ReferenceIdeal.main_arg1)) Cert.ReferenceIdeal.Gen.transposes_S8192x8192_S8192x8192_1_0)
          (StableHlo.after (Cert.ReferenceIdeal.Value.ops.take 47) (refLaunch m' c) (Proc.devRef .tc Cert.ReferenceIdeal.main_v33)) := by
  refine (Pipeline.withArrays_arr spec0 launch0.win.arr_inj c (entryVal m c) (fun w => (dats m 0 c).arrAt w cfg0.N) 2).trans ((agg_final m c).trans ?_)
  have e1 : entryAt m c main_arg1 = m' ((c.tc : Thread Cert.ReferenceIdeal.nD Cert.ReferenceIdeal.τ).loc Cert.ReferenceIdeal.main_arg1) :=
    (entry_of_unwritten m c (b := main_arg1) (by decide +kernel)).trans ((h c).2.1).symm
  have e2 : entryAt m c main_v33 = StableHlo.after (Cert.ReferenceIdeal.Value.ops.take 47) (refLaunch m' c) (Proc.devRef .tc Cert.ReferenceIdeal.main_v33) :=
    entry_feat h c
  exact (congrArg₂ Cert.AggMath.aggSpec e1 e2).trans (Cert.AggMath.ref_agg_eq _ _).symm

/-- The first result. -/
theorem result0 (h : Agree m m') (c : Dev nD) :
    exitAt m (dats m) c main_v241 = Cert.ReferenceIdeal.Value.res_main_v242 m' c :=
  Cert.HostAgree.bridge_out0 (exitVal m c) m' c (exit_feat h c) (exit_mean h c) (exit_agg h c)
    (exit_arg2 h c) (exit_arg3 h c) (exit_arg8 h c) (exit_arg9 h c) (exit_arg10 h c) (exit_arg11 h c) (exit_arg12 h c) (exit_arg13 h c) (exit_arg14 h c) (exit_arg15 h c) (exit_arg18 h c) (exit_arg19 h c) (exit_arg20 h c) (exit_arg21 h c) (exit_arg22 h c) (exit_arg23 h c) (exit_arg24 h c) (exit_arg25 h c) (exit_arg26 h c) (exit_arg27 h c) (exit_arg28 h c)

/-- The second result. -/
theorem result1 (h : Agree m m') (c : Dev nD) :
    exitAt m (dats m) c main_v249 = Cert.ReferenceIdeal.Value.res_main_v250 m' c :=
  Cert.HostAgree.bridge_out1 (exitVal m c) m' c (exit_feat h c) (exit_mean h c) (exit_agg h c)
    (exit_arg2 h c) (exit_arg3 h c) (exit_arg8 h c) (exit_arg9 h c) (exit_arg10 h c) (exit_arg11 h c) (exit_arg12 h c) (exit_arg13 h c) (exit_arg14 h c) (exit_arg15 h c) (exit_arg18 h c) (exit_arg19 h c) (exit_arg20 h c) (exit_arg21 h c) (exit_arg22 h c) (exit_arg23 h c) (exit_arg24 h c) (exit_arg25 h c) (exit_arg26 h c) (exit_arg27 h c) (exit_arg28 h c)

/-- THE ALGEBRAIC CLAIM: from memories agreeing on the arguments both programs run and end with equal results. -/
theorem algebraic : Cert.algebraic_KernelIdeal_ReferenceIdeal := by
  intro m ρ m' ρ' _ hagree
  refine ⟨fun c => exitAt m (dats m) c main_v241, fun c => exitAt m (dats m) c main_v249, ?_, ?_⟩
  · exact (θ_run Cert.KernelIdeal.defs _ _).mono (fun r h c =>
      ⟨(h c).2 main_v241 (Pipeline.mem_restRefs_of main_v241 rfl (by decide +kernel)),
       (h c).2 main_v249 (Pipeline.mem_restRefs_of main_v249 rfl (by decide +kernel)),
       args_of_post m (dats m) (arrays_eq m) h c⟩) (run_main m ρ)
  · exact (θ_run Cert.ReferenceIdeal.defs _ _).mono (fun r h c =>
      ⟨(h c).1.trans (result0 (m := m) (m' := m') hagree c).symm, (h c).2.1.trans (result1 (m := m) (m' := m') hagree c).symm, (h c).2.2⟩)
      (Cert.ReferenceIdeal.Value.run (F := Ideal) m' ρ')

end Cert.Bridge

end
-- ==== Proof.lean ====
/-
  The certificate: both kernel programs' frames, the reference's frame, and the equality of the two idealized
  programs' results.

  The kernel program is host operations, one kernel region computing incidenceᵀ · features by accumulating eight
  row-tiles per column block, and more host operations; the reference is the same host operations around one
  transpose and one matrix product. The frames of the two kernel programs are the launch theorem for such a
  region with the body run once per case of its two conditionals; the reference's frame is its run with the
  results dropped; nothing was rewritten by idealization; and the results agree because the aggregation is the
  same sum over the 8192 nodes, grouped differently.
-/
import proofs.«149568_j10290741641935_1_alg».proof.Defs
import proofs.«149568_j10290741641935_1_alg».proof.Proof.Gen.Kernel
import proofs.«149568_j10290741641935_1_alg».proof.Proof.Gen.KernelIdeal
import proofs.«149568_j10290741641935_1_alg».proof.Proof.Gen.ReferenceIdeal
import proofs.«149568_j10290741641935_1_alg».proof.Proof.Gen.Pre_finite_inputs
import proofs.«149568_j10290741641935_1_alg».proof.Proof.Gen.ReferenceIdeal.Run
import proofs.«149568_j10290741641935_1_alg».proof.Proof.BitsFrame
import proofs.«149568_j10290741641935_1_alg».proof.Proof.IdealFrame
import proofs.«149568_j10290741641935_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Around.frame m ρ
theorem frame_kernelIdeal : Cert.frame_KernelIdeal := fun m ρ _ => Cert.KernelIdeal.Around.frame m ρ
/-- The reference's frame: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, Cert.Bridge.algebraic⟩

end Cert.Proof

end
